-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S10000x128 : Shape := ⟨2, ![10000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg28 : FVec F S128x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg28
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  main_v93

def fn_part4 {F : FTy → Type} [FloatOps F] (main_arg24 : FVec F S128 .f32) (main_arg25 : FVec F S128x128 .f32) (main_arg26 : FVec F S128x128 .f32) (main_arg27 : FVec F S128 .f32) (main_arg28 : FVec F S128x128 .f32) (main_v63 : IVec S_ 1) (main_v67 : IVec S_ 1) : IVec S_ 1 :=
  let main_v68 : IVec S_ 1 := andi main_v63 main_v67
  let main_v69 : FVec F S128 .f32 := Host.absf main_arg24
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg25
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg26
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg27
  let main_cst_32 : FVec F S_ .f32 := constant S_ .f32 0x7F800000#32
  fn_part5 (F := F) main_arg28 main_v83 main_v84 main_cst_32

def fn_part3 {F : FTy → Type} [FloatOps F] (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg21
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg22
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg23
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg24 main_arg25 main_arg26 main_arg27 main_arg28 main_v63 main_v67

def fn_part2 {F : FTy → Type} [FloatOps F] (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_v33 : IVec S_ 1) : IVec S_ 1 :=
  let main_v34 : FVec F S128x128 .f32 := Host.absf main_arg17
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg18
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg19
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg20
  let main_cst_18 : FVec F S_ .f32 := constant S_ .f32 0x7F800000#32
  let main_v50 : FVec F S128x128 .f32 := broadcastInDim S128x128 ![] bcast_S_S128x128 main_cst_18
  fn_part3 (F := F) main_arg21 main_arg22 main_arg23 main_arg24 main_arg25 main_arg26 main_arg27 main_arg28 main_v48 main_v49 main_v50

def fn_part1 {F : FTy → Type} [FloatOps F] (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S128x128 .f32 := Host.absf main_arg14
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg15
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg16
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg17 main_arg18 main_arg19 main_arg20 main_arg21 main_arg22 main_arg23 main_arg24 main_arg25 main_arg26 main_arg27 main_arg28 main_v33

def fn {F : FTy → Type} [FloatOps F] (main_arg0 : FVec F S100000x128 .f32) (main_arg1 : FVec F S20000x128 .f32) (main_arg2 : FVec F S20000x128 .f32) (main_arg3 : FVec F S10000x128 .f32) (main_arg4 : IVec S800000 32) (main_arg5 : IVec S800000 32) (main_arg6 : IVec S800000 32) (main_arg7 : IVec S800000 32) (main_arg8 : IVec S800000 32) (main_arg9 : IVec S800000 32) (main_arg10 : IVec S800000 32) (main_arg11 : IVec S800000 32) (main_arg12 : IVec S800000 32) (main_arg13 : IVec S800000 32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S10000x128 .f32 := Host.absf main_arg3
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg14 main_arg15 main_arg16 main_arg17 main_arg18 main_arg19 main_arg20 main_arg21 main_arg22 main_arg23 main_arg24 main_arg25 main_arg26 main_arg27 main_arg28 main_v13 main_v16
-- ==== Kernel.lean ====
abbrev S100000x128 : Shape := ⟨2, ![100000, 128]⟩
abbrev S20000x128 : Shape := ⟨2, ![20000, 128]⟩
abbrev S10000x128 : Shape := ⟨2, ![10000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x5 : Shape := ⟨2, ![100000, 5]⟩
abbrev S1x128 : Shape := ⟨2, ![1, 128]⟩
abbrev S2000x128 : Shape := ⟨2, ![2000, 128]⟩
abbrev S2000x5 : Shape := ⟨2, ![2000, 5]⟩
abbrev S2000x1 : Shape := ⟨2, ![2000, 1]⟩

abbrev nBuf : Space → Nat
  | .hbm => 180
  | .vmem => 18
  | .smem => 0
  | _ => 0

abbrev hbmTy0_0 (i : Nat) : BufTy := match i % 128 with
  | 0 => ⟨S100000x128, .f32⟩
  | 1 => ⟨S20000x128, .f32⟩
  | 2 => ⟨S20000x128, .f32⟩
  | 3 => ⟨S10000x128, .f32⟩
  | 4 => ⟨S800000, .i32⟩
  | 5 => ⟨S800000, .i32⟩
  | 6 => ⟨S800000, .i32⟩
  | 7 => ⟨S800000, .i32⟩
  | 8 => ⟨S800000, .i32⟩
  | 9 => ⟨S800000, .i32⟩
  | 10 => ⟨S800000, .i32⟩
  | 11 => ⟨S800000, .i32⟩
  | 12 => ⟨S800000, .i32⟩
  | 13 => ⟨S800000, .i32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S128x128, .f32⟩
  | 27 => ⟨S128, .f32⟩
  | 28 => ⟨S128x128, .f32⟩
  | 29 => ⟨S128x128, .f32⟩
  | 30 => ⟨S20000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S100000x128, .f32⟩
  | 42 => ⟨S800000x1, .i32⟩
  | 43 => ⟨S100000x128, .f32⟩
  | 44 => ⟨S_, .f32⟩
  | 45 => ⟨S800000, .f32⟩
  | 46 => ⟨S_, .f32⟩
  | 47 => ⟨S100000, .f32⟩
  | 48 => ⟨S800000x1, .i32⟩
  | 49 => ⟨S100000, .f32⟩
  | 50 => ⟨S_, .f32⟩
  | 51 => ⟨S100000, .f32⟩
  | 52 => ⟨S100000, .f32⟩
  | 53 => ⟨S_, .f32⟩
  | 54 => ⟨S100000, .f32⟩
  | 55 => ⟨S100000, .f32⟩
  | 56 => ⟨S128x128, .f32⟩
  | 57 => ⟨S20000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S100000x128, .f32⟩
  | 69 => ⟨S800000x1, .i32⟩
  | 70 => ⟨S100000x128, .f32⟩
  | 71 => ⟨S_, .f32⟩
  | 72 => ⟨S800000, .f32⟩
  | 73 => ⟨S_, .f32⟩
  | 74 => ⟨S100000, .f32⟩
  | 75 => ⟨S800000x1, .i32⟩
  | 76 => ⟨S100000, .f32⟩
  | 77 => ⟨S_, .f32⟩
  | 78 => ⟨S100000, .f32⟩
  | 79 => ⟨S100000, .f32⟩
  | 80 => ⟨S_, .f32⟩
  | 81 => ⟨S100000, .f32⟩
  | 82 => ⟨S100000, .f32⟩
  | 83 => ⟨S128x128, .f32⟩
  | 84 => ⟨S20000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S100000x128, .f32⟩
  | 96 => ⟨S800000x1, .i32⟩
  | 97 => ⟨S100000x128, .f32⟩
  | 98 => ⟨S_, .f32⟩
  | 99 => ⟨S800000, .f32⟩
  | 100 => ⟨S_, .f32⟩
  | 101 => ⟨S100000, .f32⟩
  | 102 => ⟨S800000x1, .i32⟩
  | 103 => ⟨S100000, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .f32⟩
  | 110 => ⟨S128x128, .f32⟩
  | 111 => ⟨S20000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S100000x128, .f32⟩
  | 123 => ⟨S800000x1, .i32⟩
  | 124 => ⟨S100000x128, .f32⟩
  | 125 => ⟨S_, .f32⟩
  | 126 => ⟨S800000, .f32⟩
  | 127 => ⟨S_, .f32⟩
  | _ => ⟨S100000x128, .f32⟩

abbrev hbmTy0_1 (i : Nat) : BufTy := match i % 128 with
  | 0 => ⟨S100000, .f32⟩
  | 1 => ⟨S800000x1, .i32⟩
  | 2 => ⟨S100000, .f32⟩
  | 3 => ⟨S_, .f32⟩
  | 4 => ⟨S100000, .f32⟩
  | 5 => ⟨S100000, .f32⟩
  | 6 => ⟨S_, .f32⟩
  | 7 => ⟨S100000, .f32⟩
  | 8 => ⟨S100000, .f32⟩
  | 9 => ⟨S128x128, .f32⟩
  | 10 => ⟨S10000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S100000x128, .f32⟩
  | 22 => ⟨S800000x1, .i32⟩
  | 23 => ⟨S100000x128, .f32⟩
  | 24 => ⟨S_, .f32⟩
  | 25 => ⟨S800000, .f32⟩
  | 26 => ⟨S_, .f32⟩
  | 27 => ⟨S100000, .f32⟩
  | 28 => ⟨S800000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x1, .f32⟩
  | 38 => ⟨S100000x1, .f32⟩
  | 39 => ⟨S100000x1, .f32⟩
  | 40 => ⟨S100000x1, .f32⟩
  | 41 => ⟨S100000x5, .f32⟩
  | 42 => ⟨S128x128, .f32⟩
  | 43 => ⟨S128x128, .f32⟩
  | 44 => ⟨S128x128, .f32⟩
  | 45 => ⟨S128x128, .f32⟩
  | 46 => ⟨S128, .f32⟩
  | 47 => ⟨S128, .f32⟩
  | 48 => ⟨S128, .f32⟩
  | 49 => ⟨S128, .f32⟩
  | 50 => ⟨S1x128, .f32⟩
  | 51 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x5, .f32⟩
  | .local _ .vmem, ⟨13, _⟩ => ⟨S2000x5, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_c : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_v17 : Ref sig .tc := ⟨.hbm, 52, rfl⟩
abbrev main_cst_4 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_v22 : Ref sig .tc := ⟨.hbm, 59, rfl⟩
abbrev main_v23 : Ref sig .tc := ⟨.hbm, 60, rfl⟩
abbrev main_c_6 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_8 : Ref sig .tc := ⟨.hbm, 71, rfl⟩
abbrev main_v32 : Ref sig .tc := ⟨.hbm, 72, rfl⟩
abbrev main_cst_9 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_10 : Ref sig .tc := ⟨.hbm, 77, rfl⟩
abbrev main_v36 : Ref sig .tc := ⟨.hbm, 78, rfl⟩
abbrev main_v37 : Ref sig .tc := ⟨.hbm, 79, rfl⟩
abbrev main_cst_11 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_12 : Ref sig .tc := ⟨.hbm, 85, rfl⟩
abbrev main_v42 : Ref sig .tc := ⟨.hbm, 86, rfl⟩
abbrev main_v43 : Ref sig .tc := ⟨.hbm, 87, rfl⟩
abbrev main_c_13 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_14 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_15 : Ref sig .tc := ⟨.hbm, 98, rfl⟩
abbrev main_v52 : Ref sig .tc := ⟨.hbm, 99, rfl⟩
abbrev main_cst_16 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_17 : Ref sig .tc := ⟨.hbm, 104, rfl⟩
abbrev main_v56 : Ref sig .tc := ⟨.hbm, 105, rfl⟩
abbrev main_v57 : Ref sig .tc := ⟨.hbm, 106, rfl⟩
abbrev main_cst_18 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_19 : Ref sig .tc := ⟨.hbm, 112, rfl⟩
abbrev main_v62 : Ref sig .tc := ⟨.hbm, 113, rfl⟩
abbrev main_v63 : Ref sig .tc := ⟨.hbm, 114, rfl⟩
abbrev main_c_20 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_21 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_22 : Ref sig .tc := ⟨.hbm, 125, rfl⟩
abbrev main_v72 : Ref sig .tc := ⟨.hbm, 126, rfl⟩
abbrev main_cst_23 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_24 : Ref sig .tc := ⟨.hbm, 131, rfl⟩
abbrev main_v76 : Ref sig .tc := ⟨.hbm, 132, rfl⟩
abbrev main_v77 : Ref sig .tc := ⟨.hbm, 133, rfl⟩
abbrev main_cst_25 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_c_26 : Ref sig .tc := ⟨.hbm, 139, rfl⟩
abbrev main_v82 : Ref sig .tc := ⟨.hbm, 140, rfl⟩
abbrev main_v83 : Ref sig .tc := ⟨.hbm, 141, rfl⟩
abbrev main_c_27 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_28 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_29 : Ref sig .tc := ⟨.hbm, 152, rfl⟩
abbrev main_v92 : Ref sig .tc := ⟨.hbm, 153, rfl⟩
abbrev main_cst_30 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_31 : Ref sig .tc := ⟨.hbm, 158, rfl⟩
abbrev main_v96 : Ref sig .tc := ⟨.hbm, 159, rfl⟩
abbrev main_v97 : Ref sig .tc := ⟨.hbm, 160, rfl⟩
abbrev main_cst_32 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x1_S100000x1_S100000x1_S100000x5_d1 : Shape.Concatenates [S100000x1, S100000x1, S100000x1, S100000x1, S100000x1] S100000x5 1
  shapeCasts_S128_S1x128 : S128.ShapeCasts S1x128
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2000x5_o0_0_S2000x1 : S2000x5.Slices ![0, 0] S2000x1
  broadcasts_S2000x1_S2000x128 : S2000x1.Broadcasts S2000x128
  slices_S2000x5_o0_1_S2000x1 : S2000x5.Slices ![0, 1] S2000x1
  slices_S2000x5_o0_2_S2000x1 : S2000x5.Slices ![0, 2] S2000x1
  slices_S2000x5_o0_3_S2000x1 : S2000x5.Slices ![0, 3] S2000x1
  slices_S2000x5_o0_4_S2000x1 : S2000x5.Slices ![0, 4] S2000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S20000x128_S128x128_S20000x128_1_0_0_1_n_n_wf : DotDims.WF S20000x128 S128x128 S20000x128 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S10000x128_S128x128_S10000x128_1_0_0_1_n_n_wf : DotDims.WF S10000x128 S128x128 S10000x128 [1] [0] [0] [1] [] []
  gather_S10000x128_S800000x1_S800000x128_1_0_n_n_0_1_1128_wf : GatherDims.WF S10000x128 S800000x1 S800000x128 [1] [0] [] [0] [] 1 ![1, 128]
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x5.size a ≤ S100000x5.size a
  hwx0_6 : ∀ i : grid0.Coords, EltTy.bits .f32 = 32 ∨ (Rect.block (s := S100000x5) S2000x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v11) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v91) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v105) S2000x5.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v109) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v114) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v115) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S10000x128 : Shape := ⟨2, ![10000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S20000x128, .f32⟩
  | 2 => ⟨S20000x128, .f32⟩
  | 3 => ⟨S10000x128, .f32⟩
  | 4 => ⟨S800000, .i32⟩
  | 5 => ⟨S800000, .i32⟩
  | 6 => ⟨S800000, .i32⟩
  | 7 => ⟨S800000, .i32⟩
  | 8 => ⟨S800000, .i32⟩
  | 9 => ⟨S800000, .i32⟩
  | 10 => ⟨S800000, .i32⟩
  | 11 => ⟨S800000, .i32⟩
  | 12 => ⟨S800000, .i32⟩
  | 13 => ⟨S800000, .i32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S128x128, .f32⟩
  | 27 => ⟨S128, .f32⟩
  | 28 => ⟨S128x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S100000x128, .f32⟩
  | 40 => ⟨S800000x1, .i32⟩
  | 41 => ⟨S100000x128, .f32⟩
  | 42 => ⟨S_, .f32⟩
  | 43 => ⟨S800000, .f32⟩
  | 44 => ⟨S_, .f32⟩
  | 45 => ⟨S100000, .f32⟩
  | 46 => ⟨S800000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S128x128, .f32⟩
  | 55 => ⟨S100000x128, .f32⟩
  | 56 => ⟨S1x128, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S100000x128, .f32⟩
  | 73 => ⟨S800000x1, .i32⟩
  | 74 => ⟨S100000x128, .f32⟩
  | 75 => ⟨S_, .f32⟩
  | 76 => ⟨S800000, .f32⟩
  | 77 => ⟨S_, .f32⟩
  | 78 => ⟨S100000, .f32⟩
  | 79 => ⟨S800000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S128x128, .f32⟩
  | 88 => ⟨S100000x128, .f32⟩
  | 89 => ⟨S1x128, .f32⟩
  | 90 => ⟨S100000x128, .f32⟩
  | 91 => ⟨S100000x128, .f32⟩
  | 92 => ⟨S128x128, .f32⟩
  | 93 => ⟨S100000x128, .f32⟩
  | 94 => ⟨S100000x128, .f32⟩
  | 95 => ⟨S100000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S100000x128, .f32⟩
  | 107 => ⟨S800000x1, .i32⟩
  | 108 => ⟨S100000x128, .f32⟩
  | 109 => ⟨S_, .f32⟩
  | 110 => ⟨S800000, .f32⟩
  | 111 => ⟨S_, .f32⟩
  | 112 => ⟨S100000, .f32⟩
  | 113 => ⟨S800000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S128x128, .f32⟩
  | 122 => ⟨S100000x128, .f32⟩
  | 123 => ⟨S1x128, .f32⟩
  | 124 => ⟨S100000x128, .f32⟩
  | 125 => ⟨S100000x128, .f32⟩
  | 126 => ⟨S128x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S100000x128, .f32⟩
  | 13 => ⟨S800000x1, .i32⟩
  | 14 => ⟨S100000x128, .f32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S128x128, .f32⟩
  | 28 => ⟨S100000x128, .f32⟩
  | 29 => ⟨S1x128, .f32⟩
  | 30 => ⟨S100000x128, .f32⟩
  | 31 => ⟨S100000x128, .f32⟩
  | 32 => ⟨S128x128, .f32⟩
  | 33 => ⟨S100000x128, .f32⟩
  | 34 => ⟨S100000x128, .f32⟩
  | 35 => ⟨S100000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S128x128, .f32⟩
  | 62 => ⟨S100000x128, .f32⟩
  | 63 => ⟨S1x128, .f32⟩
  | 64 => ⟨S100000x128, .f32⟩
  | 65 => ⟨S100000x128, .f32⟩
  | 66 => ⟨S128x128, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_cst_2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_3 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_v27 : Ref sig .tc := ⟨.hbm, 63, rfl⟩
abbrev main_v28 : Ref sig .tc := ⟨.hbm, 64, rfl⟩
abbrev main_c_5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_9 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_10 : Ref sig .tc := ⟨.hbm, 96, rfl⟩
abbrev main_v55 : Ref sig .tc := ⟨.hbm, 97, rfl⟩
abbrev main_v56 : Ref sig .tc := ⟨.hbm, 98, rfl⟩
abbrev main_c_11 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_12 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_13 : Ref sig .tc := ⟨.hbm, 109, rfl⟩
abbrev main_v65 : Ref sig .tc := ⟨.hbm, 110, rfl⟩
abbrev main_cst_14 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_15 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_16 : Ref sig .tc := ⟨.hbm, 130, rfl⟩
abbrev main_v83 : Ref sig .tc := ⟨.hbm, 131, rfl⟩
abbrev main_v84 : Ref sig .tc := ⟨.hbm, 132, rfl⟩
abbrev main_c_17 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_18 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_19 : Ref sig .tc := ⟨.hbm, 143, rfl⟩
abbrev main_v93 : Ref sig .tc := ⟨.hbm, 144, rfl⟩
abbrev main_cst_20 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_21 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_22 : Ref sig .tc := ⟨.hbm, 164, rfl⟩
abbrev main_v111 : Ref sig .tc := ⟨.hbm, 165, rfl⟩
abbrev main_v112 : Ref sig .tc := ⟨.hbm, 166, rfl⟩
abbrev main_c_23 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_24 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_25 : Ref sig .tc := ⟨.hbm, 177, rfl⟩
abbrev main_v121 : Ref sig .tc := ⟨.hbm, 178, rfl⟩
abbrev main_cst_26 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_27 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_call0_cst : Ref sig .tc := ⟨.hbm, 198, rfl⟩
abbrev main_call0_v0 : Ref sig .tc := ⟨.hbm, 199, rfl⟩
abbrev main_v139 : Ref sig .tc := ⟨.hbm, 200, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S10000x128_S800000x1_S800000x128_1_0_n_n_0_1_1128_wf : GatherDims.WF S10000x128 S800000x1 S800000x128 [1] [0] [] [0] [] 1 ![1, 128]

variable [Facts₀]

def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf

class Facts : Prop extends Facts₀ where

variable [Facts]
-- ==== Proof.KernelFrame.lean ====
/- The frame of the kernel program: the host program runs to its end without fault, every argument array ends as
   launched, and the output array ends at the launch contents overwritten block by block by what the kernel body
   leaves in the output window's staging buffer. The body, at each of the 50 grid points, reads nine input blocks
   whole and stores one whole output block computed from them. -/
import proofs.«113430_j8022998908984_2_alg».proof.Proof.Gen.Kernel.Launch
import proofs.«113430_j8022998908984_2_alg».proof.Proof.Gen.Kernel.Skeleton
import proofs.«113430_j8022998908984_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program up to the region -/

/-- What core `c`'s TensorCore buffers hold when the region is entered: the launch contents `m` carried through the
    one stretch of host operations `hostOps0`. -/
abbrev V (c : Dev nD) (b : Ref sig .tc) : Buf (Elt F) ((c : Thread nD τ).loc b) :=
  StableHlo.after (List.flatten [hostOps0]) (fun b => m (c, b)) b

set_option maxHeartbeats 4000000 in
/-- No host operation allocates: each writes a buffer the signature already has. -/
theorem hostOps0_fresh : (hostOps0 : List (HloOp τ sig (Elt F))).Forall fun op => op.fresh = ∅ := by
  simp only [List.Forall]; repeat' constructor

/-- The host program is its stretch of host operations followed by the region, so at the region's entry the buffers
    hold `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! Every host operation writes one of the intermediate values (references 29 and up), never an argument
    (references 0 to 28): an argument reaches the region as launched. -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read through the window's index map off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: whenever the body is entered its current staging buffer holds the window's block of that point.
    At a point that fetches it this is the fetch; at a point that does not, the block index has not moved since the
    last fetch and the body left the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: whenever the body is entered its current staging buffer holds the window's block of that point.
    At a point that fetches it this is the fetch; at a point that does not, the block index has not moved since the
    last fetch and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: whenever the body is entered its current staging buffer holds the window's block of that point.
    At a point that fetches it this is the fetch; at a point that does not, the block index has not moved since the
    last fetch and the body left the buffer as it found it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: whenever the body is entered its current staging buffer holds the window's block of that point.
    At a point that fetches it this is the fetch; at a point that does not, the block index has not moved since the
    last fetch and the body left the buffer as it found it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: whenever the body is entered its current staging buffer holds the window's block of that point.
    At a point that fetches it this is the fetch; at a point that does not, the block index has not moved since the
    last fetch and the body left the buffer as it found it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: whenever the body is entered its current staging buffer holds the window's block of that point.
    At a point that fetches it this is the fetch; at a point that does not, the block index has not moved since the
    last fetch and the body left the buffer as it found it. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: whenever the body is entered its current staging buffer holds the window's block of that point.
    At a point that fetches it this is the fetch; at a point that does not, the block index has not moved since the
    last fetch and the body left the buffer as it found it. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7: whenever the body is entered its current staging buffer holds the window's block of that point.
    At a point that fetches it this is the fetch; at a point that does not, the block index has not moved since the
    last fetch and the body left the buffer as it found it. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8: whenever the body is entered its current staging buffer holds the window's block of that point.
    At a point that fetches it this is the fetch; at a point that does not, the block index has not moved since the
    last fetch and the body left the buffer as it found it. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- If a run from the launch state ends with every array of the pipeline at what the proof data computes and every
    other unscoped buffer as the region found it, then every argument array ends as launched: `main_arg0` is input
    window 5's array, which no point writes back; the other arguments are staged by no window; and no host operation
    wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).1 5).trans (((dats 0 c).arrAt_in 5 rfl _).trans ((hA c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c)⟩) h

/-! ## The body's accesses -/

/-- The whole of each buffer shape the body touches, as a rectangle. -/
abbrev r0_0 : Rect S2000x128 := Rect.unit (s := S2000x128) ![0, 0] S2000x128.size inb_S2000x128_S2000x128_0_0
abbrev r0_1 : Rect S2000x5 := Rect.unit (s := S2000x5) ![0, 0] S2000x5.size inb_S2000x5_S2000x5_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

/-! ## What the body leaves in the output window's buffer -/

/-- Window 9's staging buffer after the body, from the nine input blocks: the body's single store covers the whole
    buffer with `max (s + b) 0`, where `s` is the sum of blocks 0 to 4, each scaled row by row by the matching column of
    the `[2000, 5]` block, plus the product of block 5 with the transposed `[128, 128]` block, both rounded to bf16
    first (`k0_pay2`), and `b` is the bias row (`k0_pay3`) repeated down the rows (`k0_pay1`). -/
def out0_9 (x0 x1 x2 x3 x4 x5 : Vec F S2000x128 .f32) (x6 : Vec F S2000x5 .f32) (x7 : Vec F S128x128 .f32) (x8 : Vec F S1x128 .f32) : Vec F S2000x128 .f32 :=
  View.canon [⟨r0_0, k0_pay1 (k0_pay2 (View.ld x6 r0_1) (View.ld x0 r0_0) (View.ld x1 r0_0) (View.ld x2 r0_0) (View.ld x3 r0_0) (View.ld x4 r0_0) (View.ld x5 r0_0) (View.ld x7 r0_2)) (k0_pay3 (View.ld x8 r0_3))⟩]

/-- The one store's rectangle is the whole buffer, so every cell is covered. -/
theorem cover0_9 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 4000000 in
/-- The kernel body on whole staging memrefs — the nine inputs' holding `x0 … x8`, the output's holding anything — runs
    without fault to a state where the inputs' are as they were and the output's holds `out0_9 x0 … x8`. The body reads
    the output buffer once before overwriting it; the value read is never used. -/
theorem sound_kernel (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x5 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x5 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data on core `c`: the arrays as the region finds them; after the body at point `t` each input's buffer
    still at its block and the output's at `out0_9` of the nine input blocks; the invariant is the scoped rest and the
    random-number register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is entered with at point `t`: the invariant, the core's dues, and each window's current staging
    buffer at what the schedule left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation (`BodyObligation`) of the proof data, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the host program on the TensorCores terminates
    without fault, and in every final state each array of the pipeline holds what the proof data computes and every
    other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- In a final state of the frame run every argument array is as launched: `main_arg0` is input window 5's array,
    which no point writes back; the other arguments are staged by no window; and no host operation wrote any of them. -/
theorem kept_all (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).1 5).trans (((dats m 0 c).arrAt_in 5 rfl _).trans ((A_eq m c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c)⟩

/-- In a final state of the frame run the output array holds the launch contents overwritten, block by block, by what
    the body left in window 9's buffer at each point. -/
theorem post9 (r : PUnit × MemSt nD τ sig (Elt F)) (h : Pipeline.FramePost cfgs (dats m) 0 (V m) r) (c : Dev nD) :
    r.2.mem ((c.tc : Thread nD τ).loc main_v115) = (dats m 0 c).arrAt 9 cfg0.N :=
  (h c).1 9

/-- The frame: the host program runs to the end without fault and leaves its 29 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => kept_all m r h c) (run_main m ρ)

end Cert.Kernel.Hand

end
-- ==== Proof.KernelIdealFrame.lean ====
/- The frame of the kernel program: the host program runs to its end without fault, every argument array ends as
   launched, and the output array ends at the launch contents overwritten block by block by what the kernel body
   leaves in the output window's staging buffer. The body, at each of the 50 grid points, reads nine input blocks
   whole and stores one whole output block computed from them. -/
import proofs.«113430_j8022998908984_2_alg».proof.Proof.Gen.KernelIdeal.Launch
import proofs.«113430_j8022998908984_2_alg».proof.Proof.Gen.KernelIdeal.Skeleton
import proofs.«113430_j8022998908984_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program up to the region -/

/-- What core `c`'s TensorCore buffers hold when the region is entered: the launch contents `m` carried through the
    one stretch of host operations `hostOps0`. -/
abbrev V (c : Dev nD) (b : Ref sig .tc) : Buf (Elt F) ((c : Thread nD τ).loc b) :=
  StableHlo.after (List.flatten [hostOps0]) (fun b => m (c, b)) b

set_option maxHeartbeats 4000000 in
/-- No host operation allocates: each writes a buffer the signature already has. -/
theorem hostOps0_fresh : (hostOps0 : List (HloOp τ sig (Elt F))).Forall fun op => op.fresh = ∅ := by
  simp only [List.Forall]; repeat' constructor

/-- The host program is its stretch of host operations followed by the region, so at the region's entry the buffers
    hold `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! Every host operation writes one of the intermediate values (references 29 and up), never an argument
    (references 0 to 28): an argument reaches the region as launched. -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read through the window's index map off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: whenever the body is entered its current staging buffer holds the window's block of that point.
    At a point that fetches it this is the fetch; at a point that does not, the block index has not moved since the
    last fetch and the body left the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: whenever the body is entered its current staging buffer holds the window's block of that point.
    At a point that fetches it this is the fetch; at a point that does not, the block index has not moved since the
    last fetch and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: whenever the body is entered its current staging buffer holds the window's block of that point.
    At a point that fetches it this is the fetch; at a point that does not, the block index has not moved since the
    last fetch and the body left the buffer as it found it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: whenever the body is entered its current staging buffer holds the window's block of that point.
    At a point that fetches it this is the fetch; at a point that does not, the block index has not moved since the
    last fetch and the body left the buffer as it found it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: whenever the body is entered its current staging buffer holds the window's block of that point.
    At a point that fetches it this is the fetch; at a point that does not, the block index has not moved since the
    last fetch and the body left the buffer as it found it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: whenever the body is entered its current staging buffer holds the window's block of that point.
    At a point that fetches it this is the fetch; at a point that does not, the block index has not moved since the
    last fetch and the body left the buffer as it found it. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: whenever the body is entered its current staging buffer holds the window's block of that point.
    At a point that fetches it this is the fetch; at a point that does not, the block index has not moved since the
    last fetch and the body left the buffer as it found it. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7: whenever the body is entered its current staging buffer holds the window's block of that point.
    At a point that fetches it this is the fetch; at a point that does not, the block index has not moved since the
    last fetch and the body left the buffer as it found it. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8: whenever the body is entered its current staging buffer holds the window's block of that point.
    At a point that fetches it this is the fetch; at a point that does not, the block index has not moved since the
    last fetch and the body left the buffer as it found it. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- If a run from the launch state ends with every array of the pipeline at what the proof data computes and every
    other unscoped buffer as the region found it, then every argument array ends as launched: `main_arg0` is input
    window 5's array, which no point writes back; the other arguments are staged by no window; and no host operation
    wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).1 5).trans (((dats 0 c).arrAt_in 5 rfl _).trans ((hA c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c)⟩) h

/-! ## The body's accesses -/

/-- The whole of each buffer shape the body touches, as a rectangle. -/
abbrev r0_0 : Rect S2000x128 := Rect.unit (s := S2000x128) ![0, 0] S2000x128.size inb_S2000x128_S2000x128_0_0
abbrev r0_1 : Rect S2000x5 := Rect.unit (s := S2000x5) ![0, 0] S2000x5.size inb_S2000x5_S2000x5_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

/-! ## What the body leaves in the output window's buffer -/

/-- Window 9's staging buffer after the body, from the nine input blocks: the body's single store covers the whole
    buffer with `max (s + b) 0`, where `s` is the sum of blocks 0 to 4, each scaled row by row by the matching column of
    the `[2000, 5]` block, plus the product of block 5 with the transposed `[128, 128]` block, both rounded to bf16
    first (`k0_pay2`), and `b` is the bias row (`k0_pay3`) repeated down the rows (`k0_pay1`). -/
def out0_9 (x0 x1 x2 x3 x4 x5 : Vec F S2000x128 .f32) (x6 : Vec F S2000x5 .f32) (x7 : Vec F S128x128 .f32) (x8 : Vec F S1x128 .f32) : Vec F S2000x128 .f32 :=
  View.canon [⟨r0_0, k0_pay1 (k0_pay2 (View.ld x6 r0_1) (View.ld x0 r0_0) (View.ld x1 r0_0) (View.ld x2 r0_0) (View.ld x3 r0_0) (View.ld x4 r0_0) (View.ld x5 r0_0) (View.ld x7 r0_2)) (k0_pay3 (View.ld x8 r0_3))⟩]

/-- The one store's rectangle is the whole buffer, so every cell is covered. -/
theorem cover0_9 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 4000000 in
/-- The kernel body on whole staging memrefs — the nine inputs' holding `x0 … x8`, the output's holding anything — runs
    without fault to a state where the inputs' are as they were and the output's holds `out0_9 x0 … x8`. The body reads
    the output buffer once before overwriting it; the value read is never used. -/
theorem sound_kernel (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x5 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x5 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data on core `c`: the arrays as the region finds them; after the body at point `t` each input's buffer
    still at its block and the output's at `out0_9` of the nine input blocks; the invariant is the scoped rest and the
    random-number register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is entered with at point `t`: the invariant, the core's dues, and each window's current staging
    buffer at what the schedule left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation (`BodyObligation`) of the proof data, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the host program on the TensorCores terminates
    without fault, and in every final state each array of the pipeline holds what the proof data computes and every
    other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- In a final state of the frame run every argument array is as launched: `main_arg0` is input window 5's array,
    which no point writes back; the other arguments are staged by no window; and no host operation wrote any of them. -/
theorem kept_all (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).1 5).trans (((dats m 0 c).arrAt_in 5 rfl _).trans ((A_eq m c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c)⟩

/-- In a final state of the frame run the output array holds the launch contents overwritten, block by block, by what
    the body left in window 9's buffer at each point. -/
theorem post9 (r : PUnit × MemSt nD τ sig (Elt F)) (h : Pipeline.FramePost cfgs (dats m) 0 (V m) r) (c : Dev nD) :
    r.2.mem ((c.tc : Thread nD τ).loc main_v115) = (dats m 0 c).arrAt 9 cfg0.N :=
  (h c).1 9

/-- The frame: the host program runs to the end without fault and leaves its 29 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => kept_all m r h c) (run_main m ρ)

end Cert.KernelIdeal.Hand

end
-- ==== Proof.KernelHost.lean ====
/- What the kernel's region finds in the arrays the host wrote before it: each relation's aggregate (a segment sum of
   gathered rows of a projected table), its normaliser (the reciprocal of the in-degree clamped below at one), the five
   normalisers side by side, the summed self weights and the summed biases — each as the host operations' composed term
   of the argument arrays, at the ideal instance (extended reals, exact operations). -/
import proofs.«113430_j8022998908984_2_alg».proof.Proof.KernelIdealFrame
import Idealize.ShloMosaic.PureOps.Ideal
import Idealize.ShloMosaic.Lib.StableHlo.Run

set_option maxRecDepth 16384

noncomputable section

namespace Cert.KernelIdeal.HostValue

open Cert.KernelIdeal Cert.KernelIdeal.Gen Cert.KernelIdeal.Hand
open Idealize.ShloMosaic Idealize.ShloMosaic.TcCoe

variable (m : (ℓ : Loc nD τ sig) → Buf (Elt Ideal) ℓ) (c : Dev nD)

/-! ## The host program's terms

Each relation's aggregate is a segment sum of gathered rows of a projected table; its normaliser is the reciprocal of
the in-degree clamped below at one. The definitions below are the host operations composed, nothing more. -/

/-- The destination indices as a column. -/
def dstCol (dst : IVec S800000 32) : IVec S800000x1 32 :=
  broadcastInDim S800000x1 ![0] bcast_S800000_S800000x1_0 dst

/-- The source indices as a column, a negative index first wrapped by adding the table's row count `N`. -/
def srcCol (N : BitVec 32) (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 N))) src)

/-- A relation's aggregate over a 20000-row source table `x`: the rows of `x · wlᵀ` gathered at the source indices and
    summed into the rows the destination indices name, from zero. -/
def aggTerm20 (x : FVec Ideal S20000x128 .f32) (wl : FVec Ideal S128x128 .f32) (src dst : IVec S800000 32) :
    FVec Ideal S100000x128 .f32 :=
  Host.scatterAdd scatter_S100000x128_S800000x1_S800000x128_1_0_0_1
    (broadcastInDim S100000x128 ![] bcast_S_S100000x128 (constant (F := Ideal) S_ .f32 0x00000000#32))
    (dstCol dst)
    (Host.gather gather_S20000x128_S800000x1_S800000x128_1_0_n_n_0_1_1128
      (Host.dotGeneral dot_S20000x128_S128x128_S20000x128_1_0_0_1_n_n none x
        (transpose S128x128 [1, 0] wl transposes_S128x128_S128x128_1_0))
      (srcCol 20000#32 src))

/-- The same over a 10000-row source table. -/
def aggTerm10 (x : FVec Ideal S10000x128 .f32) (wl : FVec Ideal S128x128 .f32) (src dst : IVec S800000 32) :
    FVec Ideal S100000x128 .f32 :=
  Host.scatterAdd scatter_S100000x128_S800000x1_S800000x128_1_0_0_1
    (broadcastInDim S100000x128 ![] bcast_S_S100000x128 (constant (F := Ideal) S_ .f32 0x00000000#32))
    (dstCol dst)
    (Host.gather gather_S10000x128_S800000x1_S800000x128_1_0_n_n_0_1_1128
      (Host.dotGeneral dot_S10000x128_S128x128_S10000x128_1_0_0_1_n_n none x
        (transpose S128x128 [1, 0] wl transposes_S128x128_S128x128_1_0))
      (srcCol 10000#32 src))

/-- A relation's normaliser: one over the in-degree (ones summed into the destination indices, from zero) clamped
    below at one. -/
def invTerm (dst : IVec S800000 32) : FVec Ideal S100000 .f32 :=
  Host.divf (broadcastInDim S100000 ![] bcast_S_S100000 (constant (F := Ideal) S_ .f32 0x3F800000#32))
    (maximumf
      (Host.scatterAdd scatter_S100000_S800000x1_S800000_n_0_0_1
        (broadcastInDim S100000 ![] bcast_S_S100000 (constant (F := Ideal) S_ .f32 0x00000000#32))
        (dstCol dst)
        (broadcastInDim S800000 ![] bcast_S_S800000 (constant (F := Ideal) S_ .f32 0x3F800000#32)))
      (broadcastInDim S100000 ![] bcast_S_S100000 (constant (F := Ideal) S_ .f32 0x3F800000#32)))

/-- A normaliser as a column. -/
def invCol (dst : IVec S800000 32) : FVec Ideal S100000x1 .f32 :=
  broadcastInDim S100000x1 ![0] bcast_S100000_S100000x1_0 (invTerm dst)

/-! ## A five-operand operation's result, with each operand read at its own reference -/

/-- The result of an operation over a literal family of five references is the operation's function of the five
    operands' contents, each read at its own reference. -/
theorem nary5_result' {Val : EltTy → Type} {x a b d e y : Ref sig .tc}
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (no_index (Proc.devRef .tc y))
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl

/-! ## The arrays the host wrote, as terms of the argument arrays -/

set_option maxHeartbeats 8000000 in
/-- Relation 1's aggregate, as the host computes it from the argument arrays. -/
theorem V_main_v11 :
    @Eq (FVec Ideal S100000x128 .f32) (V m c main_v11)
      (aggTerm20 (m ((c : Thread nD τ).loc main_arg1)) (m ((c : Thread nD τ).loc main_arg14)) (m ((c : Thread nD τ).loc main_arg4)) (m ((c : Thread nD τ).loc main_arg5))) := by
  dsimp only [Hand.V]
  simp only [Gen.hostOps0, List.flatten_cons, List.flatten_nil, List.append_nil]
  after_results_simp
  all_goals rfl

set_option maxHeartbeats 8000000 in
/-- Relation 2's aggregate, as the host computes it from the argument arrays. -/
theorem V_main_v31 :
    @Eq (FVec Ideal S100000x128 .f32) (V m c main_v31)
      (aggTerm20 (m ((c : Thread nD τ).loc main_arg1)) (m ((c : Thread nD τ).loc main_arg17)) (m ((c : Thread nD τ).loc main_arg6)) (m ((c : Thread nD τ).loc main_arg7))) := by
  dsimp only [Hand.V]
  simp only [Gen.hostOps0, List.flatten_cons, List.flatten_nil, List.append_nil]
  after_results_simp
  all_goals rfl

set_option maxHeartbeats 8000000 in
/-- Relation 3's aggregate, as the host computes it from the argument arrays. -/
theorem V_main_v51 :
    @Eq (FVec Ideal S100000x128 .f32) (V m c main_v51)
      (aggTerm20 (m ((c : Thread nD τ).loc main_arg2)) (m ((c : Thread nD τ).loc main_arg20)) (m ((c : Thread nD τ).loc main_arg8)) (m ((c : Thread nD τ).loc main_arg9))) := by
  dsimp only [Hand.V]
  simp only [Gen.hostOps0, List.flatten_cons, List.flatten_nil, List.append_nil]
  after_results_simp
  all_goals rfl

set_option maxHeartbeats 8000000 in
/-- Relation 4's aggregate, as the host computes it from the argument arrays. -/
theorem V_main_v71 :
    @Eq (FVec Ideal S100000x128 .f32) (V m c main_v71)
      (aggTerm20 (m ((c : Thread nD τ).loc main_arg2)) (m ((c : Thread nD τ).loc main_arg23)) (m ((c : Thread nD τ).loc main_arg10)) (m ((c : Thread nD τ).loc main_arg11))) := by
  dsimp only [Hand.V]
  simp only [Gen.hostOps0, List.flatten_cons, List.flatten_nil, List.append_nil]
  after_results_simp
  all_goals rfl

set_option maxHeartbeats 8000000 in
/-- Relation 5's aggregate, as the host computes it from the argument arrays. -/
theorem V_main_v91 :
    @Eq (FVec Ideal S100000x128 .f32) (V m c main_v91)
      (aggTerm10 (m ((c : Thread nD τ).loc main_arg3)) (m ((c : Thread nD τ).loc main_arg26)) (m ((c : Thread nD τ).loc main_arg12)) (m ((c : Thread nD τ).loc main_arg13))) := by
  dsimp only [Hand.V]
  simp only [Gen.hostOps0, List.flatten_cons, List.flatten_nil, List.append_nil]
  after_results_simp
  all_goals rfl

set_option maxHeartbeats 8000000 in
/-- Relation 1's normaliser, as the host computes it from the destination indices. -/
theorem V_main_v19 :
    @Eq (FVec Ideal S100000 .f32) (V m c main_v19) (invTerm (m ((c : Thread nD τ).loc main_arg5))) := by
  dsimp only [Hand.V]
  simp only [Gen.hostOps0, List.flatten_cons, List.flatten_nil, List.append_nil]
  after_results_simp
  all_goals rfl

set_option maxHeartbeats 8000000 in
/-- Relation 2's normaliser, as the host computes it from the destination indices. -/
theorem V_main_v39 :
    @Eq (FVec Ideal S100000 .f32) (V m c main_v39) (invTerm (m ((c : Thread nD τ).loc main_arg7))) := by
  dsimp only [Hand.V]
  simp only [Gen.hostOps0, List.flatten_cons, List.flatten_nil, List.append_nil]
  after_results_simp
  all_goals rfl

set_option maxHeartbeats 8000000 in
/-- Relation 3's normaliser, as the host computes it from the destination indices. -/
theorem V_main_v59 :
    @Eq (FVec Ideal S100000 .f32) (V m c main_v59) (invTerm (m ((c : Thread nD τ).loc main_arg9))) := by
  dsimp only [Hand.V]
  simp only [Gen.hostOps0, List.flatten_cons, List.flatten_nil, List.append_nil]
  after_results_simp
  all_goals rfl

set_option maxHeartbeats 8000000 in
/-- Relation 4's normaliser, as the host computes it from the destination indices. -/
theorem V_main_v79 :
    @Eq (FVec Ideal S100000 .f32) (V m c main_v79) (invTerm (m ((c : Thread nD τ).loc main_arg11))) := by
  dsimp only [Hand.V]
  simp only [Gen.hostOps0, List.flatten_cons, List.flatten_nil, List.append_nil]
  after_results_simp
  all_goals rfl

set_option maxHeartbeats 8000000 in
/-- Relation 5's normaliser, as the host computes it from the destination indices. -/
theorem V_main_v99 :
    @Eq (FVec Ideal S100000 .f32) (V m c main_v99) (invTerm (m ((c : Thread nD τ).loc main_arg13))) := by
  dsimp only [Hand.V]
  simp only [Gen.hostOps0, List.flatten_cons, List.flatten_nil, List.append_nil]
  after_results_simp
  all_goals rfl

set_option maxHeartbeats 8000000 in
/-- Relation 1's normaliser as a column. -/
theorem V_main_v100 :
    @Eq (FVec Ideal S100000x1 .f32) (V m c main_v100) (invCol (m ((c : Thread nD τ).loc main_arg5))) := by
  dsimp only [Hand.V]
  simp only [Gen.hostOps0, List.flatten_cons, List.flatten_nil, List.append_nil]
  after_results_simp
  all_goals rfl

set_option maxHeartbeats 8000000 in
/-- Relation 2's normaliser as a column. -/
theorem V_main_v101 :
    @Eq (FVec Ideal S100000x1 .f32) (V m c main_v101) (invCol (m ((c : Thread nD τ).loc main_arg7))) := by
  dsimp only [Hand.V]
  simp only [Gen.hostOps0, List.flatten_cons, List.flatten_nil, List.append_nil]
  after_results_simp
  all_goals rfl

set_option maxHeartbeats 8000000 in
/-- Relation 3's normaliser as a column. -/
theorem V_main_v102 :
    @Eq (FVec Ideal S100000x1 .f32) (V m c main_v102) (invCol (m ((c : Thread nD τ).loc main_arg9))) := by
  dsimp only [Hand.V]
  simp only [Gen.hostOps0, List.flatten_cons, List.flatten_nil, List.append_nil]
  after_results_simp
  all_goals rfl

set_option maxHeartbeats 8000000 in
/-- Relation 4's normaliser as a column. -/
theorem V_main_v103 :
    @Eq (FVec Ideal S100000x1 .f32) (V m c main_v103) (invCol (m ((c : Thread nD τ).loc main_arg11))) := by
  dsimp only [Hand.V]
  simp only [Gen.hostOps0, List.flatten_cons, List.flatten_nil, List.append_nil]
  after_results_simp
  all_goals rfl

set_option maxHeartbeats 8000000 in
/-- Relation 5's normaliser as a column. -/
theorem V_main_v104 :
    @Eq (FVec Ideal S100000x1 .f32) (V m c main_v104) (invCol (m ((c : Thread nD τ).loc main_arg13))) := by
  dsimp only [Hand.V]
  simp only [Gen.hostOps0, List.flatten_cons, List.flatten_nil, List.append_nil]
  after_results_simp
  all_goals rfl

set_option maxHeartbeats 16000000 in
/-- The five normaliser columns side by side: the concatenation reads each column as the host left it. -/
theorem V_main_v105_cols :
    @Eq (FVec Ideal S100000x5 .f32) (V m c main_v105)
      (concatenate S100000x5 1
        [⟨S100000x1, V m c main_v100⟩, ⟨S100000x1, V m c main_v101⟩, ⟨S100000x1, V m c main_v102⟩,
         ⟨S100000x1, V m c main_v103⟩, ⟨S100000x1, V m c main_v104⟩]
        concatenates_S100000x1_S100000x1_S100000x1_S100000x1_S100000x1_S100000x5_d1) := by
  dsimp only [Hand.V]
  simp only [Gen.hostOps0, List.flatten_cons, List.flatten_nil, List.append_nil]
  simp only [StableHlo.after_cons, StableHlo.after_nil]
  simp (disch := decide) only [nary5_result',
    StableHlo.nullary_result_ne', StableHlo.unary_result_ne', StableHlo.binary_result_ne', StableHlo.ternary_result_ne',
    StableHlo.reshape_result_ne', StableHlo.nary_result_ne']
  all_goals rfl

/-- The five normalisers side by side, one column per relation. -/
theorem V_main_v105 :
    @Eq (FVec Ideal S100000x5 .f32) (V m c main_v105)
      (concatenate S100000x5 1
        [⟨S100000x1, invCol (m ((c : Thread nD τ).loc main_arg5))⟩, ⟨S100000x1, invCol (m ((c : Thread nD τ).loc main_arg7))⟩, ⟨S100000x1, invCol (m ((c : Thread nD τ).loc main_arg9))⟩,
         ⟨S100000x1, invCol (m ((c : Thread nD τ).loc main_arg11))⟩, ⟨S100000x1, invCol (m ((c : Thread nD τ).loc main_arg13))⟩]
        concatenates_S100000x1_S100000x1_S100000x1_S100000x1_S100000x1_S100000x5_d1) := by
  rw [V_main_v105_cols, V_main_v100, V_main_v101, V_main_v102, V_main_v103, V_main_v104]

set_option maxHeartbeats 4000000 in
/-- The summed self weights, as the host adds them. -/
theorem V_main_v109 :
    @Eq (FVec Ideal S128x128 .f32) (V m c main_v109)
      (addf (addf (addf (addf (m ((c : Thread nD τ).loc main_arg16)) (m ((c : Thread nD τ).loc main_arg19)))
          (m ((c : Thread nD τ).loc main_arg22))) (m ((c : Thread nD τ).loc main_arg25))) (m ((c : Thread nD τ).loc main_arg28))) := by
  dsimp only [Hand.V]
  simp only [Gen.hostOps0, List.flatten_cons, List.flatten_nil, List.append_nil]
  after_results_simp

set_option maxHeartbeats 8000000 in
/-- The summed biases as a row, as the host adds and reshapes them. -/
theorem V_main_v114 :
    @Eq (FVec Ideal S1x128 .f32) (V m c main_v114)
      (shapeCast S1x128 (addf (addf (addf (addf (m ((c : Thread nD τ).loc main_arg15)) (m ((c : Thread nD τ).loc main_arg18))) (m ((c : Thread nD τ).loc main_arg21))) (m ((c : Thread nD τ).loc main_arg24))) (m ((c : Thread nD τ).loc main_arg27))) shapeCasts_S128_S1x128) := by
  dsimp only [Hand.V]
  simp only [Gen.hostOps0, List.flatten_cons, List.flatten_nil, List.append_nil]
  after_results_simp
  all_goals rfl

end Cert.KernelIdeal.HostValue

end
-- ==== Proof.Reads.lean ====
/-
  Host and vector operations of the two programs read at one index, at the exact instance (entries are extended
  reals): a matrix product with a plain `[M, K] × [K, N]` contraction and one against a transposed right operand as a
  sum over the contracted coordinate, a transposed matrix, and the broadcasts that turn a scalar, a vector of row
  values or a bias row into a matrix.
-/
import Idealize.ShloMosaic.PureOps.Ideal
import Idealize.ShloMosaic.PureOps.Ideal.Laws
import Idealize.ShloMosaic.Lib.ValueIdx
import Idealize.ShloMosaic.Lib.Pipeline.Value

noncomputable section

namespace Cert.Reads

open Idealize.ShloMosaic Idealize.ShloMosaic.ValueIdx

/-- The bit pattern of `+0.0` denotes zero. -/
theorem ofBits_zero : Ideal.ofBits .f32 0x00000000#32 = 0 := Ideal.ofBits_zero_f32

/-- The bit pattern of `1.0` denotes one. -/
theorem ofBits_one : Ideal.ofBits .f32 0x3F800000#32 = 1 := by
  simp [Ideal.ofBits, Ideal.ieee, -EReal.coe_mul]; norm_num

/-- A plain product `[M, 128] × [128, 128]`: entry `(i, n)` is the sum over `k` of `l (i, k) · r (k, n)`. -/
theorem dot_plain_apply (M : Nat) (l : FVec Ideal ⟨2, ![M, 128]⟩ .f32) (r : FVec Ideal ⟨2, ![128, 128]⟩ .f32)
    (i : Fin M) (n : Fin 128) :
    Host.dotGeneral (DotDims.plain M 128 128) none l r (ix2 i n) = ∑ k : Fin 128, l (ix2 i k) * r (ix2 k n) := by
  simp only [Host.dotGeneral]
  rw [Ideal.dotGeneral_apply, ← Equiv.sum_comp (contrEquiv1 (DotDims.plain M 128 128) 128 rfl rfl).symm]
  refine Finset.sum_congr rfl fun k _ => ?_
  have hk := contrEquiv1_symm_val (DotDims.plain M 128 128) 128 rfl rfl k
  have el : (DotDims.plain M 128 128).lhsIdx (ix2 i n) ((contrEquiv1 (DotDims.plain M 128 128) 128 rfl rfl).symm k) = ix2 i k :=
    funext fun a => Fin.ext (by
      match a with
      | ⟨0, _⟩ =>
        show ((DotDims.plain M 128 128).lhsIdx (ix2 i n) _ 0).val = i.val
        unfold DotDims.lhsIdx
        rw [dif_neg (show ¬(0 : Fin 2) ∈ (DotDims.plain M 128 128).lhsBatch from List.not_mem_nil),
          dif_pos (show (0 : Fin 2) ∈ (DotDims.plain M 128 128).lhsNonContracting from List.mem_singleton.mpr rfl)]
        rfl
      | ⟨1, _⟩ => exact ((DotDims.plain M 128 128).lhsIdx_val_of_single rfl (ix2 i n) _).trans hk)
  have er : (DotDims.plain M 128 128).rhsIdx (ix2 i n) ((contrEquiv1 (DotDims.plain M 128 128) 128 rfl rfl).symm k) = ix2 k n :=
    funext fun a => Fin.ext (by
      match a with
      | ⟨0, _⟩ => exact ((DotDims.plain M 128 128).rhsIdx_val_of_single rfl (ix2 i n) _).trans hk
      | ⟨1, _⟩ =>
        show ((DotDims.plain M 128 128).rhsIdx (ix2 i n) _ 1).val = n.val
        unfold DotDims.rhsIdx
        rw [dif_neg (show ¬(1 : Fin 2) ∈ (DotDims.plain M 128 128).rhsBatch from List.not_mem_nil),
          dif_pos (show (1 : Fin 2) ∈ (DotDims.plain M 128 128).rhsNonContracting from List.mem_singleton.mpr rfl)]
        rfl)
  rw [el, er]

/-- The contraction of a `[2000, 128]` block with the ROWS of a `[128, 128]` matrix (both operands contract their
    second axis): the product with the transposed matrix. -/
def dotRows : DotDims ⟨2, ![2000, 128]⟩ ⟨2, ![128, 128]⟩ ⟨2, ![2000, 128]⟩ where
  lhsContracting := [1]
  rhsContracting := [1]
  lhsNonContracting := [0]
  rhsNonContracting := [0]
  lhsBatch := []
  rhsBatch := []
  wf := by decide

/-- Into a zero accumulator, entry `(y, n)` of that product is the sum over `k` of `l (y, k) · r (n, k)`. -/
theorem matmul_rows_apply {φ₁ φ₂ : FTy} (l : FVec Ideal ⟨2, ![2000, 128]⟩ φ₁) (r : FVec Ideal ⟨2, ![128, 128]⟩ φ₂)
    (y : Fin 2000) (n : Fin 128) :
    matmul dotRows none l r (constant (F := Ideal) ⟨2, ![2000, 128]⟩ .f32 0x00000000#32) (ix2 y n)
      = ∑ k : Fin 128, l (ix2 y k) * r (ix2 n k) := by
  simp only [matmul]
  rw [Ideal.matmul_constant_zero_apply, ← Equiv.sum_comp (contrEquiv1 dotRows 128 rfl rfl).symm]
  refine Finset.sum_congr rfl fun k _ => ?_
  have hk := contrEquiv1_symm_val dotRows 128 rfl rfl k
  have el : dotRows.lhsIdx (ix2 y n) ((contrEquiv1 dotRows 128 rfl rfl).symm k) = ix2 y k :=
    funext fun a => Fin.ext (by
      match a with
      | ⟨0, _⟩ =>
        show (dotRows.lhsIdx (ix2 y n) _ 0).val = y.val
        unfold DotDims.lhsIdx
        rw [dif_neg (show ¬(0 : Fin 2) ∈ dotRows.lhsBatch by decide),
          dif_pos (show (0 : Fin 2) ∈ dotRows.lhsNonContracting by decide)]
        rfl
      | ⟨1, _⟩ => exact (dotRows.lhsIdx_val_of_single rfl (ix2 y n) _).trans hk)
  have er : dotRows.rhsIdx (ix2 y n) ((contrEquiv1 dotRows 128 rfl rfl).symm k) = ix2 n k :=
    funext fun a => Fin.ext (by
      match a with
      | ⟨0, _⟩ =>
        show (dotRows.rhsIdx (ix2 y n) _ 0).val = n.val
        unfold DotDims.rhsIdx
        rw [dif_neg (show ¬(0 : Fin 2) ∈ dotRows.rhsBatch by decide),
          dif_pos (show (0 : Fin 2) ∈ dotRows.rhsNonContracting by decide)]
        rfl
      | ⟨1, _⟩ => exact (dotRows.rhsIdx_val_of_single rfl (ix2 y n) _).trans hk)
  rw [el, er]

/-- A transposed square matrix: entry `(k, n)` is the original's `(n, k)`. -/
theorem transpose_ix2 {α : Type} (w : (⟨2, ![128, 128]⟩ : Shape).Idx → α)
    (h : (⟨2, ![128, 128]⟩ : Shape).Transposes [1, 0] ⟨2, ![128, 128]⟩) (k n : Fin 128) :
    transpose ⟨2, ![128, 128]⟩ [1, 0] w h (ix2 k n) = w (ix2 n k) :=
  transpose_apply [1, 0] w h (ix2 k n) (ix2 n k) (fun b => match b with
    | ⟨0, _⟩ => rfl
    | ⟨1, _⟩ => rfl)

/-- A scalar broadcast to any shape: every entry is the scalar. -/
theorem bcast_scalar {α : Type} {t : Shape} (h : (⟨0, ![]⟩ : Shape).BroadcastsInDim t ![]) (x : (⟨0, ![]⟩ : Shape).Idx → α)
    (j : t.Idx) : broadcastInDim t ![] h x j = x ix0 :=
  broadcastInDim_apply ![] h x j ix0 (fun a => a.elim0)

/-- A vector of `M` values as a column `[M, 1]`: entry `(j, 0)` is the `j`-th value. -/
theorem bcast_col {α : Type} (M : Nat) (hM : M ≠ 1) (h : (⟨1, ![M]⟩ : Shape).BroadcastsInDim ⟨2, ![M, 1]⟩ ![0])
    (x : (⟨1, ![M]⟩ : Shape).Idx → α) (j : Fin M) (z : Fin 1) :
    broadcastInDim ⟨2, ![M, 1]⟩ ![0] h x (ix2 j z) = x (ix1 j) :=
  broadcastInDim_apply ![0] h x (ix2 j z) (ix1 j) (fun a => match a with
    | ⟨0, _⟩ => by show j.val = if M = 1 then 0 else j.val; rw [if_neg hM])

/-- A column `[M, 1]` repeated along `128` lanes: entry `(j, n)` is the column's `(j, 0)`. -/
theorem bcast_col_lanes {α : Type} (M : Nat) (hM : M ≠ 1)
    (h : (⟨2, ![M, 1]⟩ : Shape).BroadcastsInDim ⟨2, ![M, 128]⟩ ![0, 1])
    (x : (⟨2, ![M, 1]⟩ : Shape).Idx → α) (j : Fin M) (n : Fin 128) :
    broadcastInDim ⟨2, ![M, 128]⟩ ![0, 1] h x (ix2 j n) = x (ix2 j 0) :=
  broadcastInDim_apply ![0, 1] h x (ix2 j n) (ix2 j 0) (fun a => match a with
    | ⟨0, _⟩ => by show j.val = if M = 1 then 0 else j.val; rw [if_neg hM]
    | ⟨1, _⟩ => by show 0 = if (1 : Nat) = 1 then 0 else n.val; rw [if_pos rfl])

/-- A vector of `128` values as a row `[1, 128]`: entry `(0, n)` is the `n`-th value. -/
theorem bcast_row {α : Type} (h : (⟨1, ![128]⟩ : Shape).BroadcastsInDim ⟨2, ![1, 128]⟩ ![1])
    (x : (⟨1, ![128]⟩ : Shape).Idx → α) (z : Fin 1) (n : Fin 128) :
    broadcastInDim ⟨2, ![1, 128]⟩ ![1] h x (ix2 z n) = x (ix1 n) :=
  broadcastInDim_apply ![1] h x (ix2 z n) (ix1 n) (fun a => match a with
    | ⟨0, _⟩ => by show n.val = if (128 : Nat) = 1 then 0 else n.val; rw [if_neg (by decide)])

/-- A row `[1, 128]` repeated down `M` rows: entry `(j, n)` is the row's `(0, n)`. -/
theorem bcast_row_rows {α : Type} (M : Nat)
    (h : (⟨2, ![1, 128]⟩ : Shape).BroadcastsInDim ⟨2, ![M, 128]⟩ ![0, 1])
    (x : (⟨2, ![1, 128]⟩ : Shape).Idx → α) (j : Fin M) (n : Fin 128) :
    broadcastInDim ⟨2, ![M, 128]⟩ ![0, 1] h x (ix2 j n) = x (ix2 0 n) :=
  broadcastInDim_apply ![0, 1] h x (ix2 j n) (ix2 0 n) (fun a => match a with
    | ⟨0, _⟩ => by show 0 = if (1 : Nat) = 1 then 0 else j.val; rw [if_pos rfl]
    | ⟨1, _⟩ => by show n.val = if (128 : Nat) = 1 then 0 else n.val; rw [if_neg (by decide)])

/-- A column of a `[2000, 5]` block sliced out and repeated along `128` lanes: entry `(y, n)` is the block's `(y, r)`. -/
theorem col_lanes {α : Type} (r : Fin 5) (v : (⟨2, ![2000, 5]⟩ : Shape).Idx → α)
    (hs : (⟨2, ![2000, 5]⟩ : Shape).Slices ![0, r.val] ⟨2, ![2000, 1]⟩)
    (hb : (⟨2, ![2000, 1]⟩ : Shape).Broadcasts ⟨2, ![2000, 128]⟩) (y : Fin 2000) (n : Fin 128) :
    broadcastTo ⟨2, ![2000, 128]⟩ (extractStridedSlice ⟨2, ![2000, 1]⟩ ![0, r.val] v hs) hb (ix2 y n) = v (ix2 y r) := by
  rw [broadcastTo_apply _ hb (ix2 y n) (ix2 y 0) (fun a => match a with
    | ⟨0, _⟩ => by show y.val = if (2000 : Nat) = 1 then 0 else y.val; rw [if_neg (by decide)]
    | ⟨1, _⟩ => by show 0 = if (1 : Nat) = 1 then 0 else _; rw [if_pos rfl])]
  exact extractStridedSlice_apply ![0, r.val] v hs (ix2 y 0) (ix2 y r) (fun a => match a with
    | ⟨0, _⟩ => by show y.val = 0 + y.val; omega
    | ⟨1, _⟩ => by show r.val = r.val + 0; omega)

/-- A `[1, 128]` row repeated down `2000` rows: entry `(y, n)` is the row's `(0, n)`. -/
theorem row_rows {α : Type} (v : (⟨2, ![1, 128]⟩ : Shape).Idx → α)
    (hb : (⟨2, ![1, 128]⟩ : Shape).Broadcasts ⟨2, ![2000, 128]⟩) (y : Fin 2000) (n : Fin 128) :
    broadcastTo ⟨2, ![2000, 128]⟩ v hb (ix2 y n) = v (ix2 0 n) :=
  broadcastTo_apply v hb (ix2 y n) (ix2 0 n) (fun a => match a with
    | ⟨0, _⟩ => by show 0 = if (1 : Nat) = 1 then 0 else _; rw [if_pos rfl]
    | ⟨1, _⟩ => by show n.val = if (128 : Nat) = 1 then 0 else n.val; rw [if_neg (by decide)])

end Cert.Reads

end
-- ==== Proof.KernelBlocks.lean ====
/-
  The kernel's blocks. Part one: the body's result at one entry of the output block, as a formula in the entries of the
  nine input blocks. Part two: where each window's block at grid point `t` sits in its array — the seven row-blocked
  windows of `[100000, 128]` arrays and the `[100000, 5]` one at rows `2000 t … 2000 t + 1999`, the weight and bias
  windows at the whole of their arrays at every point — and that the output's fifty blocks cover its array.
-/
import proofs.«113430_j8022998908984_2_alg».proof.Proof.KernelIdealFrame
import proofs.«113430_j8022998908984_2_alg».proof.Proof.Reads
import Idealize.ShloMosaic.Lib.Pipeline.Value
import Idealize.ShloMosaic.Lib.ValueIdx

noncomputable section

namespace Cert.KernelIdeal.Blocks

open Cert.KernelIdeal Cert.KernelIdeal.Gen Cert.KernelIdeal.Hand Idealize.ShloMosaic Idealize.ShloMosaic.ValueIdx Cert.Reads
open scoped BigOperators

/-- The offset of a rectangle that starts at the origin. -/
theorem hz : (![0, 0] : Fin 2 → Nat) = fun _ => 0 := funext fun a => by fin_cases a <;> rfl

/-- The body's result at entry `(y, n)` of the output block: the five blocks `x0 … x4`, each scaled row by row by
    its column of the `[2000, 5]` block `x6`, summed from the left; plus row `y` of `x5` against row `n` of the
    weight block `x7`; plus the bias `x8` at lane `n`; clamped below at zero. Every load and the one store are of whole
    buffers, the shape casts are onto the same shape, and the narrowing of the product's operands changes nothing
    over the extended reals. -/
theorem out9_apply (x0 x1 x2 x3 x4 x5 : Vec Ideal S2000x128 .f32) (x6 : Vec Ideal S2000x5 .f32)
    (x7 : Vec Ideal S128x128 .f32) (x8 : Vec Ideal S1x128 .f32) (y : Fin 2000) (n : Fin 128) :
    out0_9 x0 x1 x2 x3 x4 x5 x6 x7 x8 (ix2 y n)
      = max ((((((x0 (ix2 y n) * x6 (ix2 y 0) + x1 (ix2 y n) * x6 (ix2 y 1)) + x2 (ix2 y n) * x6 (ix2 y 2))
                + x3 (ix2 y n) * x6 (ix2 y 3)) + x4 (ix2 y n) * x6 (ix2 y 4))
              + ∑ k : Fin 128, x5 (ix2 y k) * x7 (ix2 n k)) + x8 (ix2 0 n)) 0 := by
  unfold out0_9
  rw [View.canon_unit_zero hz]
  simp only [View.ld_unit_zero (S := S2000x128) hz, View.ld_unit_zero (S := S2000x5) hz,
    View.ld_unit_zero (S := S128x128) hz, View.ld_unit_zero (S := S1x128) hz]
  unfold k0_pay1 k0_pay2 k0_pay3
  simp only [shapeCast_self]
  simp only [maximumf_apply, addf_apply, mulf_apply, broadcast_apply]
  -- column `r` of `x6`, repeated along the lanes
  have c0 : broadcastTo S2000x128 (extractStridedSlice S2000x1 ![0, 0] x6 slices_S2000x5_o0_0_S2000x1)
      broadcasts_S2000x1_S2000x128 (ix2 y n) = x6 (ix2 y 0) := col_lanes 0 x6 _ _ y n
  have c1 : broadcastTo S2000x128 (extractStridedSlice S2000x1 ![0, 1] x6 slices_S2000x5_o0_1_S2000x1)
      broadcasts_S2000x1_S2000x128 (ix2 y n) = x6 (ix2 y 1) := col_lanes 1 x6 _ _ y n
  have c2 : broadcastTo S2000x128 (extractStridedSlice S2000x1 ![0, 2] x6 slices_S2000x5_o0_2_S2000x1)
      broadcasts_S2000x1_S2000x128 (ix2 y n) = x6 (ix2 y 2) := col_lanes 2 x6 _ _ y n
  have c3 : broadcastTo S2000x128 (extractStridedSlice S2000x1 ![0, 3] x6 slices_S2000x5_o0_3_S2000x1)
      broadcasts_S2000x1_S2000x128 (ix2 y n) = x6 (ix2 y 3) := col_lanes 3 x6 _ _ y n
  have c4 : broadcastTo S2000x128 (extractStridedSlice S2000x1 ![0, 4] x6 slices_S2000x5_o0_4_S2000x1)
      broadcasts_S2000x1_S2000x128 (ix2 y n) = x6 (ix2 y 4) := col_lanes 4 x6 _ _ y n
  -- the product against the rows of `x7`, into a zero accumulator
  have hm : matmul dot_S2000x128_S128x128_S2000x128_1_1_0_0_n_n none (truncf FTy.bf16 x5 bitsLt_bf16_f32)
      (truncf FTy.bf16 x7 bitsLt_bf16_f32) (constant (F := Ideal) S2000x128 FTy.f32 0#32) (ix2 y n)
        = ∑ k : Fin 128, x5 (ix2 y k) * x7 (ix2 n k) :=
    matmul_rows_apply (truncf FTy.bf16 x5 bitsLt_bf16_f32) (truncf FTy.bf16 x7 bitsLt_bf16_f32) y n
  -- the bias row, repeated down the rows
  have hb : broadcastTo S2000x128 x8 broadcasts_S1x128_S2000x128 (ix2 y n) = x8 (ix2 0 n) := row_rows x8 _ y n
  have h0 : FloatOps.ofBits (F := Ideal) FTy.f32 0#32 = 0 := ofBits_zero
  rw [c0, c1, c2, c3, c4, hm, hb, h0]

/-! ## The blocks' places in their arrays -/

/-- The grid has 50 points. -/
theorem t_lt (t : Fin cfg0.N) : t.val < 50 := lt_of_lt_of_eq t.isLt N_0

/-- Row `y` of the block of point `t`, as a row of a `100000`-row array. -/
def row (t : Fin cfg0.N) (y : Fin 2000) : Fin 100000 := ⟨t.val * 2000 + y.val, by have := t_lt t; omega⟩

theorem row_val (t : Fin cfg0.N) (y : Fin 2000) : (row t y).val = t.val * 2000 + y.val := rfl

/-- The windows' index maps at every grid point `t`: the row-blocked windows are at block `(t, 0)`, the weight and
    bias windows always at block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_9.index t (0 : Fin 2) = t.val
    ∧ win0_9.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Window 0's block at point `t` sits at rows `2000 t … 2000 t + 1999` of its array, all 128 lanes. -/
theorem emb_0 (t : Fin cfg0.N) (y : Fin 2000) (n : Fin 128) :
    ((cfg0.win 0).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_0.index t (0 : Fin 2) * 2000 + 1 * y.val = t.val * 2000 + y.val; omega
  | ⟨1, _⟩ => show win0_0.index t (1 : Fin 2) * 128 + 1 * n.val = n.val; omega

/-- Window 1's block at point `t` sits at rows `2000 t … 2000 t + 1999` of its array, all 128 lanes. -/
theorem emb_1 (t : Fin cfg0.N) (y : Fin 2000) (n : Fin 128) :
    ((cfg0.win 1).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_1.index t (0 : Fin 2) * 2000 + 1 * y.val = t.val * 2000 + y.val; omega
  | ⟨1, _⟩ => show win0_1.index t (1 : Fin 2) * 128 + 1 * n.val = n.val; omega

/-- Window 2's block at point `t` sits at rows `2000 t … 2000 t + 1999` of its array, all 128 lanes. -/
theorem emb_2 (t : Fin cfg0.N) (y : Fin 2000) (n : Fin 128) :
    ((cfg0.win 2).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_2.index t (0 : Fin 2) * 2000 + 1 * y.val = t.val * 2000 + y.val; omega
  | ⟨1, _⟩ => show win0_2.index t (1 : Fin 2) * 128 + 1 * n.val = n.val; omega

/-- Window 3's block at point `t` sits at rows `2000 t … 2000 t + 1999` of its array, all 128 lanes. -/
theorem emb_3 (t : Fin cfg0.N) (y : Fin 2000) (n : Fin 128) :
    ((cfg0.win 3).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_3.index t (0 : Fin 2) * 2000 + 1 * y.val = t.val * 2000 + y.val; omega
  | ⟨1, _⟩ => show win0_3.index t (1 : Fin 2) * 128 + 1 * n.val = n.val; omega

/-- Window 4's block at point `t` sits at rows `2000 t … 2000 t + 1999` of its array, all 128 lanes. -/
theorem emb_4 (t : Fin cfg0.N) (y : Fin 2000) (n : Fin 128) :
    ((cfg0.win 4).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_4.index t (0 : Fin 2) * 2000 + 1 * y.val = t.val * 2000 + y.val; omega
  | ⟨1, _⟩ => show win0_4.index t (1 : Fin 2) * 128 + 1 * n.val = n.val; omega

/-- Window 5's block at point `t` sits at rows `2000 t … 2000 t + 1999` of its array, all 128 lanes. -/
theorem emb_5 (t : Fin cfg0.N) (y : Fin 2000) (n : Fin 128) :
    ((cfg0.win 5).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_5.index t (0 : Fin 2) * 2000 + 1 * y.val = t.val * 2000 + y.val; omega
  | ⟨1, _⟩ => show win0_5.index t (1 : Fin 2) * 128 + 1 * n.val = n.val; omega

/-- Window 9's block at point `t` sits at rows `2000 t … 2000 t + 1999` of its array, all 128 lanes. -/
theorem emb_9 (t : Fin cfg0.N) (y : Fin 2000) (n : Fin 128) :
    ((cfg0.win 9).blk t).view.emb (ix2 y n) = ix2 (row t y) n := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_9.index t (0 : Fin 2) * 2000 + 1 * y.val = t.val * 2000 + y.val; omega
  | ⟨1, _⟩ => show win0_9.index t (1 : Fin 2) * 128 + 1 * n.val = n.val; omega

/-- Window 6's block at point `t` sits at rows `2000 t … 2000 t + 1999` of its array, all 5 columns. -/
theorem emb_6 (t : Fin cfg0.N) (y : Fin 2000) (r : Fin 5) :
    ((cfg0.win 6).blk t).view.emb (ix2 y r) = ix2 (row t y) r := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_6.index t (0 : Fin 2) * 2000 + 1 * y.val = t.val * 2000 + y.val; omega
  | ⟨1, _⟩ => show win0_6.index t (1 : Fin 2) * 5 + 1 * r.val = r.val; omega

/-- Window 7's block is the whole weight array at every point. -/
theorem emb_7 (t : Fin cfg0.N) (i : S128x128.Idx) : ((cfg0.win 7).blk t).view.emb i = i := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_7.index t (0 : Fin 2) * 128 + 1 * (i 0).val = (i 0).val; omega
  | ⟨1, _⟩ => show win0_7.index t (1 : Fin 2) * 128 + 1 * (i 1).val = (i 1).val; omega

/-- Window 8's block is the whole bias row at every point. -/
theorem emb_8 (t : Fin cfg0.N) (i : S1x128.Idx) : ((cfg0.win 8).blk t).view.emb i = i := by
  obtain ⟨e0_0, e0_1, e1_0, e1_1, e2_0, e2_1, e3_0, e3_1, e4_0, e4_1, e5_0, e5_1, e6_0, e6_1, e9_0, e9_1, e7_0, e7_1, e8_0, e8_1⟩ := idx_facts t
  funext a; apply Fin.ext
  match a with
  | ⟨0, _⟩ => show win0_8.index t (0 : Fin 2) * 1 + 1 * (i 0).val = (i 0).val; omega
  | ⟨1, _⟩ => show win0_8.index t (1 : Fin 2) * 128 + 1 * (i 1).val = (i 1).val; omega

/-- An index of the output array is in point `t`'s block iff its row is one of the block's 2000. -/
theorem mem_blk9 (t : Fin cfg0.N) (i : S100000x128.Idx) :
    i ∈ ((cfg0.win 9).blk t).view.set ↔ t.val * 2000 ≤ (i 0).val ∧ (i 0).val < t.val * 2000 + 2000 := by
  show i ∈ ((View.whole main_v115).slice (win0_9.rect t)).set ↔ _
  rw [View.set_slice_whole, Rect.mem_set_unit]
  obtain ⟨e0_0, e0_1, e1_0, e1_1, e2_0, e2_1, e3_0, e3_1, e4_0, e4_1, e5_0, e5_1, e6_0, e6_1, e9_0, e9_1, e7_0, e7_1, e8_0, e8_1⟩ := idx_facts t
  constructor
  · intro h
    have h0 : win0_9.index t (0 : Fin 2) * 2000 ≤ (i 0).val ∧ (i 0).val < win0_9.index t (0 : Fin 2) * 2000 + 2000 := h 0
    omega
  · intro h a
    match a with
    | ⟨0, _⟩ => show win0_9.index t (0 : Fin 2) * 2000 ≤ (i 0).val ∧ (i 0).val < win0_9.index t (0 : Fin 2) * 2000 + 2000; omega
    | ⟨1, _⟩ =>
      show win0_9.index t (1 : Fin 2) * 128 ≤ (i 1).val ∧ (i 1).val < win0_9.index t (1 : Fin 2) * 128 + 128
      have h1 : (i 1).val < 128 := (i 1).isLt
      omega

/-- Every index of the output array is in the block of the point its row falls in, and every point writes back. -/
theorem cover9 (i : S100000x128.Idx) :
    ∃ t : Fin cfg0.N, (cfg0.win 9).flush t = true ∧ i ∈ ((cfg0.win 9).blk t).view.set := by
  have hi : (i 0).val < 100000 := (i 0).isLt
  refine ⟨⟨(i 0).val / 2000, by rw [show cfg0.N = 50 from N_0]; omega⟩, flush0_9 _, ?_⟩
  rw [mem_blk9]
  show (i 0).val / 2000 * 2000 ≤ (i 0).val ∧ (i 0).val < (i 0).val / 2000 * 2000 + 2000
  omega

end Cert.KernelIdeal.Blocks

end
-- ==== Proof.KernelBlockReads.lean ====
/-
  Each window's block at a grid point, read off its array entry by entry: the block's entry `z` is the array's entry
  where the block places `z` — rows `2000 t + y` for the row-blocked windows, the whole array for the weight and bias
  windows. Stated first for arbitrary contents of the array, then at the contents the region finds.
-/
import proofs.«113430_j8022998908984_2_alg».proof.Proof.KernelBlocks

noncomputable section

namespace Cert.KernelIdeal.Blocks

open Cert.KernelIdeal Cert.KernelIdeal.Gen Cert.KernelIdeal.Hand Idealize.ShloMosaic Idealize.ShloMosaic.ValueIdx Cert.Reads

section
variable (c : Dev nD)

/-! A window's block of ANY contents `f` of its array, at entry `z`, is `f` where the block places `z`: the place
depends on the window and the point only, not on the contents. -/
theorem read_blk0 (f : Buf (Elt Ideal) ((c.tc : Thread nD τ).loc (Pipeline.arrRef spec0 0))) (t : Fin cfg0.N)
    (z : ((cfg0.win 0).xblock (cfg0.grid.coords t)).Idx) :
    ((cfg0.win 0).blk t).view.read (Elt Ideal) f z = f (((cfg0.win 0).blk t).view.emb z) := rfl
theorem read_blk1 (f : Buf (Elt Ideal) ((c.tc : Thread nD τ).loc (Pipeline.arrRef spec0 1))) (t : Fin cfg0.N)
    (z : ((cfg0.win 1).xblock (cfg0.grid.coords t)).Idx) :
    ((cfg0.win 1).blk t).view.read (Elt Ideal) f z = f (((cfg0.win 1).blk t).view.emb z) := rfl
theorem read_blk2 (f : Buf (Elt Ideal) ((c.tc : Thread nD τ).loc (Pipeline.arrRef spec0 2))) (t : Fin cfg0.N)
    (z : ((cfg0.win 2).xblock (cfg0.grid.coords t)).Idx) :
    ((cfg0.win 2).blk t).view.read (Elt Ideal) f z = f (((cfg0.win 2).blk t).view.emb z) := rfl
theorem read_blk3 (f : Buf (Elt Ideal) ((c.tc : Thread nD τ).loc (Pipeline.arrRef spec0 3))) (t : Fin cfg0.N)
    (z : ((cfg0.win 3).xblock (cfg0.grid.coords t)).Idx) :
    ((cfg0.win 3).blk t).view.read (Elt Ideal) f z = f (((cfg0.win 3).blk t).view.emb z) := rfl
theorem read_blk4 (f : Buf (Elt Ideal) ((c.tc : Thread nD τ).loc (Pipeline.arrRef spec0 4))) (t : Fin cfg0.N)
    (z : ((cfg0.win 4).xblock (cfg0.grid.coords t)).Idx) :
    ((cfg0.win 4).blk t).view.read (Elt Ideal) f z = f (((cfg0.win 4).blk t).view.emb z) := rfl
theorem read_blk5 (f : Buf (Elt Ideal) ((c.tc : Thread nD τ).loc (Pipeline.arrRef spec0 5))) (t : Fin cfg0.N)
    (z : ((cfg0.win 5).xblock (cfg0.grid.coords t)).Idx) :
    ((cfg0.win 5).blk t).view.read (Elt Ideal) f z = f (((cfg0.win 5).blk t).view.emb z) := rfl
theorem read_blk6 (f : Buf (Elt Ideal) ((c.tc : Thread nD τ).loc (Pipeline.arrRef spec0 6))) (t : Fin cfg0.N)
    (z : ((cfg0.win 6).xblock (cfg0.grid.coords t)).Idx) :
    ((cfg0.win 6).blk t).view.read (Elt Ideal) f z = f (((cfg0.win 6).blk t).view.emb z) := rfl
theorem read_blk7 (f : Buf (Elt Ideal) ((c.tc : Thread nD τ).loc (Pipeline.arrRef spec0 7))) (t : Fin cfg0.N)
    (z : ((cfg0.win 7).xblock (cfg0.grid.coords t)).Idx) :
    ((cfg0.win 7).blk t).view.read (Elt Ideal) f z = f (((cfg0.win 7).blk t).view.emb z) := rfl
theorem read_blk8 (f : Buf (Elt Ideal) ((c.tc : Thread nD τ).loc (Pipeline.arrRef spec0 8))) (t : Fin cfg0.N)
    (z : ((cfg0.win 8).xblock (cfg0.grid.coords t)).Idx) :
    ((cfg0.win 8).blk t).view.read (Elt Ideal) f z = f (((cfg0.win 8).blk t).view.emb z) := rfl
theorem read_blk9 (f : Buf (Elt Ideal) ((c.tc : Thread nD τ).loc (Pipeline.arrRef spec0 9))) (t : Fin cfg0.N)
    (z : ((cfg0.win 9).xblock (cfg0.grid.coords t)).Idx) :
    ((cfg0.win 9).blk t).view.read (Elt Ideal) f z = f (((cfg0.win 9).blk t).view.emb z) := rfl

/-! The same with the block's place spelled out: rows `2000 t + y` for the row-blocked windows, the whole array for
the weight and the bias. -/
theorem read_blk0_ix (f : Buf (Elt Ideal) ((c.tc : Thread nD τ).loc (Pipeline.arrRef spec0 0))) (t : Fin cfg0.N)
    (y : Fin 2000) (n : Fin 128) :
    ((cfg0.win 0).blk t).view.read (Elt Ideal) f (ix2 y n) = f (ix2 (row t y) n) :=
  (read_blk0 c f t (ix2 y n)).trans (congrArg f (emb_0 t y n))
theorem read_blk1_ix (f : Buf (Elt Ideal) ((c.tc : Thread nD τ).loc (Pipeline.arrRef spec0 1))) (t : Fin cfg0.N)
    (y : Fin 2000) (n : Fin 128) :
    ((cfg0.win 1).blk t).view.read (Elt Ideal) f (ix2 y n) = f (ix2 (row t y) n) :=
  (read_blk1 c f t (ix2 y n)).trans (congrArg f (emb_1 t y n))
theorem read_blk2_ix (f : Buf (Elt Ideal) ((c.tc : Thread nD τ).loc (Pipeline.arrRef spec0 2))) (t : Fin cfg0.N)
    (y : Fin 2000) (n : Fin 128) :
    ((cfg0.win 2).blk t).view.read (Elt Ideal) f (ix2 y n) = f (ix2 (row t y) n) :=
  (read_blk2 c f t (ix2 y n)).trans (congrArg f (emb_2 t y n))
theorem read_blk3_ix (f : Buf (Elt Ideal) ((c.tc : Thread nD τ).loc (Pipeline.arrRef spec0 3))) (t : Fin cfg0.N)
    (y : Fin 2000) (n : Fin 128) :
    ((cfg0.win 3).blk t).view.read (Elt Ideal) f (ix2 y n) = f (ix2 (row t y) n) :=
  (read_blk3 c f t (ix2 y n)).trans (congrArg f (emb_3 t y n))
theorem read_blk4_ix (f : Buf (Elt Ideal) ((c.tc : Thread nD τ).loc (Pipeline.arrRef spec0 4))) (t : Fin cfg0.N)
    (y : Fin 2000) (n : Fin 128) :
    ((cfg0.win 4).blk t).view.read (Elt Ideal) f (ix2 y n) = f (ix2 (row t y) n) :=
  (read_blk4 c f t (ix2 y n)).trans (congrArg f (emb_4 t y n))
theorem read_blk5_ix (f : Buf (Elt Ideal) ((c.tc : Thread nD τ).loc (Pipeline.arrRef spec0 5))) (t : Fin cfg0.N)
    (y : Fin 2000) (n : Fin 128) :
    ((cfg0.win 5).blk t).view.read (Elt Ideal) f (ix2 y n) = f (ix2 (row t y) n) :=
  (read_blk5 c f t (ix2 y n)).trans (congrArg f (emb_5 t y n))
theorem read_blk9_ix (f : Buf (Elt Ideal) ((c.tc : Thread nD τ).loc (Pipeline.arrRef spec0 9))) (t : Fin cfg0.N)
    (y : Fin 2000) (n : Fin 128) :
    ((cfg0.win 9).blk t).view.read (Elt Ideal) f (ix2 y n) = f (ix2 (row t y) n) :=
  (read_blk9 c f t (ix2 y n)).trans (congrArg f (emb_9 t y n))
theorem read_blk6_ix (f : Buf (Elt Ideal) ((c.tc : Thread nD τ).loc (Pipeline.arrRef spec0 6))) (t : Fin cfg0.N)
    (y : Fin 2000) (r : Fin 5) :
    ((cfg0.win 6).blk t).view.read (Elt Ideal) f (ix2 y r) = f (ix2 (row t y) r) :=
  (read_blk6 c f t (ix2 y r)).trans (congrArg f (emb_6 t y r))
theorem read_blk7_ix (f : Buf (Elt Ideal) ((c.tc : Thread nD τ).loc (Pipeline.arrRef spec0 7))) (t : Fin cfg0.N)
    (i : S128x128.Idx) : ((cfg0.win 7).blk t).view.read (Elt Ideal) f i = f i :=
  (read_blk7 c f t i).trans (congrArg f (emb_7 t i))
theorem read_blk8_ix (f : Buf (Elt Ideal) ((c.tc : Thread nD τ).loc (Pipeline.arrRef spec0 8))) (t : Fin cfg0.N)
    (i : S1x128.Idx) : ((cfg0.win 8).blk t).view.read (Elt Ideal) f i = f i :=
  (read_blk8 c f t i).trans (congrArg f (emb_8 t i))

variable (m : (ℓ : Loc nD τ sig) → Buf (Elt Ideal) ℓ)

/-! Entry `z` of window `w`'s block at point `t`, as the region finds its array, is the array's entry where the block
places `z`. -/
theorem iblk_apply_0 (t : Fin cfg0.N) (z : ((cfg0.win 0).xblock (cfg0.grid.coords t)).Idx) :
    iblk m c 0 t z = V m c (Pipeline.arrRef spec0 0) (((cfg0.win 0).blk t).view.emb z) :=
  read_blk0 c (V m c (Pipeline.arrRef spec0 0)) t z
theorem iblk_apply_1 (t : Fin cfg0.N) (z : ((cfg0.win 1).xblock (cfg0.grid.coords t)).Idx) :
    iblk m c 1 t z = V m c (Pipeline.arrRef spec0 1) (((cfg0.win 1).blk t).view.emb z) :=
  read_blk1 c (V m c (Pipeline.arrRef spec0 1)) t z
theorem iblk_apply_2 (t : Fin cfg0.N) (z : ((cfg0.win 2).xblock (cfg0.grid.coords t)).Idx) :
    iblk m c 2 t z = V m c (Pipeline.arrRef spec0 2) (((cfg0.win 2).blk t).view.emb z) :=
  read_blk2 c (V m c (Pipeline.arrRef spec0 2)) t z
theorem iblk_apply_3 (t : Fin cfg0.N) (z : ((cfg0.win 3).xblock (cfg0.grid.coords t)).Idx) :
    iblk m c 3 t z = V m c (Pipeline.arrRef spec0 3) (((cfg0.win 3).blk t).view.emb z) :=
  read_blk3 c (V m c (Pipeline.arrRef spec0 3)) t z
theorem iblk_apply_4 (t : Fin cfg0.N) (z : ((cfg0.win 4).xblock (cfg0.grid.coords t)).Idx) :
    iblk m c 4 t z = V m c (Pipeline.arrRef spec0 4) (((cfg0.win 4).blk t).view.emb z) :=
  read_blk4 c (V m c (Pipeline.arrRef spec0 4)) t z
theorem iblk_apply_5 (t : Fin cfg0.N) (z : ((cfg0.win 5).xblock (cfg0.grid.coords t)).Idx) :
    iblk m c 5 t z = V m c (Pipeline.arrRef spec0 5) (((cfg0.win 5).blk t).view.emb z) :=
  read_blk5 c (V m c (Pipeline.arrRef spec0 5)) t z
theorem iblk_apply_6 (t : Fin cfg0.N) (z : ((cfg0.win 6).xblock (cfg0.grid.coords t)).Idx) :
    iblk m c 6 t z = V m c (Pipeline.arrRef spec0 6) (((cfg0.win 6).blk t).view.emb z) :=
  read_blk6 c (V m c (Pipeline.arrRef spec0 6)) t z
theorem iblk_apply_7 (t : Fin cfg0.N) (z : ((cfg0.win 7).xblock (cfg0.grid.coords t)).Idx) :
    iblk m c 7 t z = V m c (Pipeline.arrRef spec0 7) (((cfg0.win 7).blk t).view.emb z) :=
  read_blk7 c (V m c (Pipeline.arrRef spec0 7)) t z
theorem iblk_apply_8 (t : Fin cfg0.N) (z : ((cfg0.win 8).xblock (cfg0.grid.coords t)).Idx) :
    iblk m c 8 t z = V m c (Pipeline.arrRef spec0 8) (((cfg0.win 8).blk t).view.emb z) :=
  read_blk8 c (V m c (Pipeline.arrRef spec0 8)) t z
theorem iblk_apply_9 (t : Fin cfg0.N) (z : ((cfg0.win 9).xblock (cfg0.grid.coords t)).Idx) :
    iblk m c 9 t z = V m c (Pipeline.arrRef spec0 9) (((cfg0.win 9).blk t).view.emb z) :=
  read_blk9 c (V m c (Pipeline.arrRef spec0 9)) t z

/-! And with the place spelled out. -/
theorem iblk_0_ix (t : Fin cfg0.N) (y : Fin 2000) (n : Fin 128) :
    iblk m c 0 t (ix2 y n) = V m c (Pipeline.arrRef spec0 0) (ix2 (row t y) n) :=
  read_blk0_ix c (V m c (Pipeline.arrRef spec0 0)) t y n
theorem iblk_1_ix (t : Fin cfg0.N) (y : Fin 2000) (n : Fin 128) :
    iblk m c 1 t (ix2 y n) = V m c (Pipeline.arrRef spec0 1) (ix2 (row t y) n) :=
  read_blk1_ix c (V m c (Pipeline.arrRef spec0 1)) t y n
theorem iblk_2_ix (t : Fin cfg0.N) (y : Fin 2000) (n : Fin 128) :
    iblk m c 2 t (ix2 y n) = V m c (Pipeline.arrRef spec0 2) (ix2 (row t y) n) :=
  read_blk2_ix c (V m c (Pipeline.arrRef spec0 2)) t y n
theorem iblk_3_ix (t : Fin cfg0.N) (y : Fin 2000) (n : Fin 128) :
    iblk m c 3 t (ix2 y n) = V m c (Pipeline.arrRef spec0 3) (ix2 (row t y) n) :=
  read_blk3_ix c (V m c (Pipeline.arrRef spec0 3)) t y n
theorem iblk_4_ix (t : Fin cfg0.N) (y : Fin 2000) (n : Fin 128) :
    iblk m c 4 t (ix2 y n) = V m c (Pipeline.arrRef spec0 4) (ix2 (row t y) n) :=
  read_blk4_ix c (V m c (Pipeline.arrRef spec0 4)) t y n
theorem iblk_5_ix (t : Fin cfg0.N) (y : Fin 2000) (n : Fin 128) :
    iblk m c 5 t (ix2 y n) = V m c (Pipeline.arrRef spec0 5) (ix2 (row t y) n) :=
  read_blk5_ix c (V m c (Pipeline.arrRef spec0 5)) t y n
theorem iblk_9_ix (t : Fin cfg0.N) (y : Fin 2000) (n : Fin 128) :
    iblk m c 9 t (ix2 y n) = V m c (Pipeline.arrRef spec0 9) (ix2 (row t y) n) :=
  read_blk9_ix c (V m c (Pipeline.arrRef spec0 9)) t y n
theorem iblk_6_ix (t : Fin cfg0.N) (y : Fin 2000) (r : Fin 5) :
    iblk m c 6 t (ix2 y r) = V m c (Pipeline.arrRef spec0 6) (ix2 (row t y) r) :=
  read_blk6_ix c (V m c (Pipeline.arrRef spec0 6)) t y r
theorem iblk_7_ix (t : Fin cfg0.N) (i : S128x128.Idx) : iblk m c 7 t i = V m c (Pipeline.arrRef spec0 7) i :=
  read_blk7_ix c (V m c (Pipeline.arrRef spec0 7)) t i
theorem iblk_8_ix (t : Fin cfg0.N) (i : S1x128.Idx) : iblk m c 8 t i = V m c (Pipeline.arrRef spec0 8) i :=
  read_blk8_ix c (V m c (Pipeline.arrRef spec0 8)) t i

end

end Cert.KernelIdeal.Blocks

end
-- ==== Proof.Spec.lean ====
/-
  The arithmetic that joins the two programs, over abstract finite index sets.

  One relation of the graph layer aggregates, for a destination row `j`, the source rows `ρ e` of the edges `e`
  that land on `j` (a finite set `S`), and applies a linear map with matrix row `W`:
  one program multiplies every source row by `W` first, sums over `S` and scales by the reciprocal of the
  clamped in-degree `max |S| 1`; the other sums the source rows over `S`, divides by the clamped in-degree and
  applies `W` last. On real entries the two agree because the mean is linear. The layer's result adds five such
  relations, a product of the destination's own features with five more matrices (one program adds the five
  matrices first), and five bias rows, and clamps at zero.
-/
import Mathlib.Data.EReal.Basic
import Mathlib.Data.EReal.Operations
import Mathlib.Data.EReal.Inv
import Mathlib.Algebra.BigOperators.Ring.Finset
import Mathlib.Tactic.Ring
import Idealize.ShloMosaic.PureOps.Ideal

noncomputable section

namespace Cert.Spec

open Idealize.ShloMosaic

/-- The inclusion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of ones over a finite set is its number of elements, a real. -/
theorem sum_one {ι : Type} (s : Finset ι) : (∑ _i ∈ s, (1 : EReal)) = ((s.card : ℝ) : EReal) := by
  have h := coe_sum s (fun _ => (1 : ℝ))
  simp only [Finset.sum_const, nsmul_eq_mul, mul_one, EReal.coe_one] at h
  rw [Finset.sum_const]
  exact h.symm

/-- The inclusion of the reals into the extended reals is monotone, so it commutes with the maximum of two. -/
theorem coe_max (a b : ℝ) : max ((a : ℝ) : EReal) ((b : ℝ) : EReal) = ((max a b : ℝ) : EReal) :=
  (EReal.coe_strictMono.monotone.map_max).symm

/-- The clamped in-degree `max |S| 1` as a real; it is at least one. -/
def deg {ι : Type} (s : Finset ι) : ℝ := max (s.card : ℝ) 1

theorem deg_ne_zero {ι : Type} (s : Finset ι) : deg s ≠ 0 :=
  ne_of_gt (lt_of_lt_of_le one_pos (le_max_right _ _))

/-- The clamped in-degree as the extended reals compute it: zero plus a sum of ones, clamped below at one. -/
theorem deg_eq {ι : Type} (s : Finset ι) : max ((0 : EReal) + ∑ _i ∈ s, (1 : EReal)) 1 = ((deg s : ℝ) : EReal) := by
  rw [zero_add, sum_one, deg, ← EReal.coe_one, coe_max]

/-- One relation's aggregate over the reals: the sum over the edges in `S` of the source row's product with the
    matrix row `W`, times the reciprocal of the clamped in-degree. -/
def agg {E R K : Type} [Fintype K] (S : Finset E) (ρ : E → R) (X : R → K → ℝ) (W : K → ℝ) : ℝ :=
  (∑ e ∈ S, ∑ k, X (ρ e) k * W k) * (1 / deg S)

/-- Matrix first, then sum, then scale by the reciprocal of the clamped in-degree: the aggregate. -/
theorem agg_mul_first {E R K : Type} [Fintype K] (S : Finset E) (ρ : E → R) (X : R → K → ℝ) (W : K → ℝ) :
    ((0 : EReal) + ∑ e ∈ S, ∑ k, ((X (ρ e) k : ℝ) : EReal) * ((W k : ℝ) : EReal))
        * Ideal.div 1 (max ((0 : EReal) + ∑ _e ∈ S, (1 : EReal)) 1)
      = ((agg S ρ X W : ℝ) : EReal) := by
  rw [deg_eq, Ideal.div_coe (deg_ne_zero S), one_mul, zero_add, agg, EReal.coe_mul, coe_sum]
  congr 1
  refine Finset.sum_congr rfl fun e _ => ?_
  rw [coe_sum]
  refine Finset.sum_congr rfl fun k _ => ?_
  rw [EReal.coe_mul]

/-- Sum first, divide by the clamped in-degree, matrix last: the same aggregate, because the mean is linear. -/
theorem agg_mul_last {E R K : Type} [Fintype K] (S : Finset E) (ρ : E → R) (X : R → K → ℝ) (W : K → ℝ) :
    (∑ k, Ideal.div ((0 : EReal) + ∑ e ∈ S, ((X (ρ e) k : ℝ) : EReal)) (max ((0 : EReal) + ∑ _e ∈ S, (1 : EReal)) 1)
        * ((W k : ℝ) : EReal))
      = ((agg S ρ X W : ℝ) : EReal) := by
  rw [deg_eq]
  have h : ∀ k, Ideal.div ((0 : EReal) + ∑ e ∈ S, ((X (ρ e) k : ℝ) : EReal)) ((deg S : ℝ) : EReal) * ((W k : ℝ) : EReal)
      = (((∑ e ∈ S, X (ρ e) k) * (1 / deg S) * W k : ℝ) : EReal) := by
    intro k
    rw [Ideal.div_coe (deg_ne_zero S), zero_add, ← coe_sum, ← EReal.coe_mul, ← EReal.coe_mul]
  simp only [h]
  rw [← coe_sum, agg]
  congr 1
  simp only [Finset.sum_mul]
  rw [Finset.sum_comm]
  refine Finset.sum_congr rfl fun e _ => Finset.sum_congr rfl fun k _ => ?_
  ring

/-- The layer's result at one entry, over the reals: five aggregates, the destination's own features against five
    matrix rows, five biases, clamped at zero. -/
def layer {K : Type} [Fintype K] (a1 a2 a3 a4 a5 : ℝ) (x : K → ℝ) (w1 w2 w3 w4 w5 : K → ℝ) (b1 b2 b3 b4 b5 : ℝ) : ℝ :=
  max (a1 + a2 + a3 + a4 + a5 + (∑ k, x k * (w1 k + w2 k + w3 k + w4 k + w5 k)) + (b1 + b2 + b3 + b4 + b5)) 0

/-- The five matrices added before the product, the five biases added together: the layer. -/
theorem layer_fused {K : Type} [Fintype K] (a1 a2 a3 a4 a5 : ℝ) (x : K → ℝ) (w1 w2 w3 w4 w5 : K → ℝ) (b1 b2 b3 b4 b5 : ℝ) :
    max ((((((a1 : EReal) + (a2 : EReal)) + (a3 : EReal)) + (a4 : EReal)) + (a5 : EReal)
          + ∑ k, ((x k : ℝ) : EReal) * (((((w1 k : ℝ) : EReal) + ((w2 k : ℝ) : EReal)) + ((w3 k : ℝ) : EReal)) + ((w4 k : ℝ) : EReal) + ((w5 k : ℝ) : EReal)))
          + (((((b1 : EReal) + (b2 : EReal)) + (b3 : EReal)) + (b4 : EReal)) + (b5 : EReal))) 0
      = ((layer a1 a2 a3 a4 a5 x w1 w2 w3 w4 w5 b1 b2 b3 b4 b5 : ℝ) : EReal) := by
  simp only [← EReal.coe_add, ← EReal.coe_mul, ← coe_sum]
  rw [← EReal.coe_zero, coe_max, layer]

/-- One relation at a time — aggregate, bias, the own-features product — the five results added: the layer. -/
theorem layer_split {K : Type} [Fintype K] (a1 a2 a3 a4 a5 : ℝ) (x : K → ℝ) (w1 w2 w3 w4 w5 : K → ℝ) (b1 b2 b3 b4 b5 : ℝ) :
    max ((((((((a1 : EReal) + (b1 : EReal)) + ∑ k, ((x k : ℝ) : EReal) * ((w1 k : ℝ) : EReal))
            + (((a2 : EReal) + (b2 : EReal)) + ∑ k, ((x k : ℝ) : EReal) * ((w2 k : ℝ) : EReal)))
            + (((a3 : EReal) + (b3 : EReal)) + ∑ k, ((x k : ℝ) : EReal) * ((w3 k : ℝ) : EReal)))
            + (((a4 : EReal) + (b4 : EReal)) + ∑ k, ((x k : ℝ) : EReal) * ((w4 k : ℝ) : EReal)))
            + (((a5 : EReal) + (b5 : EReal)) + ∑ k, ((x k : ℝ) : EReal) * ((w5 k : ℝ) : EReal)))) 0
      = ((layer a1 a2 a3 a4 a5 x w1 w2 w3 w4 w5 b1 b2 b3 b4 b5 : ℝ) : EReal) := by
  simp only [← EReal.coe_add, ← EReal.coe_mul, ← coe_sum]
  rw [← EReal.coe_zero, coe_max, layer]
  congr 2
  simp only [mul_add, Finset.sum_add_distrib]
  ring

end Cert.Spec

end
-- ==== Proof.LibGatherScatter.lean ====
import Idealize.ShloMosaic.PureOps.Ideal
import Idealize.ShloMosaic.PureOps.Ideal.Laws
import Idealize.ShloMosaic.Lib.ValueIdx

noncomputable section

open scoped BigOperators

namespace Cert.Lib.GatherScatter

open Idealize.ShloMosaic Idealize.ShloMosaic.ValueIdx

/-! ## A row gather read at an index -/

/-- The dimension numbers of a row gather: operand `[N, C]`, start indices `[E, 1]`, result `[E, C]`; the one
    start-index component names operand axis 0, which is collapsed, and result axis 1 is the offset into the row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index `idx[e, 0]` read signed and clamped into
    `[0, N - 1]`. -/
def gRow {N E w : Nat} (hN : 0 < N) (idx : IVec ⟨2, ![E, 1]⟩ w) (e : Fin E) : Fin N :=
  ⟨min (idx (ix2 e (0 : Fin 1))).toInt.toNat (N - 1), by omega⟩

/-- The start-indices index a row gather reads for result index `(e, n)` is `(e, 0)`. -/
theorem rowGather_siIdx {N E C : Nat}
    (wf : GatherDims.WF ⟨2, ![N, C]⟩ ⟨2, ![E, 1]⟩ ⟨2, ![E, C]⟩ [1] [0] [] [0] [] 1 ![1, C])
    (e : Fin E) (n : Fin C) (c : Fin (rowGatherDims N E C wf).startIndexMap.length) :
    (rowGatherDims N E C wf).siIdx (ix2 e n) c = ix2 e (0 : Fin 1) := by
  funext b; refine Fin.ext ?_
  match b with
  | ⟨0, _⟩ => rfl
  | ⟨1, _⟩ =>
    have : c.val = 0 := by have := c.isLt; simpa using this
    show c.val = 0
    exact this

/-- A ROW GATHER READ AT `(e, n)`: the operand at row `gRow` (the start index `idx[e, 0]`, signed and clamped) and
    column `n`. -/
theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (n : Fin C) :
    Host.gather (rowGatherDims N E C wf) x idx (ix2 e n) = x (ix2 (gRow hN idx e) n) := by
  unfold Host.gather
  congr 1
  funext a
  refine Fin.ext ?_
  match a with
  | ⟨0, _⟩ =>
    show (rowGatherDims N E C wf).start (ix2 e n) idx 0 + (rowGatherDims N E C wf).batchCoord (ix2 e n) 0
      + (rowGatherDims N E C wf).offCoord (ix2 e n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [rowGather_siIdx]
    rfl
  | ⟨1, _⟩ =>
    show (rowGatherDims N E C wf).start (ix2 e n) idx 1 + (rowGatherDims N E C wf).batchCoord (ix2 e n) 1
      + (rowGatherDims N E C wf).offCoord (ix2 e n) 1 = _
    rw [GatherDims.batchCoord_eq_zero _ _ _ List.not_mem_nil]
    unfold GatherDims.start
    rw [dif_neg (show ¬ (1 : Fin 2) ∈ (rowGatherDims N E C wf).startIndexMap from
      fun h => absurd (congrArg Fin.val (List.mem_singleton.mp h)) Nat.one_ne_zero)]
    simp only [Nat.add_zero, Nat.zero_add]
    rfl

/-! ## A row scatter-add read at an index -/

/-- The dimension numbers of a row scatter: operand `[M, C]`, scatter indices `[E, 1]`, updates `[E, C]`; the one
    index component names operand axis 0, which is inserted, and update axis 1 is the window over the row. -/
abbrev rowScatterDims (M E C : Nat)
    (wf : ScatterDims.WF ⟨2, ![M, C]⟩ ⟨2, ![E, 1]⟩ ⟨2, ![E, C]⟩ [1] [0] [0] 1) :
    ScatterDims ⟨2, ![M, C]⟩ ⟨2, ![E, 1]⟩ ⟨2, ![E, C]⟩ where
  updateWindowDims := [1]
  insertedWindowDims := [0]
  scatterDimsToOperandDims := [0]
  indexVectorDim := 1
  wf := wf

/-- The row update `e` lands at: the scatter index `idx[e, 0]` read signed, when it lies in `[0, M)`; an index
    outside the operand lands nowhere. -/
def sRow (M : Nat) {E w : Nat} (idx : IVec ⟨2, ![E, 1]⟩ w) (e : Fin E) : Option (Fin M) :=
  if h : 0 ≤ (idx (ix2 e (0 : Fin 1))).toInt ∧ (idx (ix2 e (0 : Fin 1))).toInt < (M : Int) then
    some ⟨(idx (ix2 e (0 : Fin 1))).toInt.toNat, by omega⟩
  else none

/-- `sRow` is `some j` exactly when the signed scatter index is the natural number `j`. -/
theorem sRow_eq_some_iff {M E w : Nat} (idx : IVec ⟨2, ![E, 1]⟩ w) (e : Fin E) (j : Fin M) :
    sRow M idx e = some j ↔ (idx (ix2 e (0 : Fin 1))).toInt = (j.val : Int) := by
  unfold sRow
  constructor
  · intro h
    split at h
    · rename_i hc
      have := congrArg Fin.val (Option.some.inj h)
      simp only at this
      omega
    · exact absurd h (by simp)
  · intro h
    have hj := j.isLt
    rw [dif_pos ⟨by omega, by omega⟩]
    congr 1
    refine Fin.ext ?_
    simp only
    omega

/-- The scatter-indices index a row scatter reads for update index `(e, n)` is `(e, 0)`. -/
theorem rowScatter_siIdx {M E C : Nat}
    (wf : ScatterDims.WF ⟨2, ![M, C]⟩ ⟨2, ![E, 1]⟩ ⟨2, ![E, C]⟩ [1] [0] [0] 1)
    (e : Fin E) (n : Fin C) (c : Fin (rowScatterDims M E C wf).scatterDimsToOperandDims.length) :
    (rowScatterDims M E C wf).siIdx (ix2 e n) c = ix2 e (0 : Fin 1) := by
  funext b; refine Fin.ext ?_
  match b with
  | ⟨0, _⟩ => rfl
  | ⟨1, _⟩ =>
    have : c.val = 0 := by have := c.isLt; simpa using this
    show c.val = 0
    exact this

/-- On operand axis 0 a row scatter's window starts at the signed scatter index … -/
theorem rowScatter_start0 {M E C w : Nat}
    (wf : ScatterDims.WF ⟨2, ![M, C]⟩ ⟨2, ![E, 1]⟩ ⟨2, ![E, C]⟩ [1] [0] [0] 1)
    (idx : IVec ⟨2, ![E, 1]⟩ w) (e : Fin E) (n : Fin C) :
    (rowScatterDims M E C wf).start (ix2 e n) idx 0 = (idx (ix2 e (0 : Fin 1))).toInt := by
  unfold ScatterDims.start
  rw [dif_pos (show (0 : Fin 2) ∈ (rowScatterDims M E C wf).scatterDimsToOperandDims from List.mem_singleton.mpr rfl)]
  rw [rowScatter_siIdx]

/-- … and on axis 1 at `0`. -/
theorem rowScatter_start1 {M E C w : Nat}
    (wf : ScatterDims.WF ⟨2, ![M, C]⟩ ⟨2, ![E, 1]⟩ ⟨2, ![E, C]⟩ [1] [0] [0] 1)
    (idx : IVec ⟨2, ![E, 1]⟩ w) (e : Fin E) (n : Fin C) :
    (rowScatterDims M E C wf).start (ix2 e n) idx 1 = 0 := by
  unfold ScatterDims.start
  rw [dif_neg (show ¬ (1 : Fin 2) ∈ (rowScatterDims M E C wf).scatterDimsToOperandDims from
    fun h => absurd (congrArg Fin.val (List.mem_singleton.mp h)) Nat.one_ne_zero)]

/-- The window coordinate of update index `(e, n)` is `0` on operand axis 0 … -/
theorem rowScatter_window0 {M E C : Nat}
    (wf : ScatterDims.WF ⟨2, ![M, C]⟩ ⟨2, ![E, 1]⟩ ⟨2, ![E, C]⟩ [1] [0] [0] 1) (e : Fin E) (n : Fin C) :
    (rowScatterDims M E C wf).window (ix2 e n) 0 = 0 := rfl

/-- … and `n` on axis 1. -/
theorem rowScatter_window1 {M E C : Nat}
    (wf : ScatterDims.WF ⟨2, ![M, C]⟩ ⟨2, ![E, 1]⟩ ⟨2, ![E, C]⟩ [1] [0] [0] 1) (e : Fin E) (n : Fin C) :
    (rowScatterDims M E C wf).window (ix2 e n) 1 = n.val := rfl

/-- Where update `(e, n)` of a row scatter lands: row `sRow` (when the scatter index is inside the operand), column `n`. -/
theorem rowScatter_resultIdx {M E C w : Nat}
    (wf : ScatterDims.WF ⟨2, ![M, C]⟩ ⟨2, ![E, 1]⟩ ⟨2, ![E, C]⟩ [1] [0] [0] 1)
    (idx : IVec ⟨2, ![E, 1]⟩ w) (e : Fin E) (n : Fin C) :
    (rowScatterDims M E C wf).resultIdx? (ix2 e n) idx = (sRow M idx e).map (fun j => ix2 j n) := by
  have hn := n.isLt
  unfold ScatterDims.resultIdx? sRow
  by_cases h : 0 ≤ (idx (ix2 e (0 : Fin 1))).toInt ∧ (idx (ix2 e (0 : Fin 1))).toInt < (M : Int)
  · have h' : ∀ a, 0 ≤ (rowScatterDims M E C wf).start (ix2 e n) idx a + (rowScatterDims M E C wf).window (ix2 e n) a ∧
        (rowScatterDims M E C wf).start (ix2 e n) idx a + (rowScatterDims M E C wf).window (ix2 e n) a
          < ((⟨2, ![M, C]⟩ : Shape).size a : Int) := by
      intro a
      match a with
      | ⟨0, _⟩ =>
        show 0 ≤ (rowScatterDims M E C wf).start (ix2 e n) idx 0 + ((rowScatterDims M E C wf).window (ix2 e n) 0 : Int) ∧
          (rowScatterDims M E C wf).start (ix2 e n) idx 0 + ((rowScatterDims M E C wf).window (ix2 e n) 0 : Int) < (M : Int)
        rw [rowScatter_start0, rowScatter_window0]
        omega
      | ⟨1, _⟩ =>
        show 0 ≤ (rowScatterDims M E C wf).start (ix2 e n) idx 1 + ((rowScatterDims M E C wf).window (ix2 e n) 1 : Int) ∧
          (rowScatterDims M E C wf).start (ix2 e n) idx 1 + ((rowScatterDims M E C wf).window (ix2 e n) 1 : Int) < (C : Int)
        rw [rowScatter_start1, rowScatter_window1]
        omega
    rw [dif_pos h', dif_pos h, Option.map_some]
    congr 1
    funext a
    refine Fin.ext ?_
    match a with
    | ⟨0, _⟩ =>
      show ((rowScatterDims M E C wf).start (ix2 e n) idx 0 + ((rowScatterDims M E C wf).window (ix2 e n) 0 : Int)).toNat
        = (idx (ix2 e (0 : Fin 1))).toInt.toNat
      rw [rowScatter_start0, rowScatter_window0]
      simp
    | ⟨1, _⟩ =>
      show ((rowScatterDims M E C wf).start (ix2 e n) idx 1 + ((rowScatterDims M E C wf).window (ix2 e n) 1 : Int)).toNat
        = n.val
      rw [rowScatter_start1, rowScatter_window1]
      simp
  · rw [dif_neg h, Option.map_none]
    refine dif_neg ?_
    intro h'
    have h0 := h' 0
    rw [rowScatter_start0, rowScatter_window0] at h0
    apply h
    have h1 : (((⟨2, ![M, C]⟩ : Shape).size 0 : Nat) : Int) = (M : Int) := rfl
    rw [h1] at h0
    omega

/-- Update `(e, n')` of a row scatter lands at `(j, n)` exactly when `n' = n` and its row `sRow` is `j`. -/
theorem rowScatter_resultIdx_eq_some_iff {M E C w : Nat}
    (wf : ScatterDims.WF ⟨2, ![M, C]⟩ ⟨2, ![E, 1]⟩ ⟨2, ![E, C]⟩ [1] [0] [0] 1)
    (idx : IVec ⟨2, ![E, 1]⟩ w) (e : Fin E) (n' : Fin C) (j : Fin M) (n : Fin C) :
    (rowScatterDims M E C wf).resultIdx? (ix2 e n') idx = some (ix2 j n) ↔ n' = n ∧ sRow M idx e = some j := by
  rw [rowScatter_resultIdx]
  constructor
  · intro h
    rcases hs : sRow M idx e with _ | j'
    · rw [hs] at h; exact absurd h (by simp)
    · rw [hs, Option.map_some] at h
      have h2 := Option.some.inj h
      have ha : j' = j := congrFun h2 0
      have hb : n' = n := congrFun h2 1
      exact ⟨hb, by rw [ha]⟩
  · rintro ⟨rfl, hs⟩
    rw [hs, Option.map_some]

/-- A ROW SCATTER-ADD READ AT `(j, n)`: the operand's element plus the sum, over the updates `e` whose row `sRow`
    is `j`, of the update's element in column `n`. -/
theorem scatterAdd_row_apply {M E C w : Nat}
    (wf : ScatterDims.WF ⟨2, ![M, C]⟩ ⟨2, ![E, 1]⟩ ⟨2, ![E, C]⟩ [1] [0] [0] 1)
    (x : (⟨2, ![M, C]⟩ : Shape).Idx → EReal) (idx : IVec ⟨2, ![E, 1]⟩ w)
    (upd : (⟨2, ![E, C]⟩ : Shape).Idx → EReal) (j : Fin M) (n : Fin C) :
    Ideal.hostScatterAdd (rowScatterDims M E C wf) x idx upd (ix2 j n)
      = x (ix2 j n) + ∑ e ∈ Finset.univ.filter (fun e : Fin E => sRow M idx e = some j), upd (ix2 e n) := by
  unfold Ideal.hostScatterAdd
  congr 1
  rw [Finset.sum_filter, sum_idx2, Finset.sum_filter]
  refine Finset.sum_congr rfl fun e _ => ?_
  simp only [rowScatter_resultIdx_eq_some_iff]
  by_cases hs : sRow M idx e = some j
  · simp only [hs, and_true, if_true]
    rw [Finset.sum_ite_eq' Finset.univ n (fun n' => upd (ix2 e n'))]
    simp
  · simp only [hs, and_false, if_false]
    exact Finset.sum_const_zero

/-- The same in the program's spelling: `Host.scatterAdd` at the ideal instance is `Ideal.hostScatterAdd`. -/
theorem host_scatterAdd_row_apply {φ : FTy} {M E C w : Nat}
    (wf : ScatterDims.WF ⟨2, ![M, C]⟩ ⟨2, ![E, 1]⟩ ⟨2, ![E, C]⟩ [1] [0] [0] 1)
    (x : FVec Ideal ⟨2, ![M, C]⟩ φ) (idx : IVec ⟨2, ![E, 1]⟩ w)
    (upd : FVec Ideal ⟨2, ![E, C]⟩ φ) (j : Fin M) (n : Fin C) :
    Host.scatterAdd (rowScatterDims M E C wf) x idx upd (ix2 j n)
      = x (ix2 j n) + ∑ e ∈ Finset.univ.filter (fun e : Fin E => sRow M idx e = some j), upd (ix2 e n) :=
  scatterAdd_row_apply wf x idx upd j n

/-! ## A flat scatter-add read at an index -/

/-- The dimension numbers of a flat scatter: operand `[M]`, scatter indices `[E, 1]`, updates `[E]`; the one index
    component names operand axis 0, which is inserted, and the updates have no window axis. -/
abbrev flatScatterDims (M E : Nat)
    (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scatter-indices index a flat scatter reads for update index `e` is `(e, 0)`. -/
theorem flatScatter_siIdx {M E : Nat}
    (wf : ScatterDims.WF ⟨1, ![M]⟩ ⟨2, ![E, 1]⟩ ⟨1, ![E]⟩ [] [0] [0] 1)
    (e : Fin E) (c : Fin (flatScatterDims M E wf).scatterDimsToOperandDims.length) :
    (flatScatterDims M E wf).siIdx (ix1 e) c = ix2 e (0 : Fin 1) := by
  funext b; refine Fin.ext ?_
  match b with
  | ⟨0, _⟩ => rfl
  | ⟨1, _⟩ =>
    have : c.val = 0 := by have := c.isLt; simpa using this
    show c.val = 0
    exact this

/-- A flat scatter's window starts at the signed scatter index … -/
theorem flatScatter_start0 {M E w : Nat}
    (wf : ScatterDims.WF ⟨1, ![M]⟩ ⟨2, ![E, 1]⟩ ⟨1, ![E]⟩ [] [0] [0] 1)
    (idx : IVec ⟨2, ![E, 1]⟩ w) (e : Fin E) :
    (flatScatterDims M E wf).start (ix1 e) idx 0 = (idx (ix2 e (0 : Fin 1))).toInt := by
  unfold ScatterDims.start
  rw [dif_pos (show (0 : Fin 1) ∈ (flatScatterDims M E wf).scatterDimsToOperandDims from List.mem_singleton.mpr rfl)]
  rw [flatScatter_siIdx]

/-- … and its window coordinate is `0`. -/
theorem flatScatter_window0 {M E : Nat}
    (wf : ScatterDims.WF ⟨1, ![M]⟩ ⟨2, ![E, 1]⟩ ⟨1, ![E]⟩ [] [0] [0] 1) (e : Fin E) :
    (flatScatterDims M E wf).window (ix1 e) 0 = 0 := rfl

/-- Where update `e` of a flat scatter lands: at `sRow`, when the scatter index is inside the operand. -/
theorem flatScatter_resultIdx {M E w : Nat}
    (wf : ScatterDims.WF ⟨1, ![M]⟩ ⟨2, ![E, 1]⟩ ⟨1, ![E]⟩ [] [0] [0] 1)
    (idx : IVec ⟨2, ![E, 1]⟩ w) (e : Fin E) :
    (flatScatterDims M E wf).resultIdx? (ix1 e) idx = (sRow M idx e).map (fun j => ix1 j) := by
  unfold ScatterDims.resultIdx? sRow
  by_cases h : 0 ≤ (idx (ix2 e (0 : Fin 1))).toInt ∧ (idx (ix2 e (0 : Fin 1))).toInt < (M : Int)
  · have h' : ∀ a, 0 ≤ (flatScatterDims M E wf).start (ix1 e) idx a + (flatScatterDims M E wf).window (ix1 e) a ∧
        (flatScatterDims M E wf).start (ix1 e) idx a + (flatScatterDims M E wf).window (ix1 e) a
          < ((⟨1, ![M]⟩ : Shape).size a : Int) := by
      intro a
      match a with
      | ⟨0, _⟩ =>
        show 0 ≤ (flatScatterDims M E wf).start (ix1 e) idx 0 + ((flatScatterDims M E wf).window (ix1 e) 0 : Int) ∧
          (flatScatterDims M E wf).start (ix1 e) idx 0 + ((flatScatterDims M E wf).window (ix1 e) 0 : Int) < (M : Int)
        rw [flatScatter_start0, flatScatter_window0]
        omega
    rw [dif_pos h', dif_pos h, Option.map_some]
    congr 1
    funext a
    refine Fin.ext ?_
    match a with
    | ⟨0, _⟩ =>
      show ((flatScatterDims M E wf).start (ix1 e) idx 0 + ((flatScatterDims M E wf).window (ix1 e) 0 : Int)).toNat
        = (idx (ix2 e (0 : Fin 1))).toInt.toNat
      rw [flatScatter_start0, flatScatter_window0]
      simp
  · rw [dif_neg h, Option.map_none]
    refine dif_neg ?_
    intro h'
    have h0 := h' 0
    rw [flatScatter_start0, flatScatter_window0] at h0
    apply h
    have h1 : (((⟨1, ![M]⟩ : Shape).size 0 : Nat) : Int) = (M : Int) := rfl
    rw [h1] at h0
    omega

/-- Update `e` of a flat scatter lands at `j` exactly when its row `sRow` is `j`. -/
theorem flatScatter_resultIdx_eq_some_iff {M E w : Nat}
    (wf : ScatterDims.WF ⟨1, ![M]⟩ ⟨2, ![E, 1]⟩ ⟨1, ![E]⟩ [] [0] [0] 1)
    (idx : IVec ⟨2, ![E, 1]⟩ w) (e : Fin E) (j : Fin M) :
    (flatScatterDims M E wf).resultIdx? (ix1 e) idx = some (ix1 j) ↔ sRow M idx e = some j := by
  rw [flatScatter_resultIdx]
  constructor
  · intro h
    rcases hs : sRow M idx e with _ | j'
    · rw [hs] at h; exact absurd h (by simp)
    · rw [hs, Option.map_some] at h
      have ha : j' = j := congrFun (Option.some.inj h) 0
      rw [ha]
  · intro hs
    rw [hs, Option.map_some]

/-- A FLAT SCATTER-ADD READ AT `j`: the operand's element plus the sum of the updates `e` whose row `sRow` is `j`. -/
theorem scatterAdd_flat_apply {M E w : Nat}
    (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w)
    (upd : (⟨1, ![E]⟩ : Shape).Idx → EReal) (j : Fin M) :
    Ideal.hostScatterAdd (flatScatterDims M E wf) x idx upd (ix1 j)
      = x (ix1 j) + ∑ e ∈ Finset.univ.filter (fun e : Fin E => sRow M idx e = some j), upd (ix1 e) := by
  unfold Ideal.hostScatterAdd
  congr 1
  rw [Finset.sum_filter, sum_idx1, Finset.sum_filter]
  refine Finset.sum_congr rfl fun e _ => ?_
  simp only [flatScatter_resultIdx_eq_some_iff]

/-- The same in the program's spelling: `Host.scatterAdd` at the ideal instance is `Ideal.hostScatterAdd`. -/
theorem host_scatterAdd_flat_apply {φ : FTy} {M E w : Nat}
    (wf : ScatterDims.WF ⟨1, ![M]⟩ ⟨2, ![E, 1]⟩ ⟨1, ![E]⟩ [] [0] [0] 1)
    (x : FVec Ideal ⟨1, ![M]⟩ φ) (idx : IVec ⟨2, ![E, 1]⟩ w)
    (upd : FVec Ideal ⟨1, ![E]⟩ φ) (j : Fin M) :
    Host.scatterAdd (flatScatterDims M E wf) x idx upd (ix1 j)
      = x (ix1 j) + ∑ e ∈ Finset.univ.filter (fun e : Fin E => sRow M idx e = some j), upd (ix1 e) :=
  scatterAdd_flat_apply wf x idx upd j

/-! ## The three readings for any record with these dimension numbers

A program's record is a definition of its own whose fields are the literals above: it equals one of the three records
above (hypothesis `hd`), or agrees with it field by field (hypotheses `h1` …). -/

/-- The value of `gRow`: the signed start index clamped into `[0, N - 1]`. -/
theorem gRow_val {N E w : Nat} (hN : 0 < N) (idx : IVec ⟨2, ![E, 1]⟩ w) (e : Fin E) :
    (gRow hN idx e).val = min (idx (ix2 e (0 : Fin 1))).toInt.toNat (N - 1) := rfl

/-- `gather_row_apply` for a record equal to `rowGatherDims`. -/
theorem gather_row_apply_of {α : Type} {N E C w : Nat} (hN : 0 < N)
    (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C])
    (hd : d = rowGatherDims N E C wf)
    (x : (⟨2, ![N, C]⟩ : Shape).Idx → α) (idx : IVec ⟨2, ![E, 1]⟩ w) (e : Fin E) (n : Fin C) :
    Host.gather d x idx (ix2 e n) = x (ix2 (gRow hN idx e) n) := by
  subst hd; exact gather_row_apply hN wf x idx e n

/-- `gather_row_apply` for a record given field by field. -/
theorem gather_row_apply_fields {α : Type} {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (n : Fin C) :
    Host.gather d x idx (ix2 e n) = x (ix2 (gRow hN idx e) n) := by
  obtain ⟨od, cd, ob, sb, sm, iv, ss, wf⟩ := d
  simp only at h1 h2 h3 h4 h5 h6 h7
  subst h1 h2 h3 h4 h5 h6 h7
  exact gather_row_apply hN wf x idx e n

/-- `host_scatterAdd_row_apply` for a record equal to `rowScatterDims`. -/
theorem host_scatterAdd_row_apply_of {φ : FTy} {M E C w : Nat}
    (d : ScatterDims ⟨2, ![M, C]⟩ ⟨2, ![E, 1]⟩ ⟨2, ![E, C]⟩)
    (wf : ScatterDims.WF ⟨2, ![M, C]⟩ ⟨2, ![E, 1]⟩ ⟨2, ![E, C]⟩ [1] [0] [0] 1)
    (hd : d = rowScatterDims M E C wf)
    (x : FVec Ideal ⟨2, ![M, C]⟩ φ) (idx : IVec ⟨2, ![E, 1]⟩ w)
    (upd : FVec Ideal ⟨2, ![E, C]⟩ φ) (j : Fin M) (n : Fin C) :
    Host.scatterAdd d x idx upd (ix2 j n)
      = x (ix2 j n) + ∑ e ∈ Finset.univ.filter (fun e : Fin E => sRow M idx e = some j), upd (ix2 e n) := by
  subst hd; exact host_scatterAdd_row_apply wf x idx upd j n

/-- `host_scatterAdd_row_apply` for a record given field by field. -/
theorem host_scatterAdd_row_apply_fields {φ : FTy} {M E C w : Nat}
    (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![M, C]⟩ φ) (idx : IVec ⟨2, ![E, 1]⟩ w)
    (upd : FVec Ideal ⟨2, ![E, C]⟩ φ) (j : Fin M) (n : Fin C) :
    Host.scatterAdd d x idx upd (ix2 j n)
      = x (ix2 j n) + ∑ e ∈ Finset.univ.filter (fun e : Fin E => sRow M idx e = some j), upd (ix2 e n) := by
  obtain ⟨uw, iw, sd, iv, wf⟩ := d
  simp only at h1 h2 h3 h4
  subst h1 h2 h3 h4
  exact host_scatterAdd_row_apply wf x idx upd j n

/-- `host_scatterAdd_flat_apply` for a record equal to `flatScatterDims`. -/
theorem host_scatterAdd_flat_apply_of {φ : FTy} {M E w : Nat}
    (d : ScatterDims ⟨1, ![M]⟩ ⟨2, ![E, 1]⟩ ⟨1, ![E]⟩)
    (wf : ScatterDims.WF ⟨1, ![M]⟩ ⟨2, ![E, 1]⟩ ⟨1, ![E]⟩ [] [0] [0] 1)
    (hd : d = flatScatterDims M E wf)
    (x : FVec Ideal ⟨1, ![M]⟩ φ) (idx : IVec ⟨2, ![E, 1]⟩ w)
    (upd : FVec Ideal ⟨1, ![E]⟩ φ) (j : Fin M) :
    Host.scatterAdd d x idx upd (ix1 j)
      = x (ix1 j) + ∑ e ∈ Finset.univ.filter (fun e : Fin E => sRow M idx e = some j), upd (ix1 e) := by
  subst hd; exact host_scatterAdd_flat_apply wf x idx upd j

/-- `host_scatterAdd_flat_apply` for a record given field by field. -/
theorem host_scatterAdd_flat_apply_fields {φ : FTy} {M E w : Nat}
    (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![E, 1]⟩ w)
    (upd : FVec Ideal ⟨1, ![E]⟩ φ) (j : Fin M) :
    Host.scatterAdd d x idx upd (ix1 j)
      = x (ix1 j) + ∑ e ∈ Finset.univ.filter (fun e : Fin E => sRow M idx e = some j), upd (ix1 e) := by
  obtain ⟨uw, iw, sd, iv, wf⟩ := d
  simp only at h1 h2 h3 h4
  subst h1 h2 h3 h4
  exact host_scatterAdd_flat_apply wf x idx upd j

end Cert.Lib.GatherScatter

end
-- ==== Proof.Terms.lean ====
/-
  One relation of the layer as each program spells it on the host, read at an entry `(j, n)`.

  Both programs gather source rows along the edges (row `gRow is e` for edge `e`) and scatter-add them onto the
  destination rows (edge `e` lands on row `j` when `sRow id e = some j`); the in-degree is a scatter-add of ones over
  the same edges, clamped below at one. The first program multiplies the source table by the transposed weight
  matrix before the gather and scales the aggregate by the reciprocal of the clamped in-degree; the second divides the
  aggregate of the raw rows by the clamped in-degree and multiplies by the transposed weight matrix afterwards, then
  adds the bias row and the product of the destination's own features with a second transposed matrix. With real
  entries both aggregates are `Spec.agg`.
-/
import proofs.«113430_j8022998908984_2_alg».proof.Proof.Spec
import proofs.«113430_j8022998908984_2_alg».proof.Proof.Reads
import proofs.«113430_j8022998908984_2_alg».proof.Proof.LibGatherScatter

noncomputable section

namespace Cert.Terms

open Idealize.ShloMosaic Idealize.ShloMosaic.ValueIdx Cert.Spec Cert.Reads Cert.Lib.GatherScatter

/-- The host's division at one entry is the division of the entries. -/
theorem hostDivf_apply {s : Shape} {φ : FTy} (a b : FVec Ideal s φ) (i : s.Idx) : Host.divf a b i = Ideal.div (a i) (b i) := rfl

/-- The edges that land on destination row `j`. -/
def landing (id : IVec ⟨2, ![800000, 1]⟩ 32) (j : Fin 100000) : Finset (Fin 800000) :=
  Finset.univ.filter (fun e : Fin 800000 => sRow 100000 id e = some j)

section Relation

variable {N : Nat} (hN : 0 < N)
  (D : DotDims ⟨2, ![N, 128]⟩ ⟨2, ![128, 128]⟩ ⟨2, ![N, 128]⟩) (hD : D = DotDims.plain N 128 128)
  (D' : DotDims ⟨2, ![100000, 128]⟩ ⟨2, ![128, 128]⟩ ⟨2, ![100000, 128]⟩) (hD' : D' = DotDims.plain 100000 128 128)
  (dG : GatherDims ⟨2, ![N, 128]⟩ ⟨2, ![800000, 1]⟩ ⟨2, ![800000, 128]⟩)
  (g1 : dG.offsetDims = [1]) (g2 : dG.collapsedSliceDims = [0]) (g3 : dG.operandBatchingDims = [])
  (g4 : dG.startIndicesBatchingDims = []) (g5 : dG.startIndexMap = [0]) (g6 : dG.indexVectorDim = 1)
  (g7 : dG.sliceSizes = ![1, 128])
  (dS : ScatterDims ⟨2, ![100000, 128]⟩ ⟨2, ![800000, 1]⟩ ⟨2, ![800000, 128]⟩)
  (s1 : dS.updateWindowDims = [1]) (s2 : dS.insertedWindowDims = [0]) (s3 : dS.scatterDimsToOperandDims = [0])
  (s4 : dS.indexVectorDim = 1)
  (dF : ScatterDims ⟨1, ![100000]⟩ ⟨2, ![800000, 1]⟩ ⟨1, ![800000]⟩)
  (f1 : dF.updateWindowDims = []) (f2 : dF.insertedWindowDims = [0]) (f3 : dF.scatterDimsToOperandDims = [0])
  (f4 : dF.indexVectorDim = 1)
  (hT : (⟨2, ![128, 128]⟩ : Shape).Transposes [1, 0] ⟨2, ![128, 128]⟩)
  (hbM : (⟨0, ![]⟩ : Shape).BroadcastsInDim ⟨2, ![100000, 128]⟩ ![])
  (hbE : (⟨0, ![]⟩ : Shape).BroadcastsInDim ⟨1, ![800000]⟩ ![])
  (hbJ : (⟨0, ![]⟩ : Shape).BroadcastsInDim ⟨1, ![100000]⟩ ![])

/-- The clamped in-degree of every destination row, as both programs compute it: ones scatter-added onto zeros,
    clamped below at one. -/
abbrev degree (id : IVec ⟨2, ![800000, 1]⟩ 32) : FVec Ideal ⟨1, ![100000]⟩ .f32 :=
  maximumf (Host.scatterAdd dF (broadcastInDim ⟨1, ![100000]⟩ ![] hbJ (constant ⟨0, ![]⟩ .f32 0x00000000#32)) id
      (broadcastInDim ⟨1, ![800000]⟩ ![] hbE (constant ⟨0, ![]⟩ .f32 0x3F800000#32)))
    (broadcastInDim ⟨1, ![100000]⟩ ![] hbJ (constant ⟨0, ![]⟩ .f32 0x3F800000#32))

include f1 f2 f3 f4 in
/-- Row `j`'s clamped in-degree is `max (0 + Σ_{e lands on j} 1) 1`. -/
theorem degree_apply (id : IVec ⟨2, ![800000, 1]⟩ 32) (j : Fin 100000) :
    degree dF hbE hbJ id (ix1 j) = max ((0 : EReal) + ∑ _e ∈ landing id j, (1 : EReal)) 1 := by
  unfold degree
  have hs : ∀ e : Fin 800000, broadcastInDim ⟨1, ![800000]⟩ ![] hbE (constant (F := Ideal) ⟨0, ![]⟩ .f32 0x3F800000#32) (ix1 e)
      = (1 : EReal) := fun e => by rw [bcast_scalar, constant_apply, ofBits_one]
  rw [maximumf_apply, host_scatterAdd_flat_apply_fields dF f1 f2 f3 f4, bcast_scalar, bcast_scalar, constant_apply,
    constant_apply, ofBits_zero, ofBits_one]
  simp only [hs]
  unfold landing
  rfl

include hN hD g1 g2 g3 g4 g5 g6 g7 s1 s2 s3 s4 f1 f2 f3 f4 in
/-- THE FIRST PROGRAM'S RELATION at `(j, n)`: the scatter-added gathered rows of the source table times the transposed
    weight matrix, scaled by the reciprocal of the clamped in-degree, is the aggregate. -/
theorem mul_first_apply (x : FVec Ideal ⟨2, ![N, 128]⟩ .f32) (w : FVec Ideal ⟨2, ![128, 128]⟩ .f32)
    (X : Fin N → Fin 128 → ℝ) (hx : ∀ r k, x (ix2 r k) = ((X r k : ℝ) : EReal))
    (W : Fin 128 → Fin 128 → ℝ) (hw : ∀ n k, w (ix2 n k) = ((W n k : ℝ) : EReal))
    (is id : IVec ⟨2, ![800000, 1]⟩ 32) (j : Fin 100000) (n : Fin 128) :
    Host.scatterAdd dS (broadcastInDim ⟨2, ![100000, 128]⟩ ![] hbM (constant ⟨0, ![]⟩ .f32 0x00000000#32)) id
          (Host.gather dG (Host.dotGeneral D none x (transpose ⟨2, ![128, 128]⟩ [1, 0] w hT)) is) (ix2 j n)
        * Host.divf (broadcastInDim ⟨1, ![100000]⟩ ![] hbJ (constant ⟨0, ![]⟩ .f32 0x3F800000#32))
            (degree dF hbE hbJ id) (ix1 j)
      = ((agg (landing id j) (gRow hN is) X (W n) : ℝ) : EReal) := by
  subst hD
  have e1 : Host.divf (broadcastInDim ⟨1, ![100000]⟩ ![] hbJ (constant (F := Ideal) ⟨0, ![]⟩ .f32 0x3F800000#32))
      (degree dF hbE hbJ id) (ix1 j)
      = Ideal.div 1 (max ((0 : EReal) + ∑ _e ∈ landing id j, (1 : EReal)) 1) := by
    rw [hostDivf_apply, degree_apply dF f1 f2 f3 f4 hbE hbJ, bcast_scalar, constant_apply, ofBits_one]
  have hg : ∀ e : Fin 800000,
      Host.gather dG (Host.dotGeneral (DotDims.plain N 128 128) none x (transpose ⟨2, ![128, 128]⟩ [1, 0] w hT)) is (ix2 e n)
        = ∑ k : Fin 128, ((X (gRow hN is e) k : ℝ) : EReal) * ((W n k : ℝ) : EReal) := by
    intro e
    rw [gather_row_apply_fields hN dG g1 g2 g3 g4 g5 g6 g7, dot_plain_apply]
    refine Finset.sum_congr rfl fun k _ => ?_
    rw [transpose_ix2, hx, hw]
  rw [e1, host_scatterAdd_row_apply_fields dS s1 s2 s3 s4, bcast_scalar, constant_apply, ofBits_zero]
  simp only [hg]
  exact agg_mul_first (landing id j) (gRow hN is) X (W n)

variable (hc1 : (⟨1, ![100000]⟩ : Shape).BroadcastsInDim ⟨2, ![100000, 1]⟩ ![0])
  (hc2 : (⟨2, ![100000, 1]⟩ : Shape).BroadcastsInDim ⟨2, ![100000, 128]⟩ ![0, 1])
  (hr1 : (⟨1, ![128]⟩ : Shape).BroadcastsInDim ⟨2, ![1, 128]⟩ ![1])
  (hr2 : (⟨2, ![1, 128]⟩ : Shape).BroadcastsInDim ⟨2, ![100000, 128]⟩ ![0, 1])

include hN hD' g1 g2 g3 g4 g5 g6 g7 s1 s2 s3 s4 f1 f2 f3 f4 in
/-- THE SECOND PROGRAM'S RELATION at `(j, n)`: the mean of the gathered raw rows times the transposed weight matrix,
    plus the bias, plus the destination's own features times a second transposed matrix. -/
theorem mul_last_apply (x : FVec Ideal ⟨2, ![N, 128]⟩ .f32) (w wr : FVec Ideal ⟨2, ![128, 128]⟩ .f32)
    (b : FVec Ideal ⟨1, ![128]⟩ .f32) (x0 : FVec Ideal ⟨2, ![100000, 128]⟩ .f32)
    (X : Fin N → Fin 128 → ℝ) (hx : ∀ r k, x (ix2 r k) = ((X r k : ℝ) : EReal))
    (W : Fin 128 → Fin 128 → ℝ) (hw : ∀ n k, w (ix2 n k) = ((W n k : ℝ) : EReal))
    (is id : IVec ⟨2, ![800000, 1]⟩ 32) (j : Fin 100000) (n : Fin 128) :
    addf (addf (Host.dotGeneral D' none
        (Host.divf (Host.scatterAdd dS (broadcastInDim ⟨2, ![100000, 128]⟩ ![] hbM (constant ⟨0, ![]⟩ .f32 0x00000000#32)) id
            (Host.gather dG x is))
          (broadcastInDim ⟨2, ![100000, 128]⟩ ![0, 1] hc2 (broadcastInDim ⟨2, ![100000, 1]⟩ ![0] hc1 (degree dF hbE hbJ id))))
        (transpose ⟨2, ![128, 128]⟩ [1, 0] w hT))
      (broadcastInDim ⟨2, ![100000, 128]⟩ ![0, 1] hr2 (broadcastInDim ⟨2, ![1, 128]⟩ ![1] hr1 b)))
      (Host.dotGeneral D' none x0 (transpose ⟨2, ![128, 128]⟩ [1, 0] wr hT)) (ix2 j n)
      = (((agg (landing id j) (gRow hN is) X (W n) : ℝ) : EReal) + b (ix1 n))
          + ∑ k : Fin 128, x0 (ix2 j k) * wr (ix2 n k) := by
  subst hD'
  have hg : ∀ (e : Fin 800000) (k : Fin 128), Host.gather dG x is (ix2 e k) = ((X (gRow hN is e) k : ℝ) : EReal) := by
    intro e k
    rw [gather_row_apply_fields hN dG g1 g2 g3 g4 g5 g6 g7, hx]
  have e : ∀ k : Fin 128, Host.divf
      (Host.scatterAdd dS (broadcastInDim ⟨2, ![100000, 128]⟩ ![] hbM (constant (F := Ideal) ⟨0, ![]⟩ .f32 0x00000000#32)) id
        (Host.gather dG x is))
      (broadcastInDim ⟨2, ![100000, 128]⟩ ![0, 1] hc2 (broadcastInDim ⟨2, ![100000, 1]⟩ ![0] hc1 (degree dF hbE hbJ id)))
      (ix2 j k)
      = Ideal.div ((0 : EReal) + ∑ e ∈ landing id j, ((X (gRow hN is e) k : ℝ) : EReal))
          (max ((0 : EReal) + ∑ _e ∈ landing id j, (1 : EReal)) 1) := by
    intro k
    rw [hostDivf_apply, bcast_col_lanes 100000 (by decide), bcast_col 100000 (by decide),
      degree_apply dF f1 f2 f3 f4 hbE hbJ, host_scatterAdd_row_apply_fields dS s1 s2 s3 s4, bcast_scalar,
      constant_apply, ofBits_zero]
    simp only [hg]
    rfl
  have ht : ∀ k : Fin 128, transpose ⟨2, ![128, 128]⟩ [1, 0] w hT (ix2 k n) = ((W n k : ℝ) : EReal) := fun k => by
    rw [transpose_ix2, hw]
  have ht' : ∀ k : Fin 128, transpose ⟨2, ![128, 128]⟩ [1, 0] wr hT (ix2 k n) = wr (ix2 n k) := fun k =>
    transpose_ix2 wr hT k n
  rw [addf_apply, addf_apply, dot_plain_apply, dot_plain_apply, bcast_row_rows, bcast_row]
  simp only [e, ht, ht']
  rw [agg_mul_last (landing id j) (gRow hN is) X (W n)]

end Relation

end Cert.Terms

end
-- ==== Proof.Layer.lean ====
/-
  The layer's result as ONE function of the argument arrays, entry by entry: at `(j, n)` the five relations'
  aggregates (each over the edges landing on row `j`, of the source rows its edges name, against row `n` of its
  weight matrix), the destination row `j` against row `n` of the five second matrices, the five biases at `n`, clamped
  at zero — computed on the real numbers the entries are. Both programs end with this array.
-/
import proofs.«113430_j8022998908984_2_alg».proof.Proof.Terms

noncomputable section

namespace Cert.Layer

open Idealize.ShloMosaic Idealize.ShloMosaic.ValueIdx Cert.Spec Cert.Terms Cert.Lib.GatherScatter

/-- An extended real that is a real is the inclusion of its real part. -/
theorem coe_toReal_of {x : EReal} (h : ∃ r : ℝ, x = (r : EReal)) : x = ((x.toReal : ℝ) : EReal) := by
  obtain ⟨r, rfl⟩ := h
  rw [EReal.toReal_coe]

/-- Entry `(j, n)` of the layer's result. The index arrays are the `[800000, 1]` columns of source and destination
    row numbers of the five relations. -/
def entry (x0 : FVec Ideal ⟨2, ![100000, 128]⟩ .f32) (x1 x2 : FVec Ideal ⟨2, ![20000, 128]⟩ .f32)
    (x3 : FVec Ideal ⟨2, ![10000, 128]⟩ .f32)
    (is1 id1 is2 id2 is3 id3 is4 id4 is5 id5 : IVec ⟨2, ![800000, 1]⟩ 32)
    (w14 : FVec Ideal ⟨2, ![128, 128]⟩ .f32) (b15 : FVec Ideal ⟨1, ![128]⟩ .f32) (w16 : FVec Ideal ⟨2, ![128, 128]⟩ .f32)
    (w17 : FVec Ideal ⟨2, ![128, 128]⟩ .f32) (b18 : FVec Ideal ⟨1, ![128]⟩ .f32) (w19 : FVec Ideal ⟨2, ![128, 128]⟩ .f32)
    (w20 : FVec Ideal ⟨2, ![128, 128]⟩ .f32) (b21 : FVec Ideal ⟨1, ![128]⟩ .f32) (w22 : FVec Ideal ⟨2, ![128, 128]⟩ .f32)
    (w23 : FVec Ideal ⟨2, ![128, 128]⟩ .f32) (b24 : FVec Ideal ⟨1, ![128]⟩ .f32) (w25 : FVec Ideal ⟨2, ![128, 128]⟩ .f32)
    (w26 : FVec Ideal ⟨2, ![128, 128]⟩ .f32) (b27 : FVec Ideal ⟨1, ![128]⟩ .f32) (w28 : FVec Ideal ⟨2, ![128, 128]⟩ .f32)
    (j : Fin 100000) (n : Fin 128) : ℝ :=
  layer
      (agg (landing id1 j) (gRow (N := 20000) (by decide) is1) (fun r k => (x1 (ix2 r k)).toReal) (fun k => (w14 (ix2 n k)).toReal))
      (agg (landing id2 j) (gRow (N := 20000) (by decide) is2) (fun r k => (x1 (ix2 r k)).toReal) (fun k => (w17 (ix2 n k)).toReal))
      (agg (landing id3 j) (gRow (N := 20000) (by decide) is3) (fun r k => (x2 (ix2 r k)).toReal) (fun k => (w20 (ix2 n k)).toReal))
      (agg (landing id4 j) (gRow (N := 20000) (by decide) is4) (fun r k => (x2 (ix2 r k)).toReal) (fun k => (w23 (ix2 n k)).toReal))
      (agg (landing id5 j) (gRow (N := 10000) (by decide) is5) (fun r k => (x3 (ix2 r k)).toReal) (fun k => (w26 (ix2 n k)).toReal))
      (fun k => (x0 (ix2 j k)).toReal)
      (fun k => (w16 (ix2 n k)).toReal) (fun k => (w19 (ix2 n k)).toReal) (fun k => (w22 (ix2 n k)).toReal) (fun k => (w25 (ix2 n k)).toReal) (fun k => (w28 (ix2 n k)).toReal)
      (b15 (ix1 n)).toReal (b18 (ix1 n)).toReal (b21 (ix1 n)).toReal (b24 (ix1 n)).toReal (b27 (ix1 n)).toReal

/-- The layer's result array. -/
def G (x0 : FVec Ideal ⟨2, ![100000, 128]⟩ .f32) (x1 x2 : FVec Ideal ⟨2, ![20000, 128]⟩ .f32)
    (x3 : FVec Ideal ⟨2, ![10000, 128]⟩ .f32)
    (is1 id1 is2 id2 is3 id3 is4 id4 is5 id5 : IVec ⟨2, ![800000, 1]⟩ 32)
    (w14 : FVec Ideal ⟨2, ![128, 128]⟩ .f32) (b15 : FVec Ideal ⟨1, ![128]⟩ .f32) (w16 : FVec Ideal ⟨2, ![128, 128]⟩ .f32)
    (w17 : FVec Ideal ⟨2, ![128, 128]⟩ .f32) (b18 : FVec Ideal ⟨1, ![128]⟩ .f32) (w19 : FVec Ideal ⟨2, ![128, 128]⟩ .f32)
    (w20 : FVec Ideal ⟨2, ![128, 128]⟩ .f32) (b21 : FVec Ideal ⟨1, ![128]⟩ .f32) (w22 : FVec Ideal ⟨2, ![128, 128]⟩ .f32)
    (w23 : FVec Ideal ⟨2, ![128, 128]⟩ .f32) (b24 : FVec Ideal ⟨1, ![128]⟩ .f32) (w25 : FVec Ideal ⟨2, ![128, 128]⟩ .f32)
    (w26 : FVec Ideal ⟨2, ![128, 128]⟩ .f32) (b27 : FVec Ideal ⟨1, ![128]⟩ .f32) (w28 : FVec Ideal ⟨2, ![128, 128]⟩ .f32) :
    (⟨2, ![100000, 128]⟩ : Shape).Idx → EReal := fun i =>
  ((entry x0 x1 x2 x3 is1 id1 is2 id2 is3 id3 is4 id4 is5 id5 w14 b15 w16 w17 b18 w19 w20 b21 w22 w23 b24 w25 w26 b27 w28
      ⟨(i 0).val, idx2_lt0 i⟩ ⟨(i 1).val, idx2_lt1 i⟩ : ℝ) : EReal)

/-- At an index given by its coordinates, the array is the entry. -/
theorem G_ix2 (x0 : FVec Ideal ⟨2, ![100000, 128]⟩ .f32) (x1 x2 : FVec Ideal ⟨2, ![20000, 128]⟩ .f32)
    (x3 : FVec Ideal ⟨2, ![10000, 128]⟩ .f32)
    (is1 id1 is2 id2 is3 id3 is4 id4 is5 id5 : IVec ⟨2, ![800000, 1]⟩ 32)
    (w14 : FVec Ideal ⟨2, ![128, 128]⟩ .f32) (b15 : FVec Ideal ⟨1, ![128]⟩ .f32) (w16 : FVec Ideal ⟨2, ![128, 128]⟩ .f32)
    (w17 : FVec Ideal ⟨2, ![128, 128]⟩ .f32) (b18 : FVec Ideal ⟨1, ![128]⟩ .f32) (w19 : FVec Ideal ⟨2, ![128, 128]⟩ .f32)
    (w20 : FVec Ideal ⟨2, ![128, 128]⟩ .f32) (b21 : FVec Ideal ⟨1, ![128]⟩ .f32) (w22 : FVec Ideal ⟨2, ![128, 128]⟩ .f32)
    (w23 : FVec Ideal ⟨2, ![128, 128]⟩ .f32) (b24 : FVec Ideal ⟨1, ![128]⟩ .f32) (w25 : FVec Ideal ⟨2, ![128, 128]⟩ .f32)
    (w26 : FVec Ideal ⟨2, ![128, 128]⟩ .f32) (b27 : FVec Ideal ⟨1, ![128]⟩ .f32) (w28 : FVec Ideal ⟨2, ![128, 128]⟩ .f32)
    (j : Fin 100000) (n : Fin 128) :
    G x0 x1 x2 x3 is1 id1 is2 id2 is3 id3 is4 id4 is5 id5 w14 b15 w16 w17 b18 w19 w20 b21 w22 w23 b24 w25 w26 b27 w28 (ix2 j n)
      = ((entry x0 x1 x2 x3 is1 id1 is2 id2 is3 id3 is4 id4 is5 id5 w14 b15 w16 w17 b18 w19 w20 b21 w22 w23 b24 w25 w26 b27 w28 j n : ℝ) : EReal) := rfl

/-- THE FIRST PROGRAM'S ENTRY: the five scaled aggregates added left to right, plus the destination row against the
    SUM of the five second matrices' rows, plus the SUM of the five biases, clamped at zero, is the layer's entry —
    the product distributes over the sum of matrices because every entry is a real. -/
theorem fused_entry (x0 : FVec Ideal ⟨2, ![100000, 128]⟩ .f32) (x1 x2 : FVec Ideal ⟨2, ![20000, 128]⟩ .f32)
    (x3 : FVec Ideal ⟨2, ![10000, 128]⟩ .f32)
    (is1 id1 is2 id2 is3 id3 is4 id4 is5 id5 : IVec ⟨2, ![800000, 1]⟩ 32)
    (w14 : FVec Ideal ⟨2, ![128, 128]⟩ .f32) (b15 : FVec Ideal ⟨1, ![128]⟩ .f32) (w16 : FVec Ideal ⟨2, ![128, 128]⟩ .f32)
    (w17 : FVec Ideal ⟨2, ![128, 128]⟩ .f32) (b18 : FVec Ideal ⟨1, ![128]⟩ .f32) (w19 : FVec Ideal ⟨2, ![128, 128]⟩ .f32)
    (w20 : FVec Ideal ⟨2, ![128, 128]⟩ .f32) (b21 : FVec Ideal ⟨1, ![128]⟩ .f32) (w22 : FVec Ideal ⟨2, ![128, 128]⟩ .f32)
    (w23 : FVec Ideal ⟨2, ![128, 128]⟩ .f32) (b24 : FVec Ideal ⟨1, ![128]⟩ .f32) (w25 : FVec Ideal ⟨2, ![128, 128]⟩ .f32)
    (w26 : FVec Ideal ⟨2, ![128, 128]⟩ .f32) (b27 : FVec Ideal ⟨1, ![128]⟩ .f32) (w28 : FVec Ideal ⟨2, ![128, 128]⟩ .f32)
    (h0 : ∀ i, ∃ r : ℝ, x0 i = (r : EReal))
    (h15 : ∀ i, ∃ r : ℝ, b15 i = (r : EReal)) (h16 : ∀ i, ∃ r : ℝ, w16 i = (r : EReal))
    (h18 : ∀ i, ∃ r : ℝ, b18 i = (r : EReal)) (h19 : ∀ i, ∃ r : ℝ, w19 i = (r : EReal))
    (h21 : ∀ i, ∃ r : ℝ, b21 i = (r : EReal)) (h22 : ∀ i, ∃ r : ℝ, w22 i = (r : EReal))
    (h24 : ∀ i, ∃ r : ℝ, b24 i = (r : EReal)) (h25 : ∀ i, ∃ r : ℝ, w25 i = (r : EReal))
    (h27 : ∀ i, ∃ r : ℝ, b27 i = (r : EReal)) (h28 : ∀ i, ∃ r : ℝ, w28 i = (r : EReal))
    (j : Fin 100000) (n : Fin 128) (P1 P2 P3 P4 P5 : EReal)
    (hP1 : P1 = ((agg (landing id1 j) (gRow (N := 20000) (by decide) is1) (fun r k => (x1 (ix2 r k)).toReal) (fun k => (w14 (ix2 n k)).toReal) : ℝ) : EReal))
    (hP2 : P2 = ((agg (landing id2 j) (gRow (N := 20000) (by decide) is2) (fun r k => (x1 (ix2 r k)).toReal) (fun k => (w17 (ix2 n k)).toReal) : ℝ) : EReal))
    (hP3 : P3 = ((agg (landing id3 j) (gRow (N := 20000) (by decide) is3) (fun r k => (x2 (ix2 r k)).toReal) (fun k => (w20 (ix2 n k)).toReal) : ℝ) : EReal))
    (hP4 : P4 = ((agg (landing id4 j) (gRow (N := 20000) (by decide) is4) (fun r k => (x2 (ix2 r k)).toReal) (fun k => (w23 (ix2 n k)).toReal) : ℝ) : EReal))
    (hP5 : P5 = ((agg (landing id5 j) (gRow (N := 10000) (by decide) is5) (fun r k => (x3 (ix2 r k)).toReal) (fun k => (w26 (ix2 n k)).toReal) : ℝ) : EReal)) :
    max ((((((P1 + P2) + P3) + P4) + P5)
          + ∑ k : Fin 128, x0 (ix2 j k) * ((((w16 (ix2 n k) + w19 (ix2 n k)) + w22 (ix2 n k)) + w25 (ix2 n k)) + w28 (ix2 n k)))
          + ((((b15 (ix1 n) + b18 (ix1 n)) + b21 (ix1 n)) + b24 (ix1 n)) + b27 (ix1 n))) 0
      = ((entry x0 x1 x2 x3 is1 id1 is2 id2 is3 id3 is4 id4 is5 id5 w14 b15 w16 w17 b18 w19 w20 b21 w22 w23 b24 w25 w26 b27 w28 j n : ℝ) : EReal) := by
  subst hP1 hP2 hP3 hP4 hP5
  have hs : ∑ k : Fin 128, x0 (ix2 j k) * ((((w16 (ix2 n k) + w19 (ix2 n k)) + w22 (ix2 n k)) + w25 (ix2 n k)) + w28 (ix2 n k))
      = ∑ k : Fin 128, (((x0 (ix2 j k)).toReal : ℝ) : EReal) * ((((((w16 (ix2 n k)).toReal : ℝ) : EReal)
          + (((w19 (ix2 n k)).toReal : ℝ) : EReal)) + (((w22 (ix2 n k)).toReal : ℝ) : EReal))
          + (((w25 (ix2 n k)).toReal : ℝ) : EReal) + (((w28 (ix2 n k)).toReal : ℝ) : EReal)) :=
    Finset.sum_congr rfl fun k _ => by
      rw [← coe_toReal_of (h0 (ix2 j k)), ← coe_toReal_of (h16 (ix2 n k)), ← coe_toReal_of (h19 (ix2 n k)),
        ← coe_toReal_of (h22 (ix2 n k)), ← coe_toReal_of (h25 (ix2 n k)), ← coe_toReal_of (h28 (ix2 n k))]
  rw [hs, coe_toReal_of (h15 (ix1 n)), coe_toReal_of (h18 (ix1 n)), coe_toReal_of (h21 (ix1 n)),
    coe_toReal_of (h24 (ix1 n)), coe_toReal_of (h27 (ix1 n))]
  unfold entry
  exact layer_fused _ _ _ _ _ _ _ _ _ _ _ _ _ _ _ _

end Cert.Layer

end
-- ==== Proof.Concat.lean ====
/-
  Five columns `[100000, 1]` concatenated along the second axis into a `[100000, 5]` array: entry `(j, r)` is column
  `r`'s entry `(j, 0)`.
-/
import Idealize.ShloMosaic.Lib.Pipeline.Value
import Idealize.ShloMosaic.Lib.ValueIdx

noncomputable section

namespace Cert.Concat

open Idealize.ShloMosaic Idealize.ShloMosaic.ValueIdx

/-- Entry `(j, r)` of the concatenation of five unit-width columns is entry `(j, 0)` of column `r`, for each of the
    five values of `r`. -/
theorem concat5_apply {α : Type} (u0 u1 u2 u3 u4 : (⟨2, ![100000, 1]⟩ : Shape).Idx → α)
    (h : Shape.Concatenates (([⟨⟨2, ![100000, 1]⟩, u0⟩, ⟨⟨2, ![100000, 1]⟩, u1⟩, ⟨⟨2, ![100000, 1]⟩, u2⟩,
      ⟨⟨2, ![100000, 1]⟩, u3⟩, ⟨⟨2, ![100000, 1]⟩, u4⟩] : List ((s : Shape) × (s.Idx → α))).map (·.1)) ⟨2, ![100000, 5]⟩ 1)
    (j : Fin 100000) :
    concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 0) = u0 (ix2 j 0)
    ∧ concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 1) = u1 (ix2 j 0)
    ∧ concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 2) = u2 (ix2 j 0)
    ∧ concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 3) = u3 (ix2 j 0)
    ∧ concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 4) = u4 (ix2 j 0) := by
  have h0 : concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 0)
      = u0 (ix2 j 0) :=
    concatenate_apply_piece 1 _ h (ix2 j 0) 0 (by simp) ⟨2, ![100000, 1]⟩ u0 rfl rfl 0 rfl (ix2 j 0)
      (fun b hb => match b, hb with
        | ⟨0, _⟩, _ => rfl
        | ⟨1, _⟩, hb => absurd rfl hb)
      rfl
  have h1 : concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 1)
      = u1 (ix2 j 0) :=
    concatenate_apply_piece 1 _ h (ix2 j 1) 1 (by simp) ⟨2, ![100000, 1]⟩ u1 rfl rfl 1 rfl (ix2 j 0)
      (fun b hb => match b, hb with
        | ⟨0, _⟩, _ => rfl
        | ⟨1, _⟩, hb => absurd rfl hb)
      rfl
  have h2 : concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 2)
      = u2 (ix2 j 0) :=
    concatenate_apply_piece 1 _ h (ix2 j 2) 2 (by simp) ⟨2, ![100000, 1]⟩ u2 rfl rfl 2 rfl (ix2 j 0)
      (fun b hb => match b, hb with
        | ⟨0, _⟩, _ => rfl
        | ⟨1, _⟩, hb => absurd rfl hb)
      rfl
  have h3 : concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 3)
      = u3 (ix2 j 0) :=
    concatenate_apply_piece 1 _ h (ix2 j 3) 3 (by simp) ⟨2, ![100000, 1]⟩ u3 rfl rfl 3 rfl (ix2 j 0)
      (fun b hb => match b, hb with
        | ⟨0, _⟩, _ => rfl
        | ⟨1, _⟩, hb => absurd rfl hb)
      rfl
  have h4 : concatenate ⟨2, ![100000, 5]⟩ 1 [⟨⟨2, ![100000, 1]⟩, u0⟩, ⟨⟨2, ![100000, 1]⟩, u1⟩, ⟨⟨2, ![100000, 1]⟩, u2⟩, ⟨⟨2, ![100000, 1]⟩, u3⟩, ⟨⟨2, ![100000, 1]⟩, u4⟩] h (ix2 j 4)
      = u4 (ix2 j 0) :=
    concatenate_apply_piece 1 _ h (ix2 j 4) 4 (by simp) ⟨2, ![100000, 1]⟩ u4 rfl rfl 4 rfl (ix2 j 0)
      (fun b hb => match b, hb with
        | ⟨0, _⟩, _ => rfl
        | ⟨1, _⟩, hb => absurd rfl hb)
      rfl
  exact ⟨h0, h1, h2, h3, h4⟩

end Cert.Concat

end
-- ==== Proof.KernelValue.lean ====
/-
  The value of the kernel program: its output array is the layer's result `Layer.G` of the argument arrays.

  At grid point `t` the body stores, at row `y` and column `n` of its block, the clamped sum of five products (a block of
  a relation's aggregate times a column of the reciprocal in-degrees), a product of a block of the destination features
  with the rows of the summed second matrices, and the summed bias row. The blocks are rows `2000 t + y` of the arrays the
  host operations computed, so the stored value is the layer's entry at `(2000 t + y, n)`; the fifty blocks cover the
  array.
-/
import proofs.«113430_j8022998908984_2_alg».proof.Proof.KernelHost
import proofs.«113430_j8022998908984_2_alg».proof.Proof.KernelBlocks
import proofs.«113430_j8022998908984_2_alg».proof.Proof.KernelBlockReads
import proofs.«113430_j8022998908984_2_alg».proof.Proof.Layer
import proofs.«113430_j8022998908984_2_alg».proof.Proof.Concat

set_option maxRecDepth 16384

noncomputable section

namespace Cert.KernelIdeal.KValue

open Cert.KernelIdeal Cert.KernelIdeal.Gen Cert.KernelIdeal.Hand Cert.KernelIdeal.HostValue Cert.KernelIdeal.Blocks
open Idealize.ShloMosaic Idealize.ShloMosaic.TcCoe Idealize.ShloMosaic.ValueIdx Idealize.SL.Sem
open Cert.Spec Cert.Reads Cert.Terms Cert.Layer Cert.Concat Cert.Lib.GatherScatter
open Idealize.ShloMosaic.Pipeline (Dat)

/-- One relation as the host spells it, at row `j` and column `n`: the aggregate times the reciprocal clamped in-degree
    is the real aggregate of the source rows against row `n` of the weight matrix. -/
theorem rel20 (x : FVec Ideal S20000x128 .f32) (wl : FVec Ideal S128x128 .f32) (src dst : IVec S800000 32)
    (hx : ∀ i, ∃ r : ℝ, x i = (r : EReal)) (hw : ∀ i, ∃ r : ℝ, wl i = (r : EReal)) (j : Fin 100000) (n : Fin 128) :
    aggTerm20 x wl src dst (ix2 j n) * invTerm dst (ix1 j)
      = ((agg (landing (dstCol dst) j) (gRow (N := 20000) (by decide) (srcCol 20000#32 src))
          (fun r k => (x (ix2 r k)).toReal) (fun k => (wl (ix2 n k)).toReal) : ℝ) : EReal) := by
  unfold aggTerm20 invTerm
  exact mul_first_apply (hN := by decide) (D := dot_S20000x128_S128x128_S20000x128_1_0_0_1_n_n) (hD := rfl)
    (dG := gather_S20000x128_S800000x1_S800000x128_1_0_n_n_0_1_1128) (g1 := rfl) (g2 := rfl) (g3 := rfl) (g4 := rfl) (g5 := rfl) (g6 := rfl) (g7 := rfl)
    (dS := scatter_S100000x128_S800000x1_S800000x128_1_0_0_1) (s1 := rfl) (s2 := rfl) (s3 := rfl) (s4 := rfl)
    (dF := scatter_S100000_S800000x1_S800000_n_0_0_1) (f1 := rfl) (f2 := rfl) (f3 := rfl) (f4 := rfl)
    (hT := transposes_S128x128_S128x128_1_0) (hbM := bcast_S_S100000x128) (hbE := bcast_S_S800000) (hbJ := bcast_S_S100000)
    x wl (fun r k => (x (ix2 r k)).toReal) (fun r k => coe_toReal_of (hx (ix2 r k)))
    (fun n k => (wl (ix2 n k)).toReal) (fun n k => coe_toReal_of (hw (ix2 n k)))
    (srcCol 20000#32 src) (dstCol dst) j n

/-- The same over a 10000-row source table. -/
theorem rel10 (x : FVec Ideal S10000x128 .f32) (wl : FVec Ideal S128x128 .f32) (src dst : IVec S800000 32)
    (hx : ∀ i, ∃ r : ℝ, x i = (r : EReal)) (hw : ∀ i, ∃ r : ℝ, wl i = (r : EReal)) (j : Fin 100000) (n : Fin 128) :
    aggTerm10 x wl src dst (ix2 j n) * invTerm dst (ix1 j)
      = ((agg (landing (dstCol dst) j) (gRow (N := 10000) (by decide) (srcCol 10000#32 src))
          (fun r k => (x (ix2 r k)).toReal) (fun k => (wl (ix2 n k)).toReal) : ℝ) : EReal) := by
  unfold aggTerm10 invTerm
  exact mul_first_apply (hN := by decide) (D := dot_S10000x128_S128x128_S10000x128_1_0_0_1_n_n) (hD := rfl)
    (dG := gather_S10000x128_S800000x1_S800000x128_1_0_n_n_0_1_1128) (g1 := rfl) (g2 := rfl) (g3 := rfl) (g4 := rfl) (g5 := rfl) (g6 := rfl) (g7 := rfl)
    (dS := scatter_S100000x128_S800000x1_S800000x128_1_0_0_1) (s1 := rfl) (s2 := rfl) (s3 := rfl) (s4 := rfl)
    (dF := scatter_S100000_S800000x1_S800000_n_0_0_1) (f1 := rfl) (f2 := rfl) (f3 := rfl) (f4 := rfl)
    (hT := transposes_S128x128_S128x128_1_0) (hbM := bcast_S_S100000x128) (hbE := bcast_S_S800000) (hbJ := bcast_S_S100000)
    x wl (fun r k => (x (ix2 r k)).toReal) (fun r k => coe_toReal_of (hx (ix2 r k)))
    (fun n k => (wl (ix2 n k)).toReal) (fun n k => coe_toReal_of (hw (ix2 n k)))
    (srcCol 10000#32 src) (dstCol dst) j n

/-- The layer's result of the argument arrays, with the index columns as the host program spells them. -/
abbrev resultOf (a0 : FVec Ideal S100000x128 .f32) (a1 a2 : FVec Ideal S20000x128 .f32) (a3 : FVec Ideal S10000x128 .f32)
    (i4 i5 i6 i7 i8 i9 i10 i11 i12 i13 : IVec S800000 32)
    (a14 : FVec Ideal S128x128 .f32) (a15 : FVec Ideal S128 .f32) (a16 : FVec Ideal S128x128 .f32)
    (a17 : FVec Ideal S128x128 .f32) (a18 : FVec Ideal S128 .f32) (a19 : FVec Ideal S128x128 .f32)
    (a20 : FVec Ideal S128x128 .f32) (a21 : FVec Ideal S128 .f32) (a22 : FVec Ideal S128x128 .f32)
    (a23 : FVec Ideal S128x128 .f32) (a24 : FVec Ideal S128 .f32) (a25 : FVec Ideal S128x128 .f32)
    (a26 : FVec Ideal S128x128 .f32) (a27 : FVec Ideal S128 .f32) (a28 : FVec Ideal S128x128 .f32) : S100000x128.Idx → EReal :=
  G a0 a1 a2 a3 (srcCol 20000#32 i4) (dstCol i5) (srcCol 20000#32 i6) (dstCol i7) (srcCol 20000#32 i8) (dstCol i9) (srcCol 20000#32 i10) (dstCol i11) (srcCol 10000#32 i12) (dstCol i13) a14 a15 a16 a17 a18 a19 a20 a21 a22 a23 a24 a25 a26 a27 a28

/-- WHAT THE BODY STORES at row `y`, column `n` of a block: when the nine input blocks hold, at the entries the body
    reads, row `j` of the five aggregates, of the five reciprocal clamped in-degrees and of the destination features,
    row `n` of the summed second matrices and entry `n` of the summed biases, the stored value is the layer's entry
    `(j, n)`. -/
theorem stored_entry (X0 X1 X2 X3 X4 X5 : Vec Ideal S2000x128 .f32) (X6 : Vec Ideal S2000x5 .f32)
    (X7 : Vec Ideal S128x128 .f32) (X8 : Vec Ideal S1x128 .f32)
    (a0 : FVec Ideal S100000x128 .f32) (a1 a2 : FVec Ideal S20000x128 .f32) (a3 : FVec Ideal S10000x128 .f32)
    (i4 i5 i6 i7 i8 i9 i10 i11 i12 i13 : IVec S800000 32)
    (a14 : FVec Ideal S128x128 .f32) (a15 : FVec Ideal S128 .f32) (a16 : FVec Ideal S128x128 .f32)
    (a17 : FVec Ideal S128x128 .f32) (a18 : FVec Ideal S128 .f32) (a19 : FVec Ideal S128x128 .f32)
    (a20 : FVec Ideal S128x128 .f32) (a21 : FVec Ideal S128 .f32) (a22 : FVec Ideal S128x128 .f32)
    (a23 : FVec Ideal S128x128 .f32) (a24 : FVec Ideal S128 .f32) (a25 : FVec Ideal S128x128 .f32)
    (a26 : FVec Ideal S128x128 .f32) (a27 : FVec Ideal S128 .f32) (a28 : FVec Ideal S128x128 .f32)
    (h0 : ∀ i, ∃ r : ℝ, a0 i = (r : EReal)) (h1 : ∀ i, ∃ r : ℝ, a1 i = (r : EReal)) (h2 : ∀ i, ∃ r : ℝ, a2 i = (r : EReal)) (h3 : ∀ i, ∃ r : ℝ, a3 i = (r : EReal)) (h14 : ∀ i, ∃ r : ℝ, a14 i = (r : EReal)) (h15 : ∀ i, ∃ r : ℝ, a15 i = (r : EReal)) (h16 : ∀ i, ∃ r : ℝ, a16 i = (r : EReal)) (h17 : ∀ i, ∃ r : ℝ, a17 i = (r : EReal)) (h18 : ∀ i, ∃ r : ℝ, a18 i = (r : EReal)) (h19 : ∀ i, ∃ r : ℝ, a19 i = (r : EReal)) (h20 : ∀ i, ∃ r : ℝ, a20 i = (r : EReal)) (h21 : ∀ i, ∃ r : ℝ, a21 i = (r : EReal)) (h22 : ∀ i, ∃ r : ℝ, a22 i = (r : EReal)) (h23 : ∀ i, ∃ r : ℝ, a23 i = (r : EReal)) (h24 : ∀ i, ∃ r : ℝ, a24 i = (r : EReal)) (h25 : ∀ i, ∃ r : ℝ, a25 i = (r : EReal)) (h26 : ∀ i, ∃ r : ℝ, a26 i = (r : EReal)) (h27 : ∀ i, ∃ r : ℝ, a27 i = (r : EReal)) (h28 : ∀ i, ∃ r : ℝ, a28 i = (r : EReal))
    (j : Fin 100000) (y : Fin 2000) (n : Fin 128)
    (e0 : X0 (ix2 y n) = aggTerm20 a1 a14 i4 i5 (ix2 j n))
    (e1 : X1 (ix2 y n) = aggTerm20 a1 a17 i6 i7 (ix2 j n))
    (e2 : X2 (ix2 y n) = aggTerm20 a2 a20 i8 i9 (ix2 j n))
    (e3 : X3 (ix2 y n) = aggTerm20 a2 a23 i10 i11 (ix2 j n))
    (e4 : X4 (ix2 y n) = aggTerm10 a3 a26 i12 i13 (ix2 j n))
    (c0 : X6 (ix2 y 0) = invTerm i5 (ix1 j))
    (c1 : X6 (ix2 y 1) = invTerm i7 (ix1 j))
    (c2 : X6 (ix2 y 2) = invTerm i9 (ix1 j))
    (c3 : X6 (ix2 y 3) = invTerm i11 (ix1 j))
    (c4 : X6 (ix2 y 4) = invTerm i13 (ix1 j))
    (e5 : ∀ k : Fin 128, X5 (ix2 y k) = a0 (ix2 j k))
    (e7 : ∀ k : Fin 128, X7 (ix2 n k)
      = (((a16 (ix2 n k) + a19 (ix2 n k)) + a22 (ix2 n k)) + a25 (ix2 n k)) + a28 (ix2 n k))
    (e8 : X8 (ix2 0 n) = (((a15 (ix1 n) + a18 (ix1 n)) + a21 (ix1 n)) + a24 (ix1 n)) + a27 (ix1 n)) :
    out0_9 X0 X1 X2 X3 X4 X5 X6 X7 X8 (ix2 y n)
      = resultOf a0 a1 a2 a3 i4 i5 i6 i7 i8 i9 i10 i11 i12 i13 a14 a15 a16 a17 a18 a19 a20 a21 a22 a23 a24 a25 a26 a27 a28 (ix2 j n) := by
  rw [out9_apply, e0, e1, e2, e3, e4, c0, c1, c2, c3, c4, e8]
  unfold resultOf
  rw [G_ix2]
  simp only [e5, e7]
  exact fused_entry _ _ _ _ _ _ _ _ _ _ _ _ _ _ _ _ _ _ _ _ _ _ _ _ _ _ _ _ _ h0 h15 h16 h18 h19 h21 h22 h24 h25 h27 h28
    j n _ _ _ _ _
    (rel20 a1 a14 i4 i5 h1 h14 j n)
    (rel20 a1 a17 i6 i7 h1 h17 j n)
    (rel20 a2 a20 i8 i9 h2 h20 j n)
    (rel20 a2 a23 i10 i11 h2 h23 j n)
    (rel10 a3 a26 i12 i13 h3 h26 j n)

/-- A vector of `128` values reshaped to a `[1, 128]` row: entry `(0, n)` is the `n`-th value. -/
theorem row_of_vector (b : FVec Ideal S128 .f32) (n : Fin 128) :
    shapeCast S1x128 b shapeCasts_S128_S1x128 (ix2 0 n) = b (ix1 n) :=
  shapeCast_apply b shapeCasts_S128_S1x128 (ix2 0 n) (ix1 n) (by
    rw [Shape.rowMajor_val_one, Shape.rowMajor_val_two]
    show n.val = 0 * 128 + n.val
    omega)

variable (m : (ℓ : Loc nD τ sig) → Buf (Elt Ideal) ℓ) (c : Dev nD)

/-- Every entry of every float argument array is a real. -/
def AllReal : Prop :=
    (∀ i, ∃ r : ℝ, (m ((c : Thread nD τ).loc main_arg0)) i = (r : EReal))
    ∧ (∀ i, ∃ r : ℝ, (m ((c : Thread nD τ).loc main_arg1)) i = (r : EReal))
    ∧ (∀ i, ∃ r : ℝ, (m ((c : Thread nD τ).loc main_arg2)) i = (r : EReal))
    ∧ (∀ i, ∃ r : ℝ, (m ((c : Thread nD τ).loc main_arg3)) i = (r : EReal))
    ∧ (∀ i, ∃ r : ℝ, (m ((c : Thread nD τ).loc main_arg14)) i = (r : EReal))
    ∧ (∀ i, ∃ r : ℝ, (m ((c : Thread nD τ).loc main_arg15)) i = (r : EReal))
    ∧ (∀ i, ∃ r : ℝ, (m ((c : Thread nD τ).loc main_arg16)) i = (r : EReal))
    ∧ (∀ i, ∃ r : ℝ, (m ((c : Thread nD τ).loc main_arg17)) i = (r : EReal))
    ∧ (∀ i, ∃ r : ℝ, (m ((c : Thread nD τ).loc main_arg18)) i = (r : EReal))
    ∧ (∀ i, ∃ r : ℝ, (m ((c : Thread nD τ).loc main_arg19)) i = (r : EReal))
    ∧ (∀ i, ∃ r : ℝ, (m ((c : Thread nD τ).loc main_arg20)) i = (r : EReal))
    ∧ (∀ i, ∃ r : ℝ, (m ((c : Thread nD τ).loc main_arg21)) i = (r : EReal))
    ∧ (∀ i, ∃ r : ℝ, (m ((c : Thread nD τ).loc main_arg22)) i = (r : EReal))
    ∧ (∀ i, ∃ r : ℝ, (m ((c : Thread nD τ).loc main_arg23)) i = (r : EReal))
    ∧ (∀ i, ∃ r : ℝ, (m ((c : Thread nD τ).loc main_arg24)) i = (r : EReal))
    ∧ (∀ i, ∃ r : ℝ, (m ((c : Thread nD τ).loc main_arg25)) i = (r : EReal))
    ∧ (∀ i, ∃ r : ℝ, (m ((c : Thread nD τ).loc main_arg26)) i = (r : EReal))
    ∧ (∀ i, ∃ r : ℝ, (m ((c : Thread nD τ).loc main_arg27)) i = (r : EReal))
    ∧ (∀ i, ∃ r : ℝ, (m ((c : Thread nD τ).loc main_arg28)) i = (r : EReal))

/-- The layer's result of the program's argument arrays. -/
abbrev result : S100000x128.Idx → EReal :=
  resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))

/-- WHAT THE BODY STORES at row `y`, column `n` of point `t`'s block is the layer's entry at row `2000 t + y`: the
    blocks are those rows of the arrays the host operations computed. -/
theorem stored_eq (hf : AllReal m c) (t : Fin cfg0.N) (y : Fin 2000) (n : Fin 128) :
    out0_9 (iblk m c 0 t) (iblk m c 1 t) (iblk m c 2 t) (iblk m c 3 t) (iblk m c 4 t) (iblk m c 5 t) (iblk m c 6 t)
        (iblk m c 7 t) (iblk m c 8 t) (ix2 y n)
      = result m c (ix2 (row t y) n) := by
  obtain ⟨h0, h1, h2, h3, h14, h15, h16, h17, h18, h19, h20, h21, h22, h23, h24, h25, h26, h27, h28⟩ := hf
  have hcat := concat5_apply (invCol (m ((c : Thread nD τ).loc main_arg5))) (invCol (m ((c : Thread nD τ).loc main_arg7))) (invCol (m ((c : Thread nD τ).loc main_arg9))) (invCol (m ((c : Thread nD τ).loc main_arg11))) (invCol (m ((c : Thread nD τ).loc main_arg13)))
    concatenates_S100000x1_S100000x1_S100000x1_S100000x1_S100000x1_S100000x5_d1 (row t y)
  exact stored_entry (iblk m c 0 t) (iblk m c 1 t) (iblk m c 2 t) (iblk m c 3 t) (iblk m c 4 t) (iblk m c 5 t)
    (iblk m c 6 t) (iblk m c 7 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))
    h0 h1 h2 h3 h14 h15 h16 h17 h18 h19 h20 h21 h22 h23 h24 h25 h26 h27 h28 (row t y) y n
    (e0 := by rw [iblk_0_ix]; exact congrFun (V_main_v11 m c) _)
    (e1 := by rw [iblk_1_ix]; exact congrFun (V_main_v31 m c) _)
    (e2 := by rw [iblk_2_ix]; exact congrFun (V_main_v51 m c) _)
    (e3 := by rw [iblk_3_ix]; exact congrFun (V_main_v71 m c) _)
    (e4 := by rw [iblk_4_ix]; exact congrFun (V_main_v91 m c) _)
    (c0 := by
      rw [iblk_6_ix]
      refine ((congrFun (V_main_v105 m c) _).trans hcat.1).trans ?_
      unfold invCol
      exact bcast_col 100000 (by decide) bcast_S100000_S100000x1_0 _ (row t y) 0)
    (c1 := by
      rw [iblk_6_ix]
      refine ((congrFun (V_main_v105 m c) _).trans hcat.2.1).trans ?_
      unfold invCol
      exact bcast_col 100000 (by decide) bcast_S100000_S100000x1_0 _ (row t y) 0)
    (c2 := by
      rw [iblk_6_ix]
      refine ((congrFun (V_main_v105 m c) _).trans hcat.2.2.1).trans ?_
      unfold invCol
      exact bcast_col 100000 (by decide) bcast_S100000_S100000x1_0 _ (row t y) 0)
    (c3 := by
      rw [iblk_6_ix]
      refine ((congrFun (V_main_v105 m c) _).trans hcat.2.2.2.1).trans ?_
      unfold invCol
      exact bcast_col 100000 (by decide) bcast_S100000_S100000x1_0 _ (row t y) 0)
    (c4 := by
      rw [iblk_6_ix]
      refine ((congrFun (V_main_v105 m c) _).trans hcat.2.2.2.2).trans ?_
      unfold invCol
      exact bcast_col 100000 (by decide) bcast_S100000_S100000x1_0 _ (row t y) 0)
    (e5 := fun k => by rw [iblk_5_ix]; exact congrFun (V_main_arg0 m c) _)
    (e7 := fun k => by rw [iblk_7_ix]; exact congrFun (V_main_v109 m c) _)
    (e8 := by
      rw [iblk_8_ix]
      refine (congrFun (V_main_v114 m c) _).trans ?_
      exact row_of_vector _ n)

/-- WHAT POINT `t` WRITES BACK is block `t` of the layer's result. -/
theorem flushed9_eq (hf : AllReal m c) (t : Fin cfg0.N) :
    (dats m 0 c).flushed 9 t = ((cfg0.win 9).blk t).view.read (Elt Ideal) (result m c) := by
  show (cfg0.win 9).cut (grid0.coords t) ((dats m 0 c).after 9 t) = _
  rw [after0_9]
  funext z
  obtain ⟨y, n, rfl⟩ : ∃ (y : Fin 2000) (n : Fin 128), z = ix2 y n := ⟨z 0, z 1, eq_ix2 z⟩
  rw [read_blk9_ix c (result m c) t y n]
  exact stored_eq m c hf t y n

/-- THE ARRAY after the run is the layer's result: the fifty blocks cover it. -/
theorem final9 (hf : AllReal m c) : (dats m 0 c).arrAt 9 cfg0.N = result m c :=
  (dats m 0 c).arrAt_eq_of_cover 9 (result m c) (fun t _ => flushed9_eq m c hf t) cover9

end Cert.KernelIdeal.KValue

end
-- ==== Proof.RefValue.lean ====
/-
  The reference program's result array is the layer's common function of the argument arrays.

  The reference computes, relation by relation, the mean over the edges landing on a destination row of the source
  rows the edges name, multiplies it by the transposed weight matrix, adds the bias row and the product of the
  destination's own features with a second transposed matrix; it adds the five relations' results left to right and
  clamps at zero. Entry by entry, with every float argument a real number, each relation's term is the relation's
  aggregate plus its bias plus its own-features sum, and the clamped sum of the five is the layer's entry.
-/
import proofs.«113430_j8022998908984_2_alg».proof.Proof.Gen.ReferenceIdeal.Run
import proofs.«113430_j8022998908984_2_alg».proof.Proof.Layer

noncomputable section

namespace Cert.ReferenceIdeal.RefValue

open Cert.ReferenceIdeal Cert.ReferenceIdeal.Gen Cert.ReferenceIdeal.Value Idealize.ShloMosaic Idealize.ShloMosaic.TcCoe
  Idealize.ShloMosaic.ValueIdx Cert.Spec Cert.Reads Cert.Terms Cert.Layer

/-- A sum of products of entries that are real numbers is the sum of the products of their real parts. -/
theorem own_sum_real (x0 : FVec Ideal ⟨2, ![100000, 128]⟩ .f32) (wr : FVec Ideal ⟨2, ![128, 128]⟩ .f32)
    (hx : ∀ i, ∃ r : ℝ, x0 i = (r : EReal)) (hw : ∀ i, ∃ r : ℝ, wr i = (r : EReal)) (j : Fin 100000) (n : Fin 128) :
    (∑ k : Fin 128, x0 (ix2 j k) * wr (ix2 n k))
      = ∑ k : Fin 128, (((x0 (ix2 j k)).toReal : ℝ) : EReal) * (((wr (ix2 n k)).toReal : ℝ) : EReal) :=
  Finset.sum_congr rfl fun k _ => by rw [← coe_toReal_of (hx (ix2 j k)), ← coe_toReal_of (hw (ix2 n k))]

/-- A bias entry that is a real number is the inclusion of its real part. -/
theorem bias_real (b : FVec Ideal ⟨1, ![128]⟩ .f32) (hb : ∀ i, ∃ r : ℝ, b i = (r : EReal)) (n : Fin 128) :
    b (ix1 n) = (((b (ix1 n)).toReal : ℝ) : EReal) := coe_toReal_of (hb (ix1 n))

set_option maxRecDepth 16384 in
/-- The reference's result array, as a function of the launch contents `m` on core `c`, is the layer's array `G` of
    the argument arrays: the four feature tables, the five relations' source and destination row numbers as the
    program prepares them (a negative source number wrapped once by the table's height, both as `[800000, 1]` columns),
    and the five triples of weight matrix, bias row and own-features matrix. Every float argument is assumed real. -/
theorem result_eq (m : (ℓ : Loc nD τ sig) → Buf (Elt Ideal) ℓ) (c : Dev nD)
    (h0 : ∀ i, ∃ r : ℝ, (m ((c.tc : Thread nD τ).loc main_arg0)) i = (r : EReal))
    (h1 : ∀ i, ∃ r : ℝ, (m ((c.tc : Thread nD τ).loc main_arg1)) i = (r : EReal))
    (h2 : ∀ i, ∃ r : ℝ, (m ((c.tc : Thread nD τ).loc main_arg2)) i = (r : EReal))
    (h3 : ∀ i, ∃ r : ℝ, (m ((c.tc : Thread nD τ).loc main_arg3)) i = (r : EReal))
    (h14 : ∀ i, ∃ r : ℝ, (m ((c.tc : Thread nD τ).loc main_arg14)) i = (r : EReal))
    (h15 : ∀ i, ∃ r : ℝ, (m ((c.tc : Thread nD τ).loc main_arg15)) i = (r : EReal))
    (h16 : ∀ i, ∃ r : ℝ, (m ((c.tc : Thread nD τ).loc main_arg16)) i = (r : EReal))
    (h17 : ∀ i, ∃ r : ℝ, (m ((c.tc : Thread nD τ).loc main_arg17)) i = (r : EReal))
    (h18 : ∀ i, ∃ r : ℝ, (m ((c.tc : Thread nD τ).loc main_arg18)) i = (r : EReal))
    (h19 : ∀ i, ∃ r : ℝ, (m ((c.tc : Thread nD τ).loc main_arg19)) i = (r : EReal))
    (h20 : ∀ i, ∃ r : ℝ, (m ((c.tc : Thread nD τ).loc main_arg20)) i = (r : EReal))
    (h21 : ∀ i, ∃ r : ℝ, (m ((c.tc : Thread nD τ).loc main_arg21)) i = (r : EReal))
    (h22 : ∀ i, ∃ r : ℝ, (m ((c.tc : Thread nD τ).loc main_arg22)) i = (r : EReal))
    (h23 : ∀ i, ∃ r : ℝ, (m ((c.tc : Thread nD τ).loc main_arg23)) i = (r : EReal))
    (h24 : ∀ i, ∃ r : ℝ, (m ((c.tc : Thread nD τ).loc main_arg24)) i = (r : EReal))
    (h25 : ∀ i, ∃ r : ℝ, (m ((c.tc : Thread nD τ).loc main_arg25)) i = (r : EReal))
    (h26 : ∀ i, ∃ r : ℝ, (m ((c.tc : Thread nD τ).loc main_arg26)) i = (r : EReal))
    (h27 : ∀ i, ∃ r : ℝ, (m ((c.tc : Thread nD τ).loc main_arg27)) i = (r : EReal))
    (h28 : ∀ i, ∃ r : ℝ, (m ((c.tc : Thread nD τ).loc main_arg28)) i = (r : EReal)) :
    res_main_v139 m c
      = G (m ((c.tc : Thread nD τ).loc main_arg0)) (m ((c.tc : Thread nD τ).loc main_arg1)) (m ((c.tc : Thread nD τ).loc main_arg2)) (m ((c.tc : Thread nD τ).loc main_arg3))
          (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 20000#32))) (m ((c.tc : Thread nD τ).loc main_arg4))))
          (broadcastInDim S800000x1 ![0] bcast_S800000_S800000x1_0 (m ((c.tc : Thread nD τ).loc main_arg5)))
          (broadcastInDim S800000x1 ![0] bcast_S800000_S800000x1_0 (select (cmpi .slt (m ((c.tc : Thread nD τ).loc main_arg6)) (broadcastInDim S800000 ![] bcast_S_S800000 (constantI S_ 32 0#32))) (addi (m ((c.tc : Thread nD τ).loc main_arg6)) (broadcastInDim S800000 ![] bcast_S_S800000 (constantI S_ 32 20000#32))) (m ((c.tc : Thread nD τ).loc main_arg6))))
          (broadcastInDim S800000x1 ![0] bcast_S800000_S800000x1_0 (m ((c.tc : Thread nD τ).loc main_arg7)))
          (broadcastInDim S800000x1 ![0] bcast_S800000_S800000x1_0 (select (cmpi .slt (m ((c.tc : Thread nD τ).loc main_arg8)) (broadcastInDim S800000 ![] bcast_S_S800000 (constantI S_ 32 0#32))) (addi (m ((c.tc : Thread nD τ).loc main_arg8)) (broadcastInDim S800000 ![] bcast_S_S800000 (constantI S_ 32 20000#32))) (m ((c.tc : Thread nD τ).loc main_arg8))))
          (broadcastInDim S800000x1 ![0] bcast_S800000_S800000x1_0 (m ((c.tc : Thread nD τ).loc main_arg9)))
          (broadcastInDim S800000x1 ![0] bcast_S800000_S800000x1_0 (select (cmpi .slt (m ((c.tc : Thread nD τ).loc main_arg10)) (broadcastInDim S800000 ![] bcast_S_S800000 (constantI S_ 32 0#32))) (addi (m ((c.tc : Thread nD τ).loc main_arg10)) (broadcastInDim S800000 ![] bcast_S_S800000 (constantI S_ 32 20000#32))) (m ((c.tc : Thread nD τ).loc main_arg10))))
          (broadcastInDim S800000x1 ![0] bcast_S800000_S800000x1_0 (m ((c.tc : Thread nD τ).loc main_arg11)))
          (broadcastInDim S800000x1 ![0] bcast_S800000_S800000x1_0 (select (cmpi .slt (m ((c.tc : Thread nD τ).loc main_arg12)) (broadcastInDim S800000 ![] bcast_S_S800000 (constantI S_ 32 0#32))) (addi (m ((c.tc : Thread nD τ).loc main_arg12)) (broadcastInDim S800000 ![] bcast_S_S800000 (constantI S_ 32 10000#32))) (m ((c.tc : Thread nD τ).loc main_arg12))))
          (broadcastInDim S800000x1 ![0] bcast_S800000_S800000x1_0 (m ((c.tc : Thread nD τ).loc main_arg13)))
          (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  funext i
  obtain ⟨j, n, rfl⟩ : ∃ (j : Fin 100000) (n : Fin 128), i = ix2 j n := ⟨i 0, i 1, eq_ix2 i⟩
  rw [G_ix2]
  unfold res_main_v139
  rw [maximumf_apply, addf_apply, addf_apply, addf_apply, addf_apply]
  have hT1 :=
    mul_last_apply (N := 20000) (by decide) dot_S100000x128_S128x128_S100000x128_1_0_0_1_n_n rfl
      gather_S20000x128_S800000x1_S800000x128_1_0_n_n_0_1_1128 rfl rfl rfl rfl rfl rfl rfl
      scatter_S100000x128_S800000x1_S800000x128_1_0_0_1 rfl rfl rfl rfl
      scatter_S100000_S800000x1_S800000_n_0_0_1 rfl rfl rfl rfl
      transposes_S128x128_S128x128_1_0 bcast_S_S100000x128 bcast_S_S800000 bcast_S_S100000
      bcast_S100000_S100000x1_0 bcast_S100000x1_S100000x128_0_1 bcast_S128_S1x128_1 bcast_S1x128_S100000x128_0_1
      (m ((c.tc : Thread nD τ).loc main_arg1)) (m ((c.tc : Thread nD τ).loc main_arg14)) (m ((c.tc : Thread nD τ).loc main_arg16)) (m ((c.tc : Thread nD τ).loc main_arg15)) (m ((c.tc : Thread nD τ).loc main_arg0))
      (fun r k => ((m ((c.tc : Thread nD τ).loc main_arg1)) (ix2 r k)).toReal) (fun r k => coe_toReal_of (h1 (ix2 r k)))
      (fun n k => ((m ((c.tc : Thread nD τ).loc main_arg14)) (ix2 n k)).toReal) (fun n k => coe_toReal_of (h14 (ix2 n k)))
      (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 20000#32))) (m ((c.tc : Thread nD τ).loc main_arg4))))
      (broadcastInDim S800000x1 ![0] bcast_S800000_S800000x1_0 (m ((c.tc : Thread nD τ).loc main_arg5))) j n
  have hT2 :=
    mul_last_apply (N := 20000) (by decide) dot_S100000x128_S128x128_S100000x128_1_0_0_1_n_n rfl
      gather_S20000x128_S800000x1_S800000x128_1_0_n_n_0_1_1128 rfl rfl rfl rfl rfl rfl rfl
      scatter_S100000x128_S800000x1_S800000x128_1_0_0_1 rfl rfl rfl rfl
      scatter_S100000_S800000x1_S800000_n_0_0_1 rfl rfl rfl rfl
      transposes_S128x128_S128x128_1_0 bcast_S_S100000x128 bcast_S_S800000 bcast_S_S100000
      bcast_S100000_S100000x1_0 bcast_S100000x1_S100000x128_0_1 bcast_S128_S1x128_1 bcast_S1x128_S100000x128_0_1
      (m ((c.tc : Thread nD τ).loc main_arg1)) (m ((c.tc : Thread nD τ).loc main_arg17)) (m ((c.tc : Thread nD τ).loc main_arg19)) (m ((c.tc : Thread nD τ).loc main_arg18)) (m ((c.tc : Thread nD τ).loc main_arg0))
      (fun r k => ((m ((c.tc : Thread nD τ).loc main_arg1)) (ix2 r k)).toReal) (fun r k => coe_toReal_of (h1 (ix2 r k)))
      (fun n k => ((m ((c.tc : Thread nD τ).loc main_arg17)) (ix2 n k)).toReal) (fun n k => coe_toReal_of (h17 (ix2 n k)))
      (broadcastInDim S800000x1 ![0] bcast_S800000_S800000x1_0 (select (cmpi .slt (m ((c.tc : Thread nD τ).loc main_arg6)) (broadcastInDim S800000 ![] bcast_S_S800000 (constantI S_ 32 0#32))) (addi (m ((c.tc : Thread nD τ).loc main_arg6)) (broadcastInDim S800000 ![] bcast_S_S800000 (constantI S_ 32 20000#32))) (m ((c.tc : Thread nD τ).loc main_arg6))))
      (broadcastInDim S800000x1 ![0] bcast_S800000_S800000x1_0 (m ((c.tc : Thread nD τ).loc main_arg7))) j n
  have hT3 :=
    mul_last_apply (N := 20000) (by decide) dot_S100000x128_S128x128_S100000x128_1_0_0_1_n_n rfl
      gather_S20000x128_S800000x1_S800000x128_1_0_n_n_0_1_1128 rfl rfl rfl rfl rfl rfl rfl
      scatter_S100000x128_S800000x1_S800000x128_1_0_0_1 rfl rfl rfl rfl
      scatter_S100000_S800000x1_S800000_n_0_0_1 rfl rfl rfl rfl
      transposes_S128x128_S128x128_1_0 bcast_S_S100000x128 bcast_S_S800000 bcast_S_S100000
      bcast_S100000_S100000x1_0 bcast_S100000x1_S100000x128_0_1 bcast_S128_S1x128_1 bcast_S1x128_S100000x128_0_1
      (m ((c.tc : Thread nD τ).loc main_arg2)) (m ((c.tc : Thread nD τ).loc main_arg20)) (m ((c.tc : Thread nD τ).loc main_arg22)) (m ((c.tc : Thread nD τ).loc main_arg21)) (m ((c.tc : Thread nD τ).loc main_arg0))
      (fun r k => ((m ((c.tc : Thread nD τ).loc main_arg2)) (ix2 r k)).toReal) (fun r k => coe_toReal_of (h2 (ix2 r k)))
      (fun n k => ((m ((c.tc : Thread nD τ).loc main_arg20)) (ix2 n k)).toReal) (fun n k => coe_toReal_of (h20 (ix2 n k)))
      (broadcastInDim S800000x1 ![0] bcast_S800000_S800000x1_0 (select (cmpi .slt (m ((c.tc : Thread nD τ).loc main_arg8)) (broadcastInDim S800000 ![] bcast_S_S800000 (constantI S_ 32 0#32))) (addi (m ((c.tc : Thread nD τ).loc main_arg8)) (broadcastInDim S800000 ![] bcast_S_S800000 (constantI S_ 32 20000#32))) (m ((c.tc : Thread nD τ).loc main_arg8))))
      (broadcastInDim S800000x1 ![0] bcast_S800000_S800000x1_0 (m ((c.tc : Thread nD τ).loc main_arg9))) j n
  have hT4 :=
    mul_last_apply (N := 20000) (by decide) dot_S100000x128_S128x128_S100000x128_1_0_0_1_n_n rfl
      gather_S20000x128_S800000x1_S800000x128_1_0_n_n_0_1_1128 rfl rfl rfl rfl rfl rfl rfl
      scatter_S100000x128_S800000x1_S800000x128_1_0_0_1 rfl rfl rfl rfl
      scatter_S100000_S800000x1_S800000_n_0_0_1 rfl rfl rfl rfl
      transposes_S128x128_S128x128_1_0 bcast_S_S100000x128 bcast_S_S800000 bcast_S_S100000
      bcast_S100000_S100000x1_0 bcast_S100000x1_S100000x128_0_1 bcast_S128_S1x128_1 bcast_S1x128_S100000x128_0_1
      (m ((c.tc : Thread nD τ).loc main_arg2)) (m ((c.tc : Thread nD τ).loc main_arg23)) (m ((c.tc : Thread nD τ).loc main_arg25)) (m ((c.tc : Thread nD τ).loc main_arg24)) (m ((c.tc : Thread nD τ).loc main_arg0))
      (fun r k => ((m ((c.tc : Thread nD τ).loc main_arg2)) (ix2 r k)).toReal) (fun r k => coe_toReal_of (h2 (ix2 r k)))
      (fun n k => ((m ((c.tc : Thread nD τ).loc main_arg23)) (ix2 n k)).toReal) (fun n k => coe_toReal_of (h23 (ix2 n k)))
      (broadcastInDim S800000x1 ![0] bcast_S800000_S800000x1_0 (select (cmpi .slt (m ((c.tc : Thread nD τ).loc main_arg10)) (broadcastInDim S800000 ![] bcast_S_S800000 (constantI S_ 32 0#32))) (addi (m ((c.tc : Thread nD τ).loc main_arg10)) (broadcastInDim S800000 ![] bcast_S_S800000 (constantI S_ 32 20000#32))) (m ((c.tc : Thread nD τ).loc main_arg10))))
      (broadcastInDim S800000x1 ![0] bcast_S800000_S800000x1_0 (m ((c.tc : Thread nD τ).loc main_arg11))) j n
  have hT5 :=
    mul_last_apply (N := 10000) (by decide) dot_S100000x128_S128x128_S100000x128_1_0_0_1_n_n rfl
      gather_S10000x128_S800000x1_S800000x128_1_0_n_n_0_1_1128 rfl rfl rfl rfl rfl rfl rfl
      scatter_S100000x128_S800000x1_S800000x128_1_0_0_1 rfl rfl rfl rfl
      scatter_S100000_S800000x1_S800000_n_0_0_1 rfl rfl rfl rfl
      transposes_S128x128_S128x128_1_0 bcast_S_S100000x128 bcast_S_S800000 bcast_S_S100000
      bcast_S100000_S100000x1_0 bcast_S100000x1_S100000x128_0_1 bcast_S128_S1x128_1 bcast_S1x128_S100000x128_0_1
      (m ((c.tc : Thread nD τ).loc main_arg3)) (m ((c.tc : Thread nD τ).loc main_arg26)) (m ((c.tc : Thread nD τ).loc main_arg28)) (m ((c.tc : Thread nD τ).loc main_arg27)) (m ((c.tc : Thread nD τ).loc main_arg0))
      (fun r k => ((m ((c.tc : Thread nD τ).loc main_arg3)) (ix2 r k)).toReal) (fun r k => coe_toReal_of (h3 (ix2 r k)))
      (fun n k => ((m ((c.tc : Thread nD τ).loc main_arg26)) (ix2 n k)).toReal) (fun n k => coe_toReal_of (h26 (ix2 n k)))
      (broadcastInDim S800000x1 ![0] bcast_S800000_S800000x1_0 (select (cmpi .slt (m ((c.tc : Thread nD τ).loc main_arg12)) (broadcastInDim S800000 ![] bcast_S_S800000 (constantI S_ 32 0#32))) (addi (m ((c.tc : Thread nD τ).loc main_arg12)) (broadcastInDim S800000 ![] bcast_S_S800000 (constantI S_ 32 10000#32))) (m ((c.tc : Thread nD τ).loc main_arg12))))
      (broadcastInDim S800000x1 ![0] bcast_S800000_S800000x1_0 (m ((c.tc : Thread nD τ).loc main_arg13))) j n
  rw [hT1, hT2, hT3, hT4, hT5]
  rw [bcast_scalar, constant_apply, ofBits_zero]
  rw [own_sum_real (m ((c.tc : Thread nD τ).loc main_arg0)) (m ((c.tc : Thread nD τ).loc main_arg16)) h0 h16 j n,
    own_sum_real (m ((c.tc : Thread nD τ).loc main_arg0)) (m ((c.tc : Thread nD τ).loc main_arg19)) h0 h19 j n,
    own_sum_real (m ((c.tc : Thread nD τ).loc main_arg0)) (m ((c.tc : Thread nD τ).loc main_arg22)) h0 h22 j n,
    own_sum_real (m ((c.tc : Thread nD τ).loc main_arg0)) (m ((c.tc : Thread nD τ).loc main_arg25)) h0 h25 j n,
    own_sum_real (m ((c.tc : Thread nD τ).loc main_arg0)) (m ((c.tc : Thread nD τ).loc main_arg28)) h0 h28 j n,
    bias_real (m ((c.tc : Thread nD τ).loc main_arg15)) h15 n,
    bias_real (m ((c.tc : Thread nD τ).loc main_arg18)) h18 n,
    bias_real (m ((c.tc : Thread nD τ).loc main_arg21)) h21 n,
    bias_real (m ((c.tc : Thread nD τ).loc main_arg24)) h24 n,
    bias_real (m ((c.tc : Thread nD τ).loc main_arg27)) h27 n]
  unfold entry
  exact layer_split _ _ _ _ _ _ _ _ _ _ _ _ _ _ _ _

end Cert.ReferenceIdeal.RefValue

end
-- ==== Proof.Finite.lean ====
/-
  Finiteness of the float arguments. The precondition `finite_inputs` is printed as an `and`-chain with one link per
  float argument array `x`: the conjunction over all entries of `|x| < +inf`, written as the absolute value, a
  comparison `<` with the broadcast f32 pattern 0x7F800000 (which denotes +inf), and a reduction by `and` over every
  axis starting from 1. Where the function is 1, each link is 1, so each comparison is 1 at every index, and an
  extended real whose absolute value lies strictly below +inf is a real. The integer index arrays are not constrained.
-/
import proofs.«113430_j8022998908984_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic

/-- An extended real strictly below +inf in absolute value is a real: the absolute value `max x (-x)` of either
    infinity is +inf. -/
theorem exists_real_of_abs_lt_top {x : EReal} (h : max x (-x) < ⊤) : ∃ r : ℝ, x = (r : EReal) := by
  induction x using EReal.rec with
  | bot => simp at h
  | coe r => exact ⟨r, rfl⟩
  | top => simp at h

/-- The scalar shape has exactly one index: a rank-0 index has no coordinate to differ in. -/
instance scalarIdxSubsingleton : Subsingleton Cert.Pre_finite_inputs.S_.Idx :=
  ⟨fun a b => funext fun d => d.elim0⟩

/-- One link of the chain, for an array of any shape `s`: if the reduction by `and` over all axes of the elementwise
    comparison of `|a|` with the broadcast pattern of +inf is 1, then every entry of `a` is a real. The reduction has
    a single result index, so it being 1 makes the comparison 1 at every index `i`; there the comparison reads
    `max (a i) (-(a i)) < ⊤`. -/
theorem all_real {s : Shape} {dims : Fin Cert.Pre_finite_inputs.S_.rank → Fin s.rank}
    (hb : Cert.Pre_finite_inputs.S_.BroadcastsInDim s dims) {axes : List (Fin s.rank)}
    (hr : s.ReducesTo axes Cert.Pre_finite_inputs.S_) (hu : 0 < Cert.Pre_finite_inputs.S_.numel)
    (a : FVec Ideal s .f32) (init : IVec Cert.Pre_finite_inputs.S_ 1) (j : Cert.Pre_finite_inputs.S_.Idx)
    (e : Host.reduce IntOp.andi
        (cmpf .olt (Host.absf a)
          (broadcastInDim s dims hb (constant (F := Ideal) Cert.Pre_finite_inputs.S_ .f32 0x7F800000#32)))
        init hr hu j = 1#1) :
    ∀ i, ∃ r : ℝ, a i = (r : EReal) := by
  intro i
  have hi := Host.reduce_andi_all _ init hr hu j e i
  -- the comparison at `i`, with every operation read at the extended reals
  have hi' : Ideal.cmp .olt (max (a i) (-(a i))) (Ideal.ofBits .f32 0x7F800000#32) = 1#1 := hi
  have htop : Ideal.ofBits .f32 0x7F800000#32 = ⊤ := by simp [Ideal.ofBits, Ideal.ieee]
  rw [htop] at hi'
  apply exists_real_of_abs_lt_top
  by_contra hn
  simp [Ideal.cmp, hn] at hi'

open Cert.Pre_finite_inputs in
/-- The printed precondition `finite_inputs`, read back: where it holds, every entry of each of the nineteen float
    arguments is a real (arguments 4 to 13 are integer arrays and are not constrained). At the one index of its result
    the function is an `and` of nineteen links, nested to the left in argument order; an `and` of two bits is 1 only
    if both are, so every link is 1, and each link is `all_real`. -/
theorem finite_of_pre [Cert.Pre_finite_inputs.Facts]
    (a0 : FVec Ideal Cert.Pre_finite_inputs.S100000x128 .f32) (a1 : FVec Ideal Cert.Pre_finite_inputs.S20000x128 .f32) (a2 : FVec Ideal Cert.Pre_finite_inputs.S20000x128 .f32)
    (a3 : FVec Ideal Cert.Pre_finite_inputs.S10000x128 .f32) (a4 : IVec Cert.Pre_finite_inputs.S800000 32) (a5 : IVec Cert.Pre_finite_inputs.S800000 32)
    (a6 : IVec Cert.Pre_finite_inputs.S800000 32) (a7 : IVec Cert.Pre_finite_inputs.S800000 32) (a8 : IVec Cert.Pre_finite_inputs.S800000 32)
    (a9 : IVec Cert.Pre_finite_inputs.S800000 32) (a10 : IVec Cert.Pre_finite_inputs.S800000 32) (a11 : IVec Cert.Pre_finite_inputs.S800000 32)
    (a12 : IVec Cert.Pre_finite_inputs.S800000 32) (a13 : IVec Cert.Pre_finite_inputs.S800000 32) (a14 : FVec Ideal Cert.Pre_finite_inputs.S128x128 .f32)
    (a15 : FVec Ideal Cert.Pre_finite_inputs.S128 .f32) (a16 : FVec Ideal Cert.Pre_finite_inputs.S128x128 .f32) (a17 : FVec Ideal Cert.Pre_finite_inputs.S128x128 .f32)
    (a18 : FVec Ideal Cert.Pre_finite_inputs.S128 .f32) (a19 : FVec Ideal Cert.Pre_finite_inputs.S128x128 .f32) (a20 : FVec Ideal Cert.Pre_finite_inputs.S128x128 .f32)
    (a21 : FVec Ideal Cert.Pre_finite_inputs.S128 .f32) (a22 : FVec Ideal Cert.Pre_finite_inputs.S128x128 .f32) (a23 : FVec Ideal Cert.Pre_finite_inputs.S128x128 .f32)
    (a24 : FVec Ideal Cert.Pre_finite_inputs.S128 .f32) (a25 : FVec Ideal Cert.Pre_finite_inputs.S128x128 .f32) (a26 : FVec Ideal Cert.Pre_finite_inputs.S128x128 .f32)
    (a27 : FVec Ideal Cert.Pre_finite_inputs.S128 .f32) (a28 : FVec Ideal Cert.Pre_finite_inputs.S128x128 .f32)
    (h : Cert.Pre_finite_inputs.fn (F := Ideal) a0 a1 a2 a3 a4 a5 a6 a7 a8 a9 a10 a11 a12 a13 a14 a15 a16 a17 a18 a19 a20 a21 a22 a23 a24 a25 a26 a27 a28 = fun _ => 1#1) :
      (∀ i, ∃ r : ℝ, a0 i = (r : EReal)) ∧ (∀ i, ∃ r : ℝ, a1 i = (r : EReal)) ∧ (∀ i, ∃ r : ℝ, a2 i = (r : EReal)) ∧
      (∀ i, ∃ r : ℝ, a3 i = (r : EReal)) ∧ (∀ i, ∃ r : ℝ, a14 i = (r : EReal)) ∧ (∀ i, ∃ r : ℝ, a15 i = (r : EReal)) ∧
      (∀ i, ∃ r : ℝ, a16 i = (r : EReal)) ∧ (∀ i, ∃ r : ℝ, a17 i = (r : EReal)) ∧ (∀ i, ∃ r : ℝ, a18 i = (r : EReal)) ∧
      (∀ i, ∃ r : ℝ, a19 i = (r : EReal)) ∧ (∀ i, ∃ r : ℝ, a20 i = (r : EReal)) ∧ (∀ i, ∃ r : ℝ, a21 i = (r : EReal)) ∧
      (∀ i, ∃ r : ℝ, a22 i = (r : EReal)) ∧ (∀ i, ∃ r : ℝ, a23 i = (r : EReal)) ∧ (∀ i, ∃ r : ℝ, a24 i = (r : EReal)) ∧
      (∀ i, ∃ r : ℝ, a25 i = (r : EReal)) ∧ (∀ i, ∃ r : ℝ, a26 i = (r : EReal)) ∧ (∀ i, ∃ r : ℝ, a27 i = (r : EReal)) ∧
      (∀ i, ∃ r : ℝ, a28 i = (r : EReal)) := by
  have h0 := congrFun h ValueIdx.ix0
  simp only [fn, fn_part1, fn_part2, fn_part3, fn_part4, fn_part5, andi, IntOp.andi_eq_one] at h0
  obtain ⟨⟨⟨⟨⟨⟨⟨⟨⟨⟨⟨⟨⟨⟨⟨⟨⟨⟨e0, e1⟩, e2⟩, e3⟩, e14⟩, e15⟩, e16⟩, e17⟩, e18⟩, e19⟩, e20⟩, e21⟩, e22⟩, e23⟩, e24⟩, e25⟩, e26⟩, e27⟩, e28⟩ := h0
  exact ⟨all_real _ _ _ _ _ _ e0,
    all_real _ _ _ _ _ _ e1,
    all_real _ _ _ _ _ _ e2,
    all_real _ _ _ _ _ _ e3,
    all_real _ _ _ _ _ _ e14,
    all_real _ _ _ _ _ _ e15,
    all_real _ _ _ _ _ _ e16,
    all_real _ _ _ _ _ _ e17,
    all_real _ _ _ _ _ _ e18,
    all_real _ _ _ _ _ _ e19,
    all_real _ _ _ _ _ _ e20,
    all_real _ _ _ _ _ _ e21,
    all_real _ _ _ _ _ _ e22,
    all_real _ _ _ _ _ _ e23,
    all_real _ _ _ _ _ _ e24,
    all_real _ _ _ _ _ _ e25,
    all_real _ _ _ _ _ _ e26,
    all_real _ _ _ _ _ _ e27,
    all_real _ _ _ _ _ _ e28⟩

end Cert.Finite

end
-- ==== Proof.lean ====
/-
  A graph layer with five relations: for every destination row, each relation averages the source rows its edges
  name (a gather along the edges, a sum onto the destination rows, a division by the in-degree clamped below at one),
  applies a linear map, adds a bias and the destination's own features under a second linear map; the five results
  are added and clamped at zero.

  The kernel program moves the first linear map in front of the gather (on the small source tables), passes the sums
  and the reciprocals of the clamped in-degrees to one fused kernel that scales, adds, multiplies the destination
  features by the SUM of the five second matrices, adds the SUM of the five biases and clamps; the reference does each
  relation in the textbook order. On real entries (the precondition makes every float input finite) the two agree
  because averaging is linear and the product distributes over the sum of matrices: both end with `Cert.Layer.G` of
  the arguments (the arithmetic is `Cert.Spec.agg_mul_first`, `agg_mul_last`, `layer_fused`, `layer_split`).

  The pieces: the kernel program runs to the end and keeps its arguments (`Cert.Kernel.Hand.frame` at the word level,
  `Cert.KernelIdeal.Hand.frame` at the exact level); the exact-level run leaves `Cert.Layer.G` in the output array
  (`Cert.KernelIdeal.HostValue`: what the host operations hand the kernel; `Cert.KernelIdeal.Blocks.out9_apply`: what
  the body stores in a block; `Cert.KernelIdeal.KValue.final9`: the fifty blocks cover the array); the reference's run
  leaves the same array (`Cert.ReferenceIdeal.RefValue.result_eq`); every float argument is real under the
  precondition (`Cert.Finite.finite_of_pre`). The idealized kernel program is the printed program read at the exact
  level with nothing rewritten, so there is nothing to preserve.
-/
import proofs.«113430_j8022998908984_2_alg».proof.Defs
import proofs.«113430_j8022998908984_2_alg».proof.Proof.Gen.Kernel
import proofs.«113430_j8022998908984_2_alg».proof.Proof.Gen.KernelIdeal
import proofs.«113430_j8022998908984_2_alg».proof.Proof.Gen.ReferenceIdeal
import proofs.«113430_j8022998908984_2_alg».proof.Proof.Gen.Pre_finite_inputs
import proofs.«113430_j8022998908984_2_alg».proof.Proof.Gen.ReferenceIdeal.Run
import proofs.«113430_j8022998908984_2_alg».proof.Proof.KernelFrame
import proofs.«113430_j8022998908984_2_alg».proof.Proof.KernelIdealFrame
import proofs.«113430_j8022998908984_2_alg».proof.Proof.KernelValue
import proofs.«113430_j8022998908984_2_alg».proof.Proof.RefValue
import proofs.«113430_j8022998908984_2_alg».proof.Proof.Finite
import Idealize.ShloMosaic.Adequacy
import Idealize.ShloMosaic.Init

set_option maxRecDepth 16384

noncomputable section

namespace Cert.Proof

open Idealize.ShloMosaic Idealize.SL.Sem

/-- The word-level kernel program terminates without a fault and keeps its arguments. -/
theorem frame_k [Cert.Kernel.Facts] [Cert.Pre_finite_inputs.Facts] : Cert.frame_Kernel :=
  fun m ρ _ => Cert.Kernel.Hand.frame m ρ

/-- So does the kernel program at the exact level. -/
theorem frame_ki [Cert.KernelIdeal.Facts] [Cert.Pre_finite_inputs.Facts] : Cert.frame_KernelIdeal :=
  fun m ρ _ => Cert.KernelIdeal.Hand.frame m ρ

/-- So does the reference: its run with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The two programs, from memories agreeing on the arguments, end with the same array: the layer's result of the
    arguments, every float argument being real by the precondition. -/
theorem algebraic [Cert.KernelIdeal.Facts] [Cert.ReferenceIdeal.Facts] [Cert.Pre_finite_inputs.Facts] :
    Cert.algebraic_KernelIdeal_ReferenceIdeal := by
  intro m ρ m' ρ' hpre hagree
  have hfin : ∀ c, Cert.KernelIdeal.KValue.AllReal m c := fun c =>
    Cert.Finite.finite_of_pre _ _ _ _ _ _ _ _ _ _ _ _ _ _ _ _ _ _ _ _ _ _ _ _ _ _ _ _ _ (hpre c)
  refine ⟨fun c => Cert.KernelIdeal.KValue.result m c, ?_, ?_⟩
  · exact (θ_run Cert.KernelIdeal.defs _ _).mono
      (fun r h c => ⟨(Cert.KernelIdeal.Hand.post9 m r h c).trans (Cert.KernelIdeal.KValue.final9 m c (hfin c)),
        Cert.KernelIdeal.Hand.kept_all m r h c⟩)
      (Cert.KernelIdeal.Hand.run_main m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h14, h15, h16, h17, h18, h19, h20, h21, h22, h23, h24, h25, h26, h27, h28⟩ := hfin c
    obtain ⟨e0, e1, e2, e3, e4, e5, e6, e7, e8, e9, e10, e11, e12, e13, e14, e15, e16, e17, e18, e19, e20, e21, e22, e23, e24, e25, e26, e27, e28⟩ := hagree c
    rw [Cert.ReferenceIdeal.RefValue.result_eq m' c
      (by rw [e0]; exact h0)
      (by rw [e1]; exact h1)
      (by rw [e2]; exact h2)
      (by rw [e3]; exact h3)
      (by rw [e14]; exact h14)
      (by rw [e15]; exact h15)
      (by rw [e16]; exact h16)
      (by rw [e17]; exact h17)
      (by rw [e18]; exact h18)
      (by rw [e19]; exact h19)
      (by rw [e20]; exact h20)
      (by rw [e21]; exact h21)
      (by rw [e22]; exact h22)
      (by rw [e23]; exact h23)
      (by rw [e24]; exact h24)
      (by rw [e25]; exact h25)
      (by rw [e26]; exact h26)
      (by rw [e27]; exact h27)
      (by rw [e28]; exact h28)]
    rw [e0, e1, e2, e3, e4, e5, e6, e7, e8, e9, e10, e11, e12, e13, e14, e15, e16, e17, e18, e19, e20, e21, e22, e23, e24, e25, e26, e27, e28]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
